-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S300x50000 : Shape := ⟨2, ![300, 50000]⟩
abbrev S50000x300 : Shape := ⟨2, ![50000, 300]⟩
abbrev S_ : Shape := ⟨0, ![]⟩

class Facts : Prop where
  bcast_S_S300x50000 : S_.BroadcastsInDim S300x50000 (![] : Fin 0 → Fin S300x50000.rank)
  reducesTo_S300x50000_S_d0_1 : S300x50000.ReducesTo [0, 1] S_
  h_S_ : 0 < S_.numel
  bcast_S_S50000x300 : S_.BroadcastsInDim S50000x300 (![] : Fin 0 → Fin S50000x300.rank)
  reducesTo_S50000x300_S_d0_1 : S50000x300.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : IVec S4096 32) (main_arg1 : FVec F S300x50000 .f32) (main_arg2 : FVec F S50000x300 .f32) : IVec S_ 1 :=
  let main_v0 : FVec F S300x50000 .f32 := Host.absf main_arg1
  let main_cst : FVec F S_ .f32 := constant S_ .f32 0x7F800000#32
  let main_v1 : FVec F S300x50000 .f32 := broadcastInDim S300x50000 ![] bcast_S_S300x50000 main_cst
  let main_v2 : IVec S300x50000 1 := cmpf .olt main_v0 main_v1
  let main_c : IVec S_ 1 := constantI S_ 1 1#1
  let main_v3 : IVec S_ 1 := (fun x v => Host.reduce IntOp.andi x v reducesTo_S300x50000_S_d0_1 h_S_) main_v2 main_c
  let main_v4 : FVec F S50000x300 .f32 := Host.absf main_arg2
  let main_cst_0 : FVec F S_ .f32 := constant S_ .f32 0x7F800000#32
  let main_v5 : FVec F S50000x300 .f32 := broadcastInDim S50000x300 ![] bcast_S_S50000x300 main_cst_0
  let main_v6 : IVec S50000x300 1 := cmpf .olt main_v4 main_v5
  let main_c_1 : IVec S_ 1 := constantI S_ 1 1#1
  let main_v7 : IVec S_ 1 := (fun x v => Host.reduce IntOp.andi x v reducesTo_S50000x300_S_d0_1 h_S_) main_v6 main_c_1
  let main_v8 : IVec S_ 1 := andi main_v3 main_v7
  let main_c_2 : IVec S_ 32 := constantI S_ 32 4294917296#32
  let main_v9 : IVec S4096 32 := broadcastInDim S4096 ![] bcast_S_S4096 main_c_2
  let main_v10 : IVec S4096 1 := cmpi .sge main_arg0 main_v9
  let main_c_3 : IVec S_ 32 := constantI S_ 32 50000#32
  let main_v11 : IVec S4096 32 := broadcastInDim S4096 ![] bcast_S_S4096 main_c_3
  let main_v12 : IVec S4096 1 := cmpi .slt main_arg0 main_v11
  let main_v13 : IVec S4096 1 := andi main_v10 main_v12
  let main_c_4 : IVec S_ 1 := constantI S_ 1 1#1
  let main_v14 : IVec S_ 1 := (fun x v => Host.reduce IntOp.andi x v reducesTo_S4096_S_d0 h_S_) main_v13 main_c_4
  let main_v15 : IVec S_ 1 := andi main_v8 main_v14
  main_v15
-- ==== Kernel.lean ====
abbrev S4096 : Shape := ⟨1, ![4096]⟩
abbrev S300x50000 : Shape := ⟨2, ![300, 50000]⟩
abbrev S50000x300 : Shape := ⟨2, ![50000, 300]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x300 : Shape := ⟨2, ![4096, 300]⟩
abbrev S4096x384 : Shape := ⟨2, ![4096, 384]⟩
abbrev S50000x384 : Shape := ⟨2, ![50000, 384]⟩
abbrev S2048x384 : Shape := ⟨2, ![2048, 384]⟩
abbrev S2048x1 : Shape := ⟨2, ![2048, 1]⟩
abbrev S2048x2048 : Shape := ⟨2, ![2048, 2048]⟩
abbrev S2048 : Shape := ⟨1, ![2048]⟩
abbrev S4096x50000 : Shape := ⟨2, ![4096, 50000]⟩

abbrev nBuf : Space → Nat
  | .hbm => 37
  | .vmem => 16
  | .smem => 0
  | _ => 0

abbrev bufTy : (tb : Table) → Fin (tcTables nBuf tb) → BufTy
  | .hbm, ⟨0, _⟩ => ⟨S4096, .i32⟩
  | .hbm, ⟨1, _⟩ => ⟨S300x50000, .f32⟩
  | .hbm, ⟨2, _⟩ => ⟨S50000x300, .f32⟩
  | .hbm, ⟨3, _⟩ => ⟨S50000x300, .f32⟩
  | .hbm, ⟨4, _⟩ => ⟨S_, .i32⟩
  | .hbm, ⟨5, _⟩ => ⟨S4096, .i32⟩
  | .hbm, ⟨6, _⟩ => ⟨S4096, .i1⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S4096x1, .i32⟩
  | .hbm, ⟨12, _⟩ => ⟨S1, .i32⟩
  | .hbm, ⟨13, _⟩ => ⟨S_, .i32⟩
  | .hbm, ⟨14, _⟩ => ⟨S4096x1, .i32⟩
  | .hbm, ⟨15, _⟩ => ⟨S4096x1, .i1⟩
  | .hbm, ⟨16, _⟩ => ⟨S1x1, .i32⟩
  | .hbm, ⟨17, _⟩ => ⟨S4096x1, .i32⟩
  | .hbm, ⟨18, _⟩ => ⟨S4096x1, .i1⟩
  | .hbm, ⟨19, _⟩ => ⟨S4096x1, .i1⟩
  | .hbm, ⟨20, _⟩ => ⟨S_, .i1⟩
  | .hbm, ⟨21, _⟩ => ⟨S4096, .i1⟩
  | .hbm, ⟨22, _⟩ => ⟨S4096x300, .f32⟩
  | .hbm, ⟨23, _⟩ => ⟨S4096x300, .i1⟩
  | .hbm, ⟨24, _⟩ => ⟨S_, .f32⟩
  | .hbm, ⟨25, _⟩ => ⟨S4096x300, .f32⟩
  | .hbm, ⟨26, _⟩ => ⟨S4096x300, .f32⟩
  | .hbm, ⟨27, _⟩ => ⟨S_, .i32⟩
  | .hbm, ⟨28, _⟩ => ⟨S_, .f32⟩
  | .hbm, ⟨29, _⟩ => ⟨S4096x384, .f32⟩
  | .hbm, ⟨30, _⟩ => ⟨S4096x384, .bf16⟩
  | .hbm, ⟨31, _⟩ => ⟨S_, .i32⟩
  | .hbm, ⟨32, _⟩ => ⟨S_, .f32⟩
  | .hbm, ⟨33, _⟩ => ⟨S50000x384, .f32⟩
  | .hbm, ⟨34, _⟩ => ⟨S50000x384, .bf16⟩
  | .hbm, ⟨35, _⟩ => ⟨S4096x1, .f32⟩
  | .hbm, ⟨36, _⟩ => ⟨S4096x50000, .f32⟩
  | .local _ .vmem, ⟨0, _⟩ => ⟨S2048x384, .bf16⟩
  | .local _ .vmem, ⟨1, _⟩ => ⟨S2048x384, .bf16⟩
  | .local _ .vmem, ⟨2, _⟩ => ⟨S2048x384, .bf16⟩
  | .local _ .vmem, ⟨3, _⟩ => ⟨S2048x384, .bf16⟩
  | .local _ .vmem, ⟨4, _⟩ => ⟨S2048x1, .f32⟩
  | .local _ .vmem, ⟨5, _⟩ => ⟨S2048x1, .f32⟩
  | .local _ .vmem, ⟨6, _⟩ => ⟨S2048x1, .f32⟩
  | .local _ .vmem, ⟨7, _⟩ => ⟨S2048x1, .f32⟩
  | .local _ .vmem, ⟨8, _⟩ => ⟨S2048x384, .bf16⟩
  | .local _ .vmem, ⟨9, _⟩ => ⟨S2048x384, .bf16⟩
  | .local _ .vmem, ⟨10, _⟩ => ⟨S2048x384, .bf16⟩
  | .local _ .vmem, ⟨11, _⟩ => ⟨S2048x384, .bf16⟩
  | .local _ .vmem, ⟨12, _⟩ => ⟨S2048x1, .f32⟩
  | .local _ .vmem, ⟨13, _⟩ => ⟨S2048x1, .f32⟩
  | .local _ .vmem, ⟨14, _⟩ => ⟨S2048x2048, .f32⟩
  | .local _ .vmem, ⟨15, _⟩ => ⟨S2048x2048, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_c : Ref sig .tc := ⟨.hbm, 27, rfl⟩
abbrev main_call1_v0 : Ref sig .tc := ⟨.hbm, 28, rfl⟩
abbrev main_v2 : Ref sig .tc := ⟨.hbm, 29, rfl⟩
abbrev main_v3 : Ref sig .tc := ⟨.hbm, 30, rfl⟩
abbrev main_c_0 : Ref sig .tc := ⟨.hbm, 31, rfl⟩
abbrev main_call2_v0 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v37 : BitVec 1 := Scalar.cmpi .eq arg1 c24_i32
  let v38 : BitVec 32 := Scalar.extui v37
  let c0_i32_17 : BitVec 32 := 0#32
  let v39 : BitVec 1 := Scalar.cmpi .ne v38 c0_i32_17
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 25], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x384 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x384 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  transposes_S300x50000_S50000x300_1_0 : S300x50000.Transposes [1, 0] S50000x300
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x300_0 : S4096.BroadcastsInDim S4096x300 (![0] : Fin 1 → Fin S4096x300.rank)
  bcast_S_S4096x300 : S_.BroadcastsInDim S4096x300 (![] : Fin 0 → Fin S4096x300.rank)
  pads_S4096x300_S4096x384_000_0840 : S4096x300.Pads (![0, 0] : Fin 2 → Nat) ![0, 84] ![0, 0] S4096x384
  bitsLt_bf16_f32 : FTy.bits .bf16 < FTy.bits .f32
  pads_S50000x300_S50000x384_000_0840 : S50000x300.Pads (![0, 0] : Fin 2 → Nat) ![0, 84] ![0, 0] S50000x384
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x384_S2048x384_0_0 : ∀ a, (![0, 0] : Fin 2 → Nat) a + S2048x384.size a ≤ S2048x384.size a
  h_S2048x384 : 0 < S2048x384.numel
  shapeCasts_S2048x384_S2048x384 : S2048x384.ShapeCasts S2048x384
  iota_S2048x2048_d1_w32 : S2048x2048.Iotas .tc 32 [1]
  reduces_S2048x2048_S2048 : S2048x2048.Reduces [1] S2048
  shapeCasts_S2048_S2048x1 : S2048.ShapeCasts S2048x1
  broadcasts_S2048x1_S2048x2048 : S2048x1.Broadcasts S2048x2048
  inb_S2048x2048_S2048x2048_0_0 : ∀ a, (![0, 0] : Fin 2 → Nat) a + S2048x2048.size a ≤ S2048x2048.size a
  h_S2048x2048 : 0 < S2048x2048.numel
  gather_S50000x300_S4096x1_S4096x300_1_0_n_n_0_1_1300_wf : GatherDims.WF S50000x300 S4096x1 S4096x300 [1] [0] [] [0] [] 1 ![1, 300]
  dot_S2048x384_S2048x384_S2048x2048_1_1_0_0_n_n_wf : DotDims.WF S2048x384 S2048x384 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x384.size a ≤ S4096x384.size a
  hwx0_0 : ∀ i : grid0.Coords, EltTy.bits .bf16 = 32 ∨ (Rect.block (s := S4096x384) S2048x384.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x384.size a < S50000x384.size a
  hwx0_1 : ∀ i : grid0.Coords, EltTy.bits .bf16 = 32 ∨ (Rect.unit (s := S50000x384) (fun a => cc0_transform_1 i a * S2048x384.size a) (fun a => (Pipeline.Clip.of (cc0_transform_1 i a) (S2048x384.size a) (S50000x384.size a)).extent (S2048x384.size a)) fun a => Pipeline.Clip.inb (Pipeline.Clip.ok_of (hstart0_1 i a))).WholeWords (EltTy.packing .bf16)
  hwxs0_1 : ∀ i : grid0.Coords, EltTy.bits .bf16 = 32 ∨ (Rect.unit (s := S2048x384) (fun _ => 0) (fun a => (Pipeline.Clip.of (cc0_transform_1 i a) (S2048x384.size a) (S50000x384.size a)).extent (S2048x384.size a)) fun a => (Nat.zero_add _).trans_le (Pipeline.Clip.extent_le (Pipeline.Clip.ok_of (hstart0_1 i a)))).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S4096x1.size a
  hwx0_2 : ∀ i : grid0.Coords, EltTy.bits .f32 = 32 ∨ (Rect.block (s := S4096x1) S2048x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x384.size a ≤ S4096x384.size a
  hwx1_0 : ∀ i : grid1.Coords, EltTy.bits .bf16 = 32 ∨ (Rect.block (s := S4096x384) S2048x384.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S2048x384.size a < S50000x384.size a
  hwx1_1 : ∀ i : grid1.Coords, EltTy.bits .bf16 = 32 ∨ (Rect.unit (s := S50000x384) (fun a => cc1_transform_1 i a * S2048x384.size a) (fun a => (Pipeline.Clip.of (cc1_transform_1 i a) (S2048x384.size a) (S50000x384.size a)).extent (S2048x384.size a)) fun a => Pipeline.Clip.inb (Pipeline.Clip.ok_of (hstart1_1 i a))).WholeWords (EltTy.packing .bf16)
  hwxs1_1 : ∀ i : grid1.Coords, EltTy.bits .bf16 = 32 ∨ (Rect.unit (s := S2048x384) (fun _ => 0) (fun a => (Pipeline.Clip.of (cc1_transform_1 i a) (S2048x384.size a) (S50000x384.size a)).extent (S2048x384.size a)) fun a => (Nat.zero_add _).trans_le (Pipeline.Clip.extent_le (Pipeline.Clip.ok_of (hstart1_1 i a)))).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S4096x1.size a
  hwx1_2 : ∀ i : grid1.Coords, EltTy.bits .f32 = 32 ∨ (Rect.block (s := S4096x1) S2048x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S2048x2048.size a < S4096x50000.size a
  hwx1_3 : ∀ i : grid1.Coords, EltTy.bits .f32 = 32 ∨ (Rect.unit (s := S4096x50000) (fun a => cc1_transform_3 i a * S2048x2048.size a) (fun a => (Pipeline.Clip.of (cc1_transform_3 i a) (S2048x2048.size a) (S4096x50000.size a)).extent (S2048x2048.size a)) fun a => Pipeline.Clip.inb (Pipeline.Clip.ok_of (hstart1_3 i a))).WholeWords (EltTy.packing .f32)
  hwxs1_3 : ∀ i : grid1.Coords, EltTy.bits .f32 = 32 ∨ (Rect.unit (s := S2048x2048) (fun _ => 0) (fun a => (Pipeline.Clip.of (cc1_transform_3 i a) (S2048x2048.size a) (S4096x50000.size a)).extent (S2048x2048.size a)) fun a => (Nat.zero_add _).trans_le (Pipeline.Clip.extent_le (Pipeline.Clip.ok_of (hstart1_3 i a)))).WholeWords (EltTy.packing .f32)

variable [Facts₀]

def gather_S50000x300_S4096x1_S4096x300_1_0_n_n_0_1_1300 : GatherDims S50000x300 S4096x1 S4096x300 where
  offsetDims := [1]
  collapsedSliceDims := [0]
  operandBatchingDims := []
  startIndicesBatchingDims := []
  startIndexMap := [0]
  indexVectorDim := 1
  sliceSizes := ![1, 300]
  wf := gather_S50000x300_S4096x1_S4096x300_1_0_n_n_0_1_1300_wf
def dot_S2048x384_S2048x384_S2048x2048_1_1_0_0_n_n : DotDims S2048x384 S2048x384 S2048x2048 where
  lhsContracting := [1]
  rhsContracting := [1]
  lhsNonContracting := [0]
  rhsNonContracting := [0]
  lhsBatch := []
  rhsBatch := []
  wf := dot_S2048x384_S2048x384_S2048x2048_1_1_0_0_n_n_wf

abbrev win0_0 : Pipeline.Window sig grid0 :=
  Pipeline.Window.ofSpec (Memref.whole main_v3) S2048x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_v5) S2048x384.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v6) S2048x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v3) S2048x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpecClip (Memref.whole main_v5) S2048x384.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpec (Memref.whole main_v6) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpecClip (Memref.whole main_v7) S2048x2048.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096 : Shape := ⟨1, ![4096]⟩
abbrev S300x50000 : Shape := ⟨2, ![300, 50000]⟩
abbrev S50000x300 : Shape := ⟨2, ![50000, 300]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S300x4096 : Shape := ⟨2, ![300, 4096]⟩
abbrev S4096x300 : Shape := ⟨2, ![4096, 300]⟩
abbrev S4096x50000 : Shape := ⟨2, ![4096, 50000]⟩

abbrev nBuf : Space → Nat
  | .hbm => 43
  | .vmem => 0
  | .smem => 0
  | _ => 0

abbrev bufTy : (tb : Table) → Fin (tcTables nBuf tb) → BufTy
  | .hbm, ⟨0, _⟩ => ⟨S4096, .i32⟩
  | .hbm, ⟨1, _⟩ => ⟨S300x50000, .f32⟩
  | .hbm, ⟨2, _⟩ => ⟨S50000x300, .f32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S1, .i32⟩
  | .hbm, ⟨12, _⟩ => ⟨S_, .i32⟩
  | .hbm, ⟨13, _⟩ => ⟨S4096x1, .i32⟩
  | .hbm, ⟨14, _⟩ => ⟨S4096x1, .i1⟩
  | .hbm, ⟨15, _⟩ => ⟨S1x1, .i32⟩
  | .hbm, ⟨16, _⟩ => ⟨S4096x1, .i32⟩
  | .hbm, ⟨17, _⟩ => ⟨S4096x1, .i1⟩
  | .hbm, ⟨18, _⟩ => ⟨S4096x1, .i1⟩
  | .hbm, ⟨19, _⟩ => ⟨S_, .i1⟩
  | .hbm, ⟨20, _⟩ => ⟨S4096, .i1⟩
  | .hbm, ⟨21, _⟩ => ⟨S300x4096, .f32⟩
  | .hbm, ⟨22, _⟩ => ⟨S300x4096, .i1⟩
  | .hbm, ⟨23, _⟩ => ⟨S_, .f32⟩
  | .hbm, ⟨24, _⟩ => ⟨S300x4096, .f32⟩
  | .hbm, ⟨25, _⟩ => ⟨S300x4096, .f32⟩
  | .hbm, ⟨26, _⟩ => ⟨S4096x300, .f32⟩
  | .hbm, ⟨27, _⟩ => ⟨S4096x50000, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S4096x1, .f32⟩
  | .hbm, ⟨34, _⟩ => ⟨S4096x50000, .f32⟩
  | .hbm, ⟨35, _⟩ => ⟨S4096x50000, .f32⟩
  | .hbm, ⟨36, _⟩ => ⟨S4096x50000, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1, .f32⟩
  | .hbm, ⟨41, _⟩ => ⟨S4096x50000, .f32⟩
  | .hbm, ⟨42, _⟩ => ⟨S4096x50000, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_call1_cst : Ref sig .tc := ⟨.hbm, 28, rfl⟩
abbrev main_call1_v0 : Ref sig .tc := ⟨.hbm, 29, rfl⟩
abbrev main_call1_cst_0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_cst_1 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_v3 : Ref sig .tc := ⟨.hbm, 42, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S300x4096_1 : S4096.BroadcastsInDim S300x4096 (![1] : Fin 1 → Fin S300x4096.rank)
  bcast_S_S300x4096 : S_.BroadcastsInDim S300x4096 (![] : Fin 0 → Fin S300x4096.rank)
  transposes_S300x4096_S4096x300_1_0 : S300x4096.Transposes [1, 0] S4096x300
  reducesTo_S4096x50000_S4096_d1 : S4096x50000.ReducesTo [1] S4096
  bcast_S4096x1_S4096x50000_0_1 : S4096x1.BroadcastsInDim S4096x50000 (![0, 1] : Fin 2 → Fin S4096x50000.rank)
  gather_S300x50000_S4096x1_S300x4096_0_1_n_n_1_1_3001_wf : GatherDims.WF S300x50000 S4096x1 S300x4096 [0] [1] [] [1] [] 1 ![300, 1]
  dot_S4096x300_S50000x300_S4096x50000_1_1_0_0_n_n_wf : DotDims.WF S4096x300 S50000x300 S4096x50000 [1] [1] [0] [0] [] []

variable [Facts₀]

def gather_S300x50000_S4096x1_S300x4096_0_1_n_n_1_1_3001 : GatherDims S300x50000 S4096x1 S300x4096 where
  offsetDims := [0]
  collapsedSliceDims := [1]
  operandBatchingDims := []
  startIndicesBatchingDims := []
  startIndexMap := [1]
  indexVectorDim := 1
  sliceSizes := ![300, 1]
  wf := gather_S300x50000_S4096x1_S300x4096_0_1_n_n_1_1_3001_wf
def dot_S4096x300_S50000x300_S4096x50000_1_1_0_0_n_n : DotDims S4096x300 S50000x300 S4096x50000 where
  lhsContracting := [1]
  rhsContracting := [1]
  lhsNonContracting := [0]
  rhsNonContracting := [0]
  lhsBatch := []
  rhsBatch := []
  wf := dot_S4096x300_S50000x300_S4096x50000_1_1_0_0_n_n_wf

class Facts : Prop extends Facts₀ where

variable [Facts]
-- ==== Proof.KI.R0Base.lean ====
/-
  The first kernel region (the streaming statistics of a row over the 25 vocabulary tiles): what its three control cases
  and its proof data are stated over. A grid point is (batch block, vocabulary tile); the body resets the two carried
  buffers (running maximum, running sum) at tile 0, updates them at every tile, and writes maximum + log sum into the
  output block at tile 24. So the cases are A: tile 0, B: tiles 1 … 23, C: tile 24, decided from the point's number
  modulo 25; the output window is idle, and not written back, except in case C.
-/
import proofs.«107669_j24335284699350_2_alg».proof.Proof.Gen.KernelIdeal.Launch
import proofs.«107669_j24335284699350_2_alg».proof.Proof.Gen.KernelIdeal.Skeleton
import proofs.«107669_j24335284699350_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-! ## The body's two conditions, over the grid -/

/-- "This is the first vocabulary tile", as the body computes it from the point's coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 25 = 0 :=
  (by decide +kernel : ∀ t : Fin grid0.N, cond0_0 (grid0.coords t) ↔ t.val % 25 = 0)

/-- "This is the last vocabulary tile". -/
abbrev cond0_1 (i : grid0.Coords) : Prop := k0_cond2 i = 1#1
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

abbrev VO0_2 : View sig .tc .vmem S2048x1 .f32 := (Memref.whole cc0_stg2_0 : Memref sig .tc .vmem S2048x1 .f32).view
abbrev ms0_0 (t : Fin cfg0.N) : Memref sig .tc .vmem S2048x384 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x384 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1 .f32 := win0_2.stage (cfg0.slots t 2)
abbrev hs0_2 (t : Fin cfg0.N) : (ms0_2 t).IsWhole := hstage0_2 ((cfg0.slots t 2).cast nbuf0_2)
/-- The two carried buffers: the running maximum and the running sum. -/
abbrev scM0_0 : Memref sig .tc .vmem S2048x1 .f32 := Memref.whole cc0_scratch0
abbrev scM0_1 : Memref sig .tc .vmem S2048x1 .f32 := Memref.whole cc0_scratch1
abbrev VS0_0 : View sig .tc .vmem S2048x1 .f32 := scM0_0.view
abbrev VS0_1 : View sig .tc .vmem S2048x1 .f32 := scM0_1.view

/-- The scoped buffers of the core that this region neither stages nor carries, each at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant with the two carried buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Rest0 c) ∗ (∃ r, prngReg c r)) := by
  unfold Pipeline.ΦA Rest0; rw [scopedRest0_eq]; simp only [scM0_0, scM0_1, owns_whole]; try rfl

/-! ## The windows' blocks, at the contents the region is entered with -/

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The lookup's block is in its staging buffer at every point, fetched there or not (its index moves only with the batch block). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

end Cert.KernelIdeal.Hand

end
-- ==== Proof.KI.R0RunA.lean ====
/-
  The statistics body at the first vocabulary tile of a batch block (case A): it stores ⊥ and 0 into the two carried
  buffers, then the tile's update; the output block is left as it was found.
-/
import proofs.«107669_j24335284699350_2_alg».proof.Proof.KI.R0Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 4000000 in
/-- The pieces the body's stores leave in the two carried buffers in case A, with the proof that on whole memrefs — the two
    input blocks at their contents, the output block at contents handed back untouched, the carried buffers at anything —
    the body runs to the continuation holding the inputs and the output as they were and each carried buffer with its
    pieces written. -/
noncomputable def kernelRun0_A (c : Dev nD) (i : grid0.Coords) (arg2 : Memref sig .tc .vmem S2048x384 .bf16) (harg2 : arg2.IsWhole) (arg3 : Memref sig .tc .vmem S2048x384 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond0_0 i) (hc1 : ¬cond0_1 i)
    (x0 : Vec F S2048x384 .bf16) (x1 : Vec F S2048x384 .bf16) :
    Σ' (LS0 : List (View.Piece (Elt F) S2048x1 .f32)), { LS1 : List (View.Piece (Elt F) S2048x1 .f32) //
      ∀ (xi2 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg2 harg2 arg3 harg3 arg4 harg4 arg5 harg5 arg6 harg6) K } := by
  refine ⟨?_, ?_, fun xi2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; iexact HS0
    iexists _; iexact HS1

end Cert.KernelIdeal.Hand

end
-- ==== Proof.KI.R0RunB.lean ====
/-
  The statistics body at a middle vocabulary tile (case B): the tile's update of the two carried buffers, which arrive
  holding what the tile before left; the output block is left as it was found.
-/
import proofs.«107669_j24335284699350_2_alg».proof.Proof.KI.R0RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 4000000 in
/-- The pieces the body's stores leave in the two carried buffers in case B, with the proof that the body runs from the
    inputs at their contents, the output block at contents handed back untouched and the carried buffers at xs0, xs1. -/
noncomputable def kernelRun0_B (c : Dev nD) (i : grid0.Coords) (arg2 : Memref sig .tc .vmem S2048x384 .bf16) (harg2 : arg2.IsWhole) (arg3 : Memref sig .tc .vmem S2048x384 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : ¬cond0_1 i)
    (x0 : Vec F S2048x384 .bf16) (x1 : Vec F S2048x384 .bf16) (xs0 : Vec F S2048x1 .f32) (xs1 : Vec F S2048x1 .f32) :
    Σ' (LS0 : List (View.Piece (Elt F) S2048x1 .f32)), { LS1 : List (View.Piece (Elt F) S2048x1 .f32) //
      ∀ (xi2 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg2 harg2 arg3 harg3 arg4 harg4 arg5 harg5 arg6 harg6) K } := by
  refine ⟨?_, ?_, fun xi2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; iexact HS0
    iexists _; iexact HS1

end Cert.KernelIdeal.Hand

end
-- ==== Proof.KI.R0RunC.lean ====
/-
  The statistics body at the last vocabulary tile (case C): the tile's update of the two carried buffers, then the store
  of maximum + log sum into the output block.
-/
import proofs.«107669_j24335284699350_2_alg».proof.Proof.KI.R0RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 4000000 in
/-- The pieces the body's stores leave in the output block and in the two carried buffers in case C, with the proof that the
    body runs from the inputs at their contents, the output block at anything and the carried buffers at xs0, xs1. -/
noncomputable def kernelRun0_C (c : Dev nD) (i : grid0.Coords) (arg2 : Memref sig .tc .vmem S2048x384 .bf16) (harg2 : arg2.IsWhole) (arg3 : Memref sig .tc .vmem S2048x384 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : cond0_1 i)
    (x0 : Vec F S2048x384 .bf16) (x1 : Vec F S2048x384 .bf16) (xs0 : Vec F S2048x1 .f32) (xs1 : Vec F S2048x1 .f32) :
    Σ' (L2 : List (View.Piece (Elt F) S2048x1 .f32)) (LS0 : List (View.Piece (Elt F) S2048x1 .f32)), { LS1 : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg2 harg2 arg3 harg3 arg4 harg4 arg5 harg5 arg6 harg6) K } := by
  refine ⟨?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [HS0]
    · iexists _; iexact HS0
    iexists _; iexact HS1

end Cert.KernelIdeal.Hand

end
-- ==== Proof.KI.R0Pieces.lean ====
/-
  What each control case of the statistics body leaves in the two carried buffers and in the output block, first as the
  pieces its stores wrote read back, then as the body's arithmetic applied to the blocks it loaded: the running maximum
  becomes stepM (the old maximum against the tile's), the running sum stepL (the old sum rescaled plus the tile's
  exponentials), and the output block lseOut (maximum + log sum); at the first tile the old pair is the reset pair.
-/
import proofs.«107669_j24335284699350_2_alg».proof.Proof.KI.R0RunC
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

theorem scover0_A_0 (c : Dev nD) (i : grid0.Coords) (arg2 : Memref sig .tc .vmem S2048x384 .bf16) (harg2 : arg2.IsWhole) (arg3 : Memref sig .tc .vmem S2048x384 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond0_0 i) (hc1 : ¬cond0_1 i)
    (x0 : Vec F S2048x384 .bf16) (x1 : Vec F S2048x384 .bf16) (y : S2048x1.Idx) : ∃ pc ∈ (kernelRun0_A c i arg2 harg2 arg3 harg3 arg4 harg4 arg5 harg5 arg6 harg6 hc0 hc1 x0 x1).1, y ∈ pc.1.set :=
  View.cover_of_tiledL (kernelRun0_A c i arg2 harg2 arg3 harg3 arg4 harg4 arg5 harg5 arg6 harg6 hc0 hc1 x0 x1).1 S2048x1.size (by sl_kernel_rfl) y
theorem scover0_A_1 (c : Dev nD) (i : grid0.Coords) (arg2 : Memref sig .tc .vmem S2048x384 .bf16) (harg2 : arg2.IsWhole) (arg3 : Memref sig .tc .vmem S2048x384 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond0_0 i) (hc1 : ¬cond0_1 i)
    (x0 : Vec F S2048x384 .bf16) (x1 : Vec F S2048x384 .bf16) (y : S2048x1.Idx) : ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S2048x1.size (by sl_kernel_rfl) y
theorem scover0_B_0 (c : Dev nD) (i : grid0.Coords) (arg2 : Memref sig .tc .vmem S2048x384 .bf16) (harg2 : arg2.IsWhole) (arg3 : Memref sig .tc .vmem S2048x384 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : ¬cond0_1 i)
    (x0 : Vec F S2048x384 .bf16) (x1 : Vec F S2048x384 .bf16) (xs0 : Vec F S2048x1 .f32) (xs1 : Vec F S2048x1 .f32) (y : S2048x1.Idx) : ∃ pc ∈ (kernelRun0_B c i arg2 harg2 arg3 harg3 arg4 harg4 arg5 harg5 arg6 harg6 hc0 hc1 x0 x1 xs0 xs1).1, y ∈ pc.1.set :=
  View.cover_of_tiledL (kernelRun0_B c i arg2 harg2 arg3 harg3 arg4 harg4 arg5 harg5 arg6 harg6 hc0 hc1 x0 x1 xs0 xs1).1 S2048x1.size (by sl_kernel_rfl) y
theorem scover0_B_1 (c : Dev nD) (i : grid0.Coords) (arg2 : Memref sig .tc .vmem S2048x384 .bf16) (harg2 : arg2.IsWhole) (arg3 : Memref sig .tc .vmem S2048x384 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : ¬cond0_1 i)
    (x0 : Vec F S2048x384 .bf16) (x1 : Vec F S2048x384 .bf16) (xs0 : Vec F S2048x1 .f32) (xs1 : Vec F S2048x1 .f32) (y : S2048x1.Idx) : ∃ pc ∈ (kernelRun0_B c i arg2 harg2 arg3 harg3 arg4 harg4 arg5 harg5 arg6 harg6 hc0 hc1 x0 x1 xs0 xs1).2.1, y ∈ pc.1.set :=
  View.cover_of_tiledL (kernelRun0_B c i arg2 harg2 arg3 harg3 arg4 harg4 arg5 harg5 arg6 harg6 hc0 hc1 x0 x1 xs0 xs1).2.1 S2048x1.size (by sl_kernel_rfl) y
theorem cover0_C_2 (c : Dev nD) (i : grid0.Coords) (arg2 : Memref sig .tc .vmem S2048x384 .bf16) (harg2 : arg2.IsWhole) (arg3 : Memref sig .tc .vmem S2048x384 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : cond0_1 i)
    (x0 : Vec F S2048x384 .bf16) (x1 : Vec F S2048x384 .bf16) (xs0 : Vec F S2048x1 .f32) (xs1 : Vec F S2048x1 .f32) (y : S2048x1.Idx) : ∃ pc ∈ (kernelRun0_C c i arg2 harg2 arg3 harg3 arg4 harg4 arg5 harg5 arg6 harg6 hc0 hc1 x0 x1 xs0 xs1).1, y ∈ pc.1.set :=
  View.cover_of_tiledL (kernelRun0_C c i arg2 harg2 arg3 harg3 arg4 harg4 arg5 harg5 arg6 harg6 hc0 hc1 x0 x1 xs0 xs1).1 S2048x1.size (by sl_kernel_rfl) y
theorem scover0_C_0 (c : Dev nD) (i : grid0.Coords) (arg2 : Memref sig .tc .vmem S2048x384 .bf16) (harg2 : arg2.IsWhole) (arg3 : Memref sig .tc .vmem S2048x384 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : cond0_1 i)
    (x0 : Vec F S2048x384 .bf16) (x1 : Vec F S2048x384 .bf16) (xs0 : Vec F S2048x1 .f32) (xs1 : Vec F S2048x1 .f32) (y : S2048x1.Idx) : ∃ pc ∈ (kernelRun0_C c i arg2 harg2 arg3 harg3 arg4 harg4 arg5 harg5 arg6 harg6 hc0 hc1 x0 x1 xs0 xs1).2.1, y ∈ pc.1.set :=
  View.cover_of_tiledL (kernelRun0_C c i arg2 harg2 arg3 harg3 arg4 harg4 arg5 harg5 arg6 harg6 hc0 hc1 x0 x1 xs0 xs1).2.1 S2048x1.size (by sl_kernel_rfl) y
theorem scover0_C_1 (c : Dev nD) (i : grid0.Coords) (arg2 : Memref sig .tc .vmem S2048x384 .bf16) (harg2 : arg2.IsWhole) (arg3 : Memref sig .tc .vmem S2048x384 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : cond0_1 i)
    (x0 : Vec F S2048x384 .bf16) (x1 : Vec F S2048x384 .bf16) (xs0 : Vec F S2048x1 .f32) (xs1 : Vec F S2048x1 .f32) (y : S2048x1.Idx) : ∃ pc ∈ (kernelRun0_C c i arg2 harg2 arg3 harg3 arg4 harg4 arg5 harg5 arg6 harg6 hc0 hc1 x0 x1 xs0 xs1).2.2.1, y ∈ pc.1.set :=
  View.cover_of_tiledL (kernelRun0_C c i arg2 harg2 arg3 harg3 arg4 harg4 arg5 harg5 arg6 harg6 hc0 hc1 x0 x1 xs0 xs1).2.2.1 S2048x1.size (by sl_kernel_rfl) y
/-- What case A leaves in the running-maximum buffer. -/
def sout0_A_0 (c : Dev nD) (i : grid0.Coords) (arg2 : Memref sig .tc .vmem S2048x384 .bf16) (harg2 : arg2.IsWhole) (arg3 : Memref sig .tc .vmem S2048x384 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond0_0 i) (hc1 : ¬cond0_1 i)
    (x0 : Vec F S2048x384 .bf16) (x1 : Vec F S2048x384 .bf16) : Vec F S2048x1 .f32 :=
  VS0_0.read (Elt F) (VS0_0.writes (Elt F) VS0_0.junk (kernelRun0_A c i arg2 harg2 arg3 harg3 arg4 harg4 arg5 harg5 arg6 harg6 hc0 hc1 x0 x1).1)
/-- What case A leaves in the running-sum buffer. -/
def sout0_A_1 (c : Dev nD) (i : grid0.Coords) (arg2 : Memref sig .tc .vmem S2048x384 .bf16) (harg2 : arg2.IsWhole) (arg3 : Memref sig .tc .vmem S2048x384 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond0_0 i) (hc1 : ¬cond0_1 i)
    (x0 : Vec F S2048x384 .bf16) (x1 : Vec F S2048x384 .bf16) : Vec F S2048x1 .f32 :=
  VS0_1.read (Elt F) (VS0_1.writes (Elt F) VS0_1.junk (kernelRun0_A c i arg2 harg2 arg3 harg3 arg4 harg4 arg5 harg5 arg6 harg6 hc0 hc1 x0 x1).2.1)
/-- What case B leaves in the running-maximum buffer. -/
def sout0_B_0 (c : Dev nD) (i : grid0.Coords) (arg2 : Memref sig .tc .vmem S2048x384 .bf16) (harg2 : arg2.IsWhole) (arg3 : Memref sig .tc .vmem S2048x384 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : ¬cond0_1 i)
    (x0 : Vec F S2048x384 .bf16) (x1 : Vec F S2048x384 .bf16) (xs0 : Vec F S2048x1 .f32) (xs1 : Vec F S2048x1 .f32) : Vec F S2048x1 .f32 :=
  VS0_0.read (Elt F) (VS0_0.writes (Elt F) VS0_0.junk (kernelRun0_B c i arg2 harg2 arg3 harg3 arg4 harg4 arg5 harg5 arg6 harg6 hc0 hc1 x0 x1 xs0 xs1).1)
/-- What case B leaves in the running-sum buffer. -/
def sout0_B_1 (c : Dev nD) (i : grid0.Coords) (arg2 : Memref sig .tc .vmem S2048x384 .bf16) (harg2 : arg2.IsWhole) (arg3 : Memref sig .tc .vmem S2048x384 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : ¬cond0_1 i)
    (x0 : Vec F S2048x384 .bf16) (x1 : Vec F S2048x384 .bf16) (xs0 : Vec F S2048x1 .f32) (xs1 : Vec F S2048x1 .f32) : Vec F S2048x1 .f32 :=
  VS0_1.read (Elt F) (VS0_1.writes (Elt F) VS0_1.junk (kernelRun0_B c i arg2 harg2 arg3 harg3 arg4 harg4 arg5 harg5 arg6 harg6 hc0 hc1 x0 x1 xs0 xs1).2.1)
/-- What case C leaves in the output block. -/
def out0_C_2 (c : Dev nD) (i : grid0.Coords) (arg2 : Memref sig .tc .vmem S2048x384 .bf16) (harg2 : arg2.IsWhole) (arg3 : Memref sig .tc .vmem S2048x384 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : cond0_1 i)
    (x0 : Vec F S2048x384 .bf16) (x1 : Vec F S2048x384 .bf16) (xs0 : Vec F S2048x1 .f32) (xs1 : Vec F S2048x1 .f32) : Vec F S2048x1 .f32 :=
  VO0_2.read (Elt F) (VO0_2.writes (Elt F) VO0_2.junk (kernelRun0_C c i arg2 harg2 arg3 harg3 arg4 harg4 arg5 harg5 arg6 harg6 hc0 hc1 x0 x1 xs0 xs1).1)
/-- What case C leaves in the running-maximum buffer. -/
def sout0_C_0 (c : Dev nD) (i : grid0.Coords) (arg2 : Memref sig .tc .vmem S2048x384 .bf16) (harg2 : arg2.IsWhole) (arg3 : Memref sig .tc .vmem S2048x384 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : cond0_1 i)
    (x0 : Vec F S2048x384 .bf16) (x1 : Vec F S2048x384 .bf16) (xs0 : Vec F S2048x1 .f32) (xs1 : Vec F S2048x1 .f32) : Vec F S2048x1 .f32 :=
  VS0_0.read (Elt F) (VS0_0.writes (Elt F) VS0_0.junk (kernelRun0_C c i arg2 harg2 arg3 harg3 arg4 harg4 arg5 harg5 arg6 harg6 hc0 hc1 x0 x1 xs0 xs1).2.1)
/-- What case C leaves in the running-sum buffer. -/
def sout0_C_1 (c : Dev nD) (i : grid0.Coords) (arg2 : Memref sig .tc .vmem S2048x384 .bf16) (harg2 : arg2.IsWhole) (arg3 : Memref sig .tc .vmem S2048x384 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : cond0_1 i)
    (x0 : Vec F S2048x384 .bf16) (x1 : Vec F S2048x384 .bf16) (xs0 : Vec F S2048x1 .f32) (xs1 : Vec F S2048x1 .f32) : Vec F S2048x1 .f32 :=
  VS0_1.read (Elt F) (VS0_1.writes (Elt F) VS0_1.junk (kernelRun0_C c i arg2 harg2 arg3 harg3 arg4 harg4 arg5 harg5 arg6 harg6 hc0 hc1 x0 x1 xs0 xs1).2.2.1)

/-! ## The same as the body's arithmetic -/

/-- The new running maximum: the old one against the tile's largest entry. -/
def stepM (i : grid0.Coords) (x0 x1 : Vec F S2048x384 .bf16) (m : Vec F S2048x1 .f32) : Vec F S2048x1 .f32 :=
  k0_pay1 (k0_pay6 i x0 x1 m)
/-- The new running sum: the old one rescaled to the new maximum, plus the tile's exponentials. -/
def stepL (i : grid0.Coords) (x0 x1 : Vec F S2048x384 .bf16) (m l : Vec F S2048x1 .f32) : Vec F S2048x1 .f32 :=
  k0_pay7 i x0 x1 m m l
/-- The output block: maximum + log sum. -/
def lseOut (m l : Vec F S2048x1 .f32) : Vec F S2048x1 .f32 := k0_pay2 m l

theorem hz2 : (![0, 0] : Fin 2 → Nat) = fun _ => 0 := funext fun a => by fin_cases a <;> rfl

theorem sout0_A_0_eq (c : Dev nD) (i : grid0.Coords) (arg2 : Memref sig .tc .vmem S2048x384 .bf16) (harg2 : arg2.IsWhole) (arg3 : Memref sig .tc .vmem S2048x384 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond0_0 i) (hc1 : ¬cond0_1 i)
    (x0 : Vec F S2048x384 .bf16) (x1 : Vec F S2048x384 .bf16) : sout0_A_0 c i arg2 harg2 arg3 harg3 arg4 harg4 arg5 harg5 arg6 harg6 hc0 hc1 x0 x1 = stepM i x0 x1 (k0_pay3 (F := F)) := by
  unfold sout0_A_0
  rw [View.read_writes_eq_canon _ _ _ (scover0_A_0 c i arg2 harg2 arg3 harg3 arg4 harg4 arg5 harg5 arg6 harg6 hc0 hc1 x0 x1)]
  unfold kernelRun0_A; dsimp only; sl_unfold_words
  refine (View.canon_cons_unit_zero (S := S2048x1) hz2 _ _ _).trans ?_
  simp only [View.readAt_eq_ld, Memref.IsWhole.read_unread, View.ld_unit_zero (S := S2048x384) hz2, View.ld_unit_zero (S := S2048x1) hz2, View.readCov_unit_zero (S := S2048x1) _ hz2]
  rfl

theorem sout0_A_1_eq (c : Dev nD) (i : grid0.Coords) (arg2 : Memref sig .tc .vmem S2048x384 .bf16) (harg2 : arg2.IsWhole) (arg3 : Memref sig .tc .vmem S2048x384 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond0_0 i) (hc1 : ¬cond0_1 i)
    (x0 : Vec F S2048x384 .bf16) (x1 : Vec F S2048x384 .bf16) : sout0_A_1 c i arg2 harg2 arg3 harg3 arg4 harg4 arg5 harg5 arg6 harg6 hc0 hc1 x0 x1 = stepL i x0 x1 (k0_pay3 (F := F)) (k0_pay4 (F := F)) := by
  unfold sout0_A_1
  rw [View.read_writes_eq_canon _ _ _ (scover0_A_1 c i arg2 harg2 arg3 harg3 arg4 harg4 arg5 harg5 arg6 harg6 hc0 hc1 x0 x1)]
  unfold kernelRun0_A; dsimp only; sl_unfold_words
  refine (View.canon_cons_unit_zero (S := S2048x1) hz2 _ _ _).trans ?_
  simp only [View.readAt_eq_ld, Memref.IsWhole.read_unread, View.ld_unit_zero (S := S2048x384) hz2, View.ld_unit_zero (S := S2048x1) hz2, View.readCov_unit_zero (S := S2048x1) _ hz2]
  rfl

theorem sout0_B_0_eq (c : Dev nD) (i : grid0.Coords) (arg2 : Memref sig .tc .vmem S2048x384 .bf16) (harg2 : arg2.IsWhole) (arg3 : Memref sig .tc .vmem S2048x384 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : ¬cond0_1 i)
    (x0 : Vec F S2048x384 .bf16) (x1 : Vec F S2048x384 .bf16) (xs0 : Vec F S2048x1 .f32) (xs1 : Vec F S2048x1 .f32) : sout0_B_0 c i arg2 harg2 arg3 harg3 arg4 harg4 arg5 harg5 arg6 harg6 hc0 hc1 x0 x1 xs0 xs1 = stepM i x0 x1 xs0 := by
  unfold sout0_B_0
  rw [View.read_writes_eq_canon _ _ _ (scover0_B_0 c i arg2 harg2 arg3 harg3 arg4 harg4 arg5 harg5 arg6 harg6 hc0 hc1 x0 x1 xs0 xs1)]
  unfold kernelRun0_B; dsimp only; sl_unfold_words
  refine (View.canon_unit_zero (S := S2048x1) hz2 _ _).trans ?_
  simp only [View.readAt_eq_ld, Memref.IsWhole.read_unread, View.ld_unit_zero (S := S2048x384) hz2, View.ld_unit_zero (S := S2048x1) hz2, View.readCov_unit_zero (S := S2048x1) _ hz2]
  rfl

theorem sout0_B_1_eq (c : Dev nD) (i : grid0.Coords) (arg2 : Memref sig .tc .vmem S2048x384 .bf16) (harg2 : arg2.IsWhole) (arg3 : Memref sig .tc .vmem S2048x384 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : ¬cond0_1 i)
    (x0 : Vec F S2048x384 .bf16) (x1 : Vec F S2048x384 .bf16) (xs0 : Vec F S2048x1 .f32) (xs1 : Vec F S2048x1 .f32) : sout0_B_1 c i arg2 harg2 arg3 harg3 arg4 harg4 arg5 harg5 arg6 harg6 hc0 hc1 x0 x1 xs0 xs1 = stepL i x0 x1 xs0 xs1 := by
  unfold sout0_B_1
  rw [View.read_writes_eq_canon _ _ _ (scover0_B_1 c i arg2 harg2 arg3 harg3 arg4 harg4 arg5 harg5 arg6 harg6 hc0 hc1 x0 x1 xs0 xs1)]
  unfold kernelRun0_B; dsimp only; sl_unfold_words
  refine (View.canon_unit_zero (S := S2048x1) hz2 _ _).trans ?_
  simp only [View.readAt_eq_ld, Memref.IsWhole.read_unread, View.ld_unit_zero (S := S2048x384) hz2, View.ld_unit_zero (S := S2048x1) hz2, View.readCov_unit_zero (S := S2048x1) _ hz2]
  rfl

theorem sout0_C_0_eq (c : Dev nD) (i : grid0.Coords) (arg2 : Memref sig .tc .vmem S2048x384 .bf16) (harg2 : arg2.IsWhole) (arg3 : Memref sig .tc .vmem S2048x384 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : cond0_1 i)
    (x0 : Vec F S2048x384 .bf16) (x1 : Vec F S2048x384 .bf16) (xs0 : Vec F S2048x1 .f32) (xs1 : Vec F S2048x1 .f32) : sout0_C_0 c i arg2 harg2 arg3 harg3 arg4 harg4 arg5 harg5 arg6 harg6 hc0 hc1 x0 x1 xs0 xs1 = stepM i x0 x1 xs0 := by
  unfold sout0_C_0
  rw [View.read_writes_eq_canon _ _ _ (scover0_C_0 c i arg2 harg2 arg3 harg3 arg4 harg4 arg5 harg5 arg6 harg6 hc0 hc1 x0 x1 xs0 xs1)]
  unfold kernelRun0_C; dsimp only; sl_unfold_words
  refine (View.canon_unit_zero (S := S2048x1) hz2 _ _).trans ?_
  simp only [View.readAt_eq_ld, Memref.IsWhole.read_unread, View.ld_unit_zero (S := S2048x384) hz2, View.ld_unit_zero (S := S2048x1) hz2, View.readCov_unit_zero (S := S2048x1) _ hz2]
  rfl

theorem sout0_C_1_eq (c : Dev nD) (i : grid0.Coords) (arg2 : Memref sig .tc .vmem S2048x384 .bf16) (harg2 : arg2.IsWhole) (arg3 : Memref sig .tc .vmem S2048x384 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : cond0_1 i)
    (x0 : Vec F S2048x384 .bf16) (x1 : Vec F S2048x384 .bf16) (xs0 : Vec F S2048x1 .f32) (xs1 : Vec F S2048x1 .f32) : sout0_C_1 c i arg2 harg2 arg3 harg3 arg4 harg4 arg5 harg5 arg6 harg6 hc0 hc1 x0 x1 xs0 xs1 = stepL i x0 x1 xs0 xs1 := by
  unfold sout0_C_1
  rw [View.read_writes_eq_canon _ _ _ (scover0_C_1 c i arg2 harg2 arg3 harg3 arg4 harg4 arg5 harg5 arg6 harg6 hc0 hc1 x0 x1 xs0 xs1)]
  unfold kernelRun0_C; dsimp only; sl_unfold_words
  refine (View.canon_unit_zero (S := S2048x1) hz2 _ _).trans ?_
  simp only [View.readAt_eq_ld, Memref.IsWhole.read_unread, View.ld_unit_zero (S := S2048x384) hz2, View.ld_unit_zero (S := S2048x1) hz2, View.readCov_unit_zero (S := S2048x1) _ hz2]
  rfl

theorem out0_C_2_eq (c : Dev nD) (i : grid0.Coords) (arg2 : Memref sig .tc .vmem S2048x384 .bf16) (harg2 : arg2.IsWhole) (arg3 : Memref sig .tc .vmem S2048x384 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : cond0_1 i)
    (x0 : Vec F S2048x384 .bf16) (x1 : Vec F S2048x384 .bf16) (xs0 : Vec F S2048x1 .f32) (xs1 : Vec F S2048x1 .f32) : out0_C_2 c i arg2 harg2 arg3 harg3 arg4 harg4 arg5 harg5 arg6 harg6 hc0 hc1 x0 x1 xs0 xs1 = lseOut (stepM i x0 x1 xs0) (stepL i x0 x1 xs0 xs1) := by
  unfold out0_C_2
  rw [View.read_writes_eq_canon _ _ _ (cover0_C_2 c i arg2 harg2 arg3 harg3 arg4 harg4 arg5 harg5 arg6 harg6 hc0 hc1 x0 x1 xs0 xs1)]
  unfold kernelRun0_C; dsimp only; sl_unfold_words
  refine (View.canon_unit_zero (S := S2048x1) hz2 _ _).trans ?_
  simp only [View.readAt_eq_ld, Memref.IsWhole.read_unread, View.ld_unit_zero (S := S2048x384) hz2, View.ld_unit_zero (S := S2048x1) hz2, View.readCov_unit_zero (S := S2048x1) _ hz2]
  rfl

end Cert.KernelIdeal.Hand

end
-- ==== Proof.KI.R0Frame.lean ====
/-
  The proof data of the statistics region and its body obligation.

  After point n the two carried buffers hold the streaming pair of the point's batch block over the tiles up to the
  point's: scAt n, by recursion on the point — at a tile 0 the pair is restarted from the reset values, at every other
  tile it is one step from what the point before left. The vocabulary block reaches the body filled out past the
  array's end by words nothing names; the proof data names the pair through the block filled out with zeros, which is
  the same pair as long as the step does not read those rows (the hypothesis Indep0: the body masks them).
-/
import proofs.«107669_j24335284699350_2_alg».proof.Proof.KI.R0Pieces
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The word the proof data puts past the array's end in its copy of a vocabulary block. -/
def zfill : S2048x384.Idx → Elt F .bf16 := fun _ => Scalar.ofBits .bf16 0#16

/-- The vocabulary block at point t as a staging buffer holds it: the rows inside the array, d past its end. -/
def X1 (c : Dev nD) (t : Fin cfg0.N) (d : S2048x384.Idx → Elt F .bf16) : S2048x384.Idx → Elt F .bf16 :=
  win0_1.fill (grid0.coords t) d (iblk0 V c 1 t)

/-- The streaming pair (running maximum, running sum) the carried buffers hold after point n. -/
def scAt (c : Dev nD) : (n : ℕ) → n < cfg0.N → Vec F S2048x1 .f32 × Vec F S2048x1 .f32
  | 0, hn => (stepM (grid0.coords ⟨0, hn⟩) (iblk0 V c 0 ⟨0, hn⟩) (X1 V c ⟨0, hn⟩ zfill) (k0_pay3 (F := F)),
      stepL (grid0.coords ⟨0, hn⟩) (iblk0 V c 0 ⟨0, hn⟩) (X1 V c ⟨0, hn⟩ zfill) (k0_pay3 (F := F)) (k0_pay4 (F := F)))
  | n + 1, hn =>
    if (n + 1) % 25 = 0 then
      (stepM (grid0.coords ⟨n + 1, hn⟩) (iblk0 V c 0 ⟨n + 1, hn⟩) (X1 V c ⟨n + 1, hn⟩ zfill) (k0_pay3 (F := F)),
        stepL (grid0.coords ⟨n + 1, hn⟩) (iblk0 V c 0 ⟨n + 1, hn⟩) (X1 V c ⟨n + 1, hn⟩ zfill) (k0_pay3 (F := F)) (k0_pay4 (F := F)))
    else
      (stepM (grid0.coords ⟨n + 1, hn⟩) (iblk0 V c 0 ⟨n + 1, hn⟩) (X1 V c ⟨n + 1, hn⟩ zfill) (scAt c n (Nat.lt_of_succ_lt hn)).1,
        stepL (grid0.coords ⟨n + 1, hn⟩) (iblk0 V c 0 ⟨n + 1, hn⟩) (X1 V c ⟨n + 1, hn⟩ zfill) (scAt c n (Nat.lt_of_succ_lt hn)).1 (scAt c n (Nat.lt_of_succ_lt hn)).2)

theorem scAt_reset (c : Dev nD) (t : Fin cfg0.N) (h0 : t.val % 25 = 0) :
    scAt V c t.val t.isLt = (stepM (grid0.coords t) (iblk0 V c 0 t) (X1 V c t zfill) (k0_pay3 (F := F)),
      stepL (grid0.coords t) (iblk0 V c 0 t) (X1 V c t zfill) (k0_pay3 (F := F)) (k0_pay4 (F := F))) := by
  obtain ⟨n, hn⟩ := t
  cases n with
  | zero => rfl
  | succ n => exact if_pos h0

theorem scAt_step (c : Dev nD) (t : Fin cfg0.N) (h0 : ¬t.val % 25 = 0) :
    scAt V c t.val t.isLt = (stepM (grid0.coords t) (iblk0 V c 0 t) (X1 V c t zfill) (scAt V c (t.val - 1) (Nat.lt_of_le_of_lt (Nat.sub_le _ _) t.isLt)).1,
      stepL (grid0.coords t) (iblk0 V c 0 t) (X1 V c t zfill) (scAt V c (t.val - 1) (Nat.lt_of_le_of_lt (Nat.sub_le _ _) t.isLt)).1 (scAt V c (t.val - 1) (Nat.lt_of_le_of_lt (Nat.sub_le _ _) t.isLt)).2) := by
  obtain ⟨n, hn⟩ := t
  cases n with
  | zero => exact absurd (Nat.zero_mod _) h0
  | succ n => exact if_neg h0

/-- The step does not read the rows of the vocabulary block past the array's end. -/
structure Indep0 : Prop where
  m : ∀ (c : Dev nD) (t : Fin cfg0.N) (d : S2048x384.Idx → Elt F .bf16) (mo : Vec F S2048x1 .f32),
    stepM (grid0.coords t) (iblk0 V c 0 t) (X1 V c t d) mo = stepM (grid0.coords t) (iblk0 V c 0 t) (X1 V c t zfill) mo
  l : ∀ (c : Dev nD) (t : Fin cfg0.N) (d : S2048x384.Idx → Elt F .bf16) (mo lo : Vec F S2048x1 .f32),
    stepL (grid0.coords t) (iblk0 V c 0 t) (X1 V c t d) mo lo = stepL (grid0.coords t) (iblk0 V c 0 t) (X1 V c t zfill) mo lo

/-- The region's invariant before position n: before the first point the class's; afterwards the two carried buffers at
    the pair the point before left, the other scoped buffers and the generator register at some contents. -/
def PhiS (c : Dev nD) : (n : ℕ) → n ≤ cfg0.N → sProp 𝕄
  | 0, _ => Pipeline.ΦA spec0 c
  | n + 1, hn => iprop(iprop(owns (c : Thread nD τ) scM0_0 fullShare (scAt V c n hn).1 ∗ owns (c : Thread nD τ) scM0_1 fullShare (scAt V c n hn).2 ∗ Rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (scAt V c n hn).1 ∗ owns (c : Thread nD τ) scM0_1 fullShare (scAt V c n hn).2 ∗ Rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare (scAt V c (n - 1) (by omega)).1 ∗ owns (c : Thread nD τ) scM0_1 fullShare (scAt V c (n - 1) (by omega)).2 ∗ Rest0 c) ∗ (∃ r, prngReg c r)) := by
  cases n with
  | zero => exact absurd rfl hz
  | succ n => rfl

/-! ## The proof data -/

/-- The proof data of the statistics pipeline on core c: the arrays as the region finds them; after the body the lookup's
    block, the vocabulary block filled out with zeros, and maximum + log sum of the pair; the invariant PhiS. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => X1 V c t zfill
    | ⟨2, _⟩ => lseOut (scAt V c t.val t.isLt).1 (scAt V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = X1 V c t zfill := by dsimp only [dat0]
theorem after0_2 (c : Dev nD) (t : Fin cfg0.N) : (dat0 V c).after 2 t = lseOut (scAt V c t.val t.isLt).1 (scAt V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d

/-- The vocabulary block is fetched at every point: its buffer holds the rows inside the array and d past them. -/
theorem before0_1 (c : Dev nD) (t : Fin cfg0.N) (d) : (dat0 V c).before 1 t d = X1 V c t d := by
  unfold Dat.before; rw [if_pos (fetch0_1 t)]; rfl

theorem leaves0_0 (c : Dev nD) (t : Fin cfg0.N) :
    (dat0 V c).leaves 0 t = owns (c : Thread nD τ) (ms0_0 t) fullShare (iblk0 V c 0 t) := by
  unfold Dat.leaves; rw [liveAt0_0 t, ← after0_0]

theorem leaves0_1 (c : Dev nD) (t : Fin cfg0.N) :
    (dat0 V c).leaves 1 t = iprop(∃ d, owns (c : Thread nD τ) (ms0_1 t) fullShare (X1 V c t d)) := by
  unfold Dat.leaves; rw [liveAt0_1 t]
  simp only [after0_1, X1, Window.cut_fill]
  rfl

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leaves 0 t
    ∗ (dat0 V c).leaves 1 t
    ∗ (dat0 V c).leaves 2 t)

set_option maxHeartbeats 4800000 in
/-- The body at any point. The point's number modulo 25 says which case it is in; the invariant hands the body the carried
    pair the point before left (anything before the first point, where the case resets it) and takes back this point's. -/
theorem sound_body0 (hind : Indep0 V) (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, leaves0_0, leaves0_1]
  rw [show (dat0 V c).owesAt () t.succ = (dat0 V c).owesAt () t.castSucc from rfl]
  rw [show (dat0 V c).Φ t.succ = PhiS V c (t.val + 1) t.isLt from rfl, PhiS_succ]
  have hN : t.val < 50 := lt_of_lt_of_eq t.isLt (show cfg0.N = 50 from N_0)
  by_cases h0 : t.val % 25 = 0
  · have h1 : ¬t.val % 25 = 24 := by omega
    have hc0 : cond0_0 (grid0.coords t) := (hcond0_0 t).mpr h0
    have hc1 : ¬cond0_1 (grid0.coords t) := fun h => h1 ((hcond0_1 t).mp h)
    rw [Dat.leaves_idle (dat0 V c) 2 t (idleAt0_2 t hc1) (noFlush0_2 t hc1)]
    rw [scAt_reset V c t h0]
    by_cases hz : t.val = 0
    · rw [PhiS_castSucc V c t, PhiS_zero V c _ _ hz, PhiA0_eq]
      iintro ⟨⟨⟨HS0, HS1, HR⟩, Hg⟩, Ho, ⟨%d0, H0⟩, ⟨%d1, H1⟩, ⟨%d2, H2⟩⟩
      iapply ((kernelRun0_A c (grid0.coords t) _ _ _ _ _ _ _ _ _ _ hc0 hc1 (iblk0 V c 0 t) (X1 V c t d1)).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitl [HS0 HS1 HR]
        · isplitl [HS0]
          · unfold owns; iexists _; isplitr
            swap; · iexact HS0
            ipureintro
            exact (View.read_writes_of_cover _ _ _ _ _ (scover0_A_0 c _ _ _ _ _ _ _ _ _ _ _ hc0 hc1 _ _)).trans
              ((sout0_A_0_eq c _ _ _ _ _ _ _ _ _ _ _ hc0 hc1 _ _).trans (hind.m c t d1 _))
          isplitl [HS1]
          · unfold owns; iexists _; isplitr
            swap; · iexact HS1
            ipureintro
            exact (View.read_writes_of_cover _ _ _ _ _ (scover0_A_1 c _ _ _ _ _ _ _ _ _ _ _ hc0 hc1 _ _)).trans
              ((sout0_A_1_eq c _ _ _ _ _ _ _ _ _ _ _ hc0 hc1 _ _).trans (hind.l c t d1 _ _))
          iexact HR
        iexact Hg
      isplitl [Ho]; · iexact Ho
      isplitl [H0]; · iexact H0
      isplitl [H1]; · iexists _; iexact H1
      iexists _; iexact H2
    · rw [PhiS_castSucc V c t, PhiS_pos V c _ _ hz]
      iintro ⟨⟨⟨HS0, HS1, HR⟩, Hg⟩, Ho, ⟨%d0, H0⟩, ⟨%d1, H1⟩, ⟨%d2, H2⟩⟩
      iapply ((kernelRun0_A c (grid0.coords t) _ _ _ _ _ _ _ _ _ _ hc0 hc1 (iblk0 V c 0 t) (X1 V c t d1)).2.2 _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 HR Hg]
      · isplitl [HS0 HS1 HR]
        · isplitl [HS0]
          · unfold owns; iexists _; isplitr
            swap; · iexact HS0
            ipureintro
            exact (View.read_writes_of_cover _ _ _ _ _ (scover0_A_0 c _ _ _ _ _ _ _ _ _ _ _ hc0 hc1 _ _)).trans
              ((sout0_A_0_eq c _ _ _ _ _ _ _ _ _ _ _ hc0 hc1 _ _).trans (hind.m c t d1 _))
          isplitl [HS1]
          · unfold owns; iexists _; isplitr
            swap; · iexact HS1
            ipureintro
            exact (View.read_writes_of_cover _ _ _ _ _ (scover0_A_1 c _ _ _ _ _ _ _ _ _ _ _ hc0 hc1 _ _)).trans
              ((sout0_A_1_eq c _ _ _ _ _ _ _ _ _ _ _ hc0 hc1 _ _).trans (hind.l c t d1 _ _))
          iexact HR
        iexact Hg
      isplitl [Ho]; · iexact Ho
      isplitl [H0]; · iexact H0
      isplitl [H1]; · iexists _; iexact H1
      iexists _; iexact H2
  · have hc0 : ¬cond0_0 (grid0.coords t) := fun h => h0 ((hcond0_0 t).mp h)
    have hz : t.val ≠ 0 := fun e => h0 (by rw [e])
    rw [scAt_step V c t h0]
    rw [PhiS_castSucc V c t, PhiS_pos V c _ _ hz]
    by_cases h1 : t.val % 25 = 24
    · have hc1 : cond0_1 (grid0.coords t) := (hcond0_1 t).mpr h1
      rw [show (dat0 V c).leaves 2 t = owns (c : Thread nD τ) (ms0_2 t) fullShare ((dat0 V c).after 2 t) from by
        unfold Dat.leaves; rw [liveAt0_2 t hc1], after0_2, scAt_step V c t h0]
      iintro ⟨⟨⟨HS0, HS1, HR⟩, Hg⟩, Ho, ⟨%d0, H0⟩, ⟨%d1, H1⟩, ⟨%d2, H2⟩⟩
      iapply ((kernelRun0_C c (grid0.coords t) _ _ _ _ _ _ _ _ _ _ hc0 hc1 (iblk0 V c 0 t) (X1 V c t d1) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro
            exact (View.read_writes_of_cover _ _ _ _ _ (scover0_C_0 c _ _ _ _ _ _ _ _ _ _ _ hc0 hc1 _ _ _ _)).trans
              ((sout0_C_0_eq c _ _ _ _ _ _ _ _ _ _ _ hc0 hc1 _ _ _ _).trans (hind.m c t d1 _))
          isplitl [HS1]
          · unfold owns; iexists _; isplitr
            swap; · iexact HS1
            ipureintro
            exact (View.read_writes_of_cover _ _ _ _ _ (scover0_C_1 c _ _ _ _ _ _ _ _ _ _ _ hc0 hc1 _ _ _ _)).trans
              ((sout0_C_1_eq c _ _ _ _ _ _ _ _ _ _ _ hc0 hc1 _ _ _ _).trans (hind.l c t d1 _ _))
          iexact HR
        iexact Hg
      isplitl [Ho]; · iexact Ho
      isplitl [H0]; · iexact H0
      isplitl [H1]; · iexists _; iexact H1
      unfold owns; iexists _; isplitr
      swap; · iexact H2
      ipureintro
      exact (View.read_writes_of_cover _ _ _ _ _ (cover0_C_2 c _ _ _ _ _ _ _ _ _ _ _ hc0 hc1 _ _ _ _)).trans
        ((out0_C_2_eq c _ _ _ _ _ _ _ _ _ _ _ hc0 hc1 _ _ _ _).trans (by rw [hind.m c t d1, hind.l c t d1]))
    · have hc1 : ¬cond0_1 (grid0.coords t) := fun h => h1 ((hcond0_1 t).mp h)
      rw [Dat.leaves_idle (dat0 V c) 2 t (idleAt0_2 t hc1) (noFlush0_2 t hc1)]
      iintro ⟨⟨⟨HS0, HS1, HR⟩, Hg⟩, Ho, ⟨%d0, H0⟩, ⟨%d1, H1⟩, ⟨%d2, H2⟩⟩
      iapply ((kernelRun0_B c (grid0.coords t) _ _ _ _ _ _ _ _ _ _ hc0 hc1 (iblk0 V c 0 t) (X1 V c t d1) _ _).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitl [HS0 HS1 HR]
        · isplitl [HS0]
          · unfold owns; iexists _; isplitr
            swap; · iexact HS0
            ipureintro
            exact (View.read_writes_of_cover _ _ _ _ _ (scover0_B_0 c _ _ _ _ _ _ _ _ _ _ _ hc0 hc1 _ _ _ _)).trans
              ((sout0_B_0_eq c _ _ _ _ _ _ _ _ _ _ _ hc0 hc1 _ _ _ _).trans (hind.m c t d1 _))
          isplitl [HS1]
          · unfold owns; iexists _; isplitr
            swap; · iexact HS1
            ipureintro
            exact (View.read_writes_of_cover _ _ _ _ _ (scover0_B_1 c _ _ _ _ _ _ _ _ _ _ _ hc0 hc1 _ _ _ _)).trans
              ((sout0_B_1_eq c _ _ _ _ _ _ _ _ _ _ _ hc0 hc1 _ _ _ _).trans (hind.l c t d1 _ _))
          iexact HR
        iexact Hg
      isplitl [Ho]; · iexact Ho
      isplitl [H0]; · iexact H0
      isplitl [H1]; · iexists _; iexact H1
      iexists _; iexact H2

/-- The library's body obligation, at every point. -/
theorem body_obligation0 (hind : Indep0 V) (c : Dev nD) : BodyObligationLoose (dat0 (F := F) V c) (defs₀ (F := F)) Variants.none () Set.univ := fun t => by
  rw [bigSep_W0, bigSep_W0]
  exact sound_body0 V hind c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the carried pair is forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 50 := N_0; omega), PhiA0_eq]
  iintro ⟨⟨HS0, HS1, HR⟩, Hg⟩
  isplitl [HS0 HS1 HR]
  · isplitl [HS0]; · iexists _; iexact HS0
    isplitl [HS1]; · iexists _; iexact HS1
    iexact HR
  iexact Hg

end Cert.KernelIdeal.Hand

end
-- ==== Proof.KI.Region1Pay.lean ====
/-
  The second region's body read at one position of its result block, on the extended reals.

  The body multiplies the 2048 × 384 block of the lookup by the 2048 × 384 block of the vocabulary matrix, contracting
  the 384 columns of both into a zero accumulator, and subtracts the block of the log-sum-exp column broadcast along
  the rows. So position (p, q) of the result is ∑ e, lookup (p, e) · vocabulary (q, e) - lse (p, 0): it reads row q of
  the vocabulary block and no other. Two vocabulary blocks that agree on their first n rows therefore give results
  that agree on their first n columns, which is what lets the last tile's rows past the vocabulary's end be anything.
-/
import proofs.«107669_j24335284699350_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.ValueIdx

local notation "D1" => dot_S2048x384_S2048x384_S2048x2048_1_1_0_0_n_n

/-- The left operand's index at output position i and contraction position k: (row of i, k). -/
theorem lhs_D1_0 (i : S2048x2048.Idx) (k : (D1).contr.Idx) : ((D1).lhsIdx i k 0).val = (i 0).val := by
  unfold DotDims.lhsIdx
  rw [dif_neg (show ¬(0 : Fin S2048x384.rank) ∈ (D1).lhsBatch by decide),
    dif_pos (show (0 : Fin S2048x384.rank) ∈ (D1).lhsNonContracting by decide)]
  rfl
theorem lhs_D1_1 (i : S2048x2048.Idx) (k : (D1).contr.Idx) : ((D1).lhsIdx i k 1).val = (k ⟨0, by decide⟩).val :=
  (D1).lhsIdx_val_of_single rfl i k
/-- The right operand's: (column of i, k). -/
theorem rhs_D1_0 (i : S2048x2048.Idx) (k : (D1).contr.Idx) : ((D1).rhsIdx i k 0).val = (i 1).val := by
  unfold DotDims.rhsIdx
  rw [dif_neg (show ¬(0 : Fin S2048x384.rank) ∈ (D1).rhsBatch by decide),
    dif_pos (show (0 : Fin S2048x384.rank) ∈ (D1).rhsNonContracting by decide)]
  rfl
theorem rhs_D1_1 (i : S2048x2048.Idx) (k : (D1).contr.Idx) : ((D1).rhsIdx i k 1).val = (k ⟨0, by decide⟩).val :=
  (D1).rhsIdx_val_of_single rfl i k

/-- The contraction of the two blocks at position (p, q): the sum over the 384 columns. -/
theorem matmul_D1_apply (a b : FVec Ideal S2048x384 .bf16) (p q : Fin 2048) :
    matmul (F := Ideal) D1 none a b (constant S2048x2048 .f32 0x00000000#32) (ix2 p q)
      = ∑ e : Fin 384, a (ix2 p e) * b (ix2 q e) := by
  refine (Ideal.matmul_constant_zero_apply D1 none a b (ix2 p q)).trans ?_
  rw [← Equiv.sum_comp (contrEquiv1 D1 384 rfl rfl).symm]
  refine Finset.sum_congr rfl fun e _ => ?_
  have hk := contrEquiv1_symm_val D1 384 rfl rfl e
  have el : (D1).lhsIdx (ix2 p q) ((contrEquiv1 D1 384 rfl rfl).symm e) = ix2 p e := funext fun a => Fin.ext (by
    match a with
    | ⟨0, _⟩ => exact lhs_D1_0 _ _
    | ⟨1, _⟩ => exact (lhs_D1_1 _ _).trans hk)
  have er : (D1).rhsIdx (ix2 p q) ((contrEquiv1 D1 384 rfl rfl).symm e) = ix2 q e := funext fun a => Fin.ext (by
    match a with
    | ⟨0, _⟩ => exact rhs_D1_0 _ _
    | ⟨1, _⟩ => exact (rhs_D1_1 _ _).trans hk)
  rw [el, er]

/-- The log-sum-exp column broadcast along the rows, at (p, q): its entry for row p. -/
theorem bcast_col_apply (x : FVec Ideal S2048x1 .f32) (p q : Fin 2048) :
    broadcastTo S2048x2048 x broadcasts_S2048x1_S2048x2048 (ix2 p q) = x (ix2 p (0 : Fin 1)) :=
  broadcastTo_apply x broadcasts_S2048x1_S2048x2048 (ix2 p q) (ix2 p (0 : Fin 1)) fun a => by
    match a with
    | ⟨0, _⟩ => rfl
    | ⟨1, _⟩ => rfl

/-- The body's stored value at position (p, q). -/
theorem pay1_apply (x0 x2 : Vec Ideal S2048x384 .bf16) (x5 : Vec Ideal S2048x1 .f32) (p q : Fin 2048) :
    k1_pay1 (F := Ideal) x0 x2 x5 (ix2 p q) = (∑ e : Fin 384, x0 (ix2 p e) * x2 (ix2 q e)) - x5 (ix2 p (0 : Fin 1)) := by
  unfold k1_pay1
  refine (subf_apply _ _ (ix2 p q)).trans ?_
  rw [shapeCast_self, shapeCast_self, shapeCast_self]
  refine congrArg₂ (· - ·) (matmul_D1_apply x0 x2 p q) (bcast_col_apply x5 p q)

/-- Two vocabulary blocks that agree on row q give the same stored value in column q. -/
theorem pay1_congr_row (x0 x2 x2' : Vec Ideal S2048x384 .bf16) (x5 : Vec Ideal S2048x1 .f32) (p q : Fin 2048)
    (h : ∀ e : Fin 384, x2 (ix2 q e) = x2' (ix2 q e)) :
    k1_pay1 (F := Ideal) x0 x2 x5 (ix2 p q) = k1_pay1 (F := Ideal) x0 x2' x5 (ix2 p q) := by
  rw [pay1_apply, pay1_apply]
  exact congrArg (· - x5 (ix2 p (0 : Fin 1))) (Finset.sum_congr rfl fun e _ => by rw [h e])

end Cert.KernelIdeal.Hand

end
-- ==== Proof.KI.Region1.lean ====
/-
  The second kernel region (the result's blocks: scores less the row's log-sum-exp), at whatever contents the
  TensorCore's buffers have when the region is entered.

  A grid point is (batch block r, vocabulary tile k), 2 × 25 of them. The body reads three staged blocks — rows
  2048 r … of the lookup, rows 2048 k … of the vocabulary matrix, rows 2048 r … of the log-sum-exp column — and stores
  into the result's staging block the contraction of the first two over their 384 columns less the third broadcast
  along the rows. The vocabulary has 50000 = 24 · 2048 + 848 rows, so tile 24 hangs 1200 rows over its end: the fetch
  lands the 848 rows inside the matrix and leaves the rest of the staging block at contents nothing names, and the
  write-back of the result's block moves its 848 columns inside the result and nothing else. Column q of the body's
  result reads row q of the vocabulary block only, so the columns written back never depend on the unnamed rows.
-/
import proofs.«107669_j24335284699350_2_alg».proof.Proof.Gen.KernelIdeal.Launch
import proofs.«107669_j24335284699350_2_alg».proof.Proof.Gen.KernelIdeal.Skeleton
import proofs.«107669_j24335284699350_2_alg».proof.Proof.Gen.KernelIdeal.Points
import proofs.«107669_j24335284699350_2_alg».proof.Proof.KI.Region1Pay
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

-- the TensorCore's buffer contents when the region is entered
variable (V : (c : Dev nD) → (b : Ref sig .tc) → Buf (Elt Ideal) ((c : Thread nD τ).loc b))

/-! ## The windows' blocks -/

/-- Window w's block at point t, read off its array as the region finds it: the block's part inside the array. -/
def iblk1 (c : Dev nD) (w : Fin cfg1.W) (t : Fin cfg1.N) : ((cfg1.win w).xblock (cfg1.grid.coords t)).Idx → Elt Ideal (cfg1.win w).elt :=
  ((cfg1.win w).blk t).view.read (Elt Ideal) (V c (Pipeline.arrRef spec1 w))

/-- The vocabulary block at point t as a whole staging block: its part inside the matrix, the rows past the
    matrix's end (tile 24 only) at the zero word. -/
def wblk1 (c : Dev nD) (t : Fin cfg1.N) : Vec Ideal S2048x384 .bf16 :=
  win1_1.fill (grid1.coords t) (fun _ => (FloatOps.ofBits .bf16 0#16 : Ideal .bf16)) (iblk1 V c 1 t)

/-! ## The body's accesses -/

abbrev r1_0 : Rect S2048x384 := Rect.unit (s := S2048x384) ![0, 0] S2048x384.size inb_S2048x384_S2048x384_0_0
abbrev r1_2 : Rect S2048x1 := Rect.unit (s := S2048x1) ![0, 0] S2048x1.size inb_S2048x1_S2048x1_0_0
abbrev r1_3 : Rect S2048x2048 := Rect.unit (s := S2048x2048) ![0, 0] S2048x2048.size inb_S2048x2048_S2048x2048_0_0

theorem hz2 : (![0, 0] : Fin 2 → Nat) = fun _ => 0 := funext fun a => by
  match a with
  | ⟨0, _⟩ => rfl
  | ⟨1, _⟩ => rfl

/-! ## The body's triple -/

set_option maxHeartbeats 1000000 in
/-- The body on whole staging memrefs, the three inputs' at contents x0, x1, x2 and the result's at anything, runs to
    the continuation holding the inputs' as they were and the result's at the stored value of the three. -/
theorem sound_kernel1 (c : Dev nD) (E : Set ℕ) (i : grid1.Coords)
    (arg2 : Memref sig .tc .vmem S2048x384 .bf16) (harg2 : arg2.IsWhole) (arg3 : Memref sig .tc .vmem S2048x384 .bf16) (harg3 : arg3.IsWhole)
    (arg4 : Memref sig .tc .vmem S2048x1 .f32) (harg4 : arg4.IsWhole) (arg5 : Memref sig .tc .vmem S2048x2048 .f32) (harg5 : arg5.IsWhole)
    (x0 x1 : Vec Ideal S2048x384 .bf16) (x2 : Vec Ideal S2048x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k1_pay1 (F := Ideal) x0 x1 x2)) -∗ K ⟨⟩))
      ⊢ wp frame (wpE (defs₀ (F := Ideal)) Variants.none c none) E (cc1__output_kernel i arg2 harg2 arg3 harg3 arg4 harg4 arg5 harg5) K := by
  simp only [cc1__output_kernel_eq_skeleton]; unfold cc1__output_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero hz2 inb_S2048x2048_S2048x2048_0_0 y⟩),
    View.canon_unit_zero hz2]
  simp only [View.readAt_eq_ld, View.ld_unit_zero (S := S2048x384) hz2, View.ld_unit_zero (S := S2048x1) hz2]

/-! ## The pipeline's proof data -/

/-- The proof data of the region's pipeline on core c: the arrays as the region finds them; after the body at point t
    the lookup's and the log-sum-exp column's staging blocks at their blocks, the vocabulary's at its block filled out
    past the matrix's end with the zero word, the result's at the body's stored value of those three; the class's
    invariant; nothing owed; full shares. -/
def dat1 (c : Dev nD) : Dat τ (Elt Ideal) Unit ℕ (UR sig nD τ) ℕ cfg1 c where
  A w := V c (Pipeline.arrRef spec1 w)
  after w t := match w with
    | ⟨0, _⟩ => iblk1 V c 0 t
    | ⟨1, _⟩ => wblk1 V c t
    | ⟨2, _⟩ => iblk1 V c 2 t
    | ⟨3, _⟩ => k1_pay1 (F := Ideal) (iblk1 V c 0 t) (wblk1 V c t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = wblk1 V c t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay1 (F := Ideal) (iblk1 V c 0 t) (wblk1 V c t) (iblk1 V c 2 t) := by dsimp only [dat1]

/-! ## What the body finds in the staging blocks -/

/-- The lookup's staging block holds its block at every point, fetched there or not: unfetched, the batch block has
    not moved. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
/-- The log-sum-exp column's likewise. -/
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
/-- The vocabulary's is fetched at every point: its block on the rows inside the matrix, what the staging block held
    elsewhere. -/
theorem before1_1 (c : Dev nD) (t : Fin cfg1.N) (d) :
    (dat1 V c).before 1 t d = win1_1.fill (grid1.coords t) d (iblk1 V c 1 t) := by
  unfold Dat.before; rw [if_pos (fetch1_1 t)]
  unfold Dat.fetched Dat.blockOf iblk1; rw [A_eq1]; try rfl
/-- The result's is written back at every point, so the body always finds it at contents nothing names. -/
theorem before1_3 (c : Dev nD) (t : Fin cfg1.N) (d) : (dat1 V c).before 3 t d = d :=
  (dat1 V c).before_out_reset 3 rfl t
    (by by_cases h0 : t.val = 0
        · exact .inl h0
        · exact .inr ⟨h0, flush1_3 _⟩) d

/-! ## The columns written back do not read the unnamed rows -/

/-- At a position the transfer moves, a filled block holds the moved part, whatever filled the rest. -/
theorem fill_eq_of_moved {G : Pipeline.Grid} (w : Pipeline.Window sig G) {α : Type} (i : G.Coords) (d d' : w.block.Idx → α)
    (g : (w.xblock i).Idx → α) (j : w.block.Idx) (h : w.moved i j = true) : w.fill i d g j = w.fill i d' g j := by
  unfold Pipeline.Window.fill; rw [dif_pos h, dif_pos h]

/-- The vocabulary tile is cut on its rows exactly where the result's block is cut on its columns (both at the
    vocabulary's end, 50000), and not at all on its 384 columns. -/
theorem xsize1_rows (i : grid1.Coords) : win1_1.xsize i 0 = win1_3.xsize i 1 := rfl
theorem xsize1_cols (i : grid1.Coords) : win1_1.xsize i 1 = 384 := rfl

/-- The part of the body's stored value that the write-back moves is the same whatever the vocabulary's staging block
    holds past the matrix's end: column q of the stored value reads row q of that block, and the columns moved are
    the rows fetched. -/
theorem cut3_pay_congr (i : grid1.Coords) (x0 : Vec Ideal S2048x384 .bf16) (d d' : Vec Ideal S2048x384 .bf16)
    (g : (win1_1.xblock i).Idx → Elt Ideal .bf16) (x5 : Vec Ideal S2048x1 .f32) :
    win1_3.cut i (k1_pay1 (F := Ideal) x0 (win1_1.fill i d g) x5) = win1_3.cut i (k1_pay1 (F := Ideal) x0 (win1_1.fill i d' g) x5) := by
  funext j
  have hq : (j 1).val < win1_1.xsize i 0 := (xsize1_rows i).symm ▸ (j 1).isLt
  have hj : win1_3.xinj i j = ix2 (⟨(j 0).val, (win1_3.xinj i j 0).isLt⟩ : Fin 2048) (⟨(j 1).val, (win1_3.xinj i j 1).isLt⟩ : Fin 2048) :=
    funext fun a => by
      match a with
      | ⟨0, _⟩ => rfl
      | ⟨1, _⟩ => rfl
  show k1_pay1 (F := Ideal) x0 (win1_1.fill i d g) x5 (win1_3.xinj i j) = k1_pay1 (F := Ideal) x0 (win1_1.fill i d' g) x5 (win1_3.xinj i j)
  rw [hj]
  refine pay1_congr_row x0 _ _ x5 _ _ fun e => fill_eq_of_moved win1_1 i d d' g _ ((win1_1.moved_iff i _).mpr fun a => ?_)
  match a with
  | ⟨0, _⟩ => exact hq
  | ⟨1, _⟩ => exact (xsize1_cols i).symm ▸ e.isLt

/-! ## The body obligation, at a generic point -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: the two windows that tile their arrays at what the body leaves, the two that overhang theirs at
    anything that is what the body leaves on the part their transfers move. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ (∃ d, owns (c : Thread nD τ) (st1_1 t) fullShare ((cfg1.win 1).fill (cfg1.grid.coords t) d ((cfg1.win 1).cut (cfg1.grid.coords t) ((dat1 V c).after 1 t))))
    ∗ owns (c : Thread nD τ) (st1_2 t) fullShare ((dat1 V c).after 2 t)
    ∗ (∃ d, owns (c : Thread nD τ) (st1_3 t) fullShare ((cfg1.win 3).fill (cfg1.grid.coords t) d ((cfg1.win 3).cut (cfg1.grid.coords t) ((dat1 V c).after 3 t)))))

/-- The body at any point: the staging blocks hold what the before lemmas say, so the body's triple applies; it hands the
    vocabulary's block back as found, and the result's at the stored value of what it found, which on the columns
    written back is the stored value of the named blocks. -/
theorem sound_body1 (c : Dev nD) (t : Fin cfg1.N) :
    bodyPre1 V c t ⊢ wp frame (wpE (defs₀ (F := Ideal)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (win1_1.fill (grid1.coords t) d1 (iblk1 V c 1 t)) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists d1
    rw [show (cfg1.win 1).cut (cfg1.grid.coords t) (wblk1 V c t) = iblk1 V c 1 t from win1_1.cut_fill _ _ _]
    iexact H1
  isplitl [H2]; · iexact H2
  iexists (k1_pay1 (F := Ideal) (iblk1 V c 0 t) (win1_1.fill (grid1.coords t) d1 (iblk1 V c 1 t)) (iblk1 V c 2 t))
  rw [show (cfg1.win 3).fill (cfg1.grid.coords t)
        (k1_pay1 (F := Ideal) (iblk1 V c 0 t) (win1_1.fill (grid1.coords t) d1 (iblk1 V c 1 t)) (iblk1 V c 2 t))
        ((cfg1.win 3).cut (cfg1.grid.coords t) (k1_pay1 (F := Ideal) (iblk1 V c 0 t) (wblk1 V c t) (iblk1 V c 2 t)))
      = k1_pay1 (F := Ideal) (iblk1 V c 0 t) (win1_1.fill (grid1.coords t) d1 (iblk1 V c 1 t)) (iblk1 V c 2 t)
    from win1_3.fill_congr_cut (grid1.coords t) (cut3_pay_congr (grid1.coords t) (iblk1 V c 0 t) _ _ (iblk1 V c 1 t) (iblk1 V c 2 t))]
  iexact H3

/-- The library's body obligation, at every point. -/
theorem body_obligation1 (c : Dev nD) : BodyObligationLoose (dat1 V c) (defs₀ (F := Ideal)) Variants.none () Set.univ := fun t => by
  rw [bigSep_W1, bigSep_W1]
  exact sound_body1 V c t

end Cert.KernelIdeal.Hand

end
-- ==== Proof.KI.Run.lean ====
/-
  The idealized kernel program's run: seven stretches of host operations, the statistics region, the output region.
  Between two items the core's unscoped buffers are held at named contents: the launch memory, each stretch's
  operations applied, and after a region its arrays at what its write-backs leave (the other buffers untouched). The run
  ends with every unscoped buffer at the last contents, from which the result array and the arguments are read.
-/
import proofs.«107669_j24335284699350_2_alg».proof.Proof.KI.R0Frame
import proofs.«107669_j24335284699350_2_alg».proof.Proof.KI.Region1
import proofs.«107669_j24335284699350_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf Seg HostSeg RegionSeg)

local notation "𝕄" => MT nD τ sig Unit (Elt Ideal) ℕ (UR sig nD τ) ℕ

variable (m : (ℓ : Loc nD τ sig) → Buf (Elt Ideal) ℓ) (ρ : Dev nD → PrngReg)

/-! ## The buffers' contents at the regions' boundaries -/

/-- Before the statistics region: the launch memory after the seven host stretches. -/
abbrev W7 : Dev nD → Valuation τ sig (Elt Ideal) := fun c => V7 (F := Ideal) m c
abbrev E7 : (c : Dev nD) → (b : Ref sig .tc) → Buf (Elt Ideal) ((c : Thread nD τ).loc b) := fun c b => W7 m c b
/-- After it: its arrays at what its write-backs leave. -/
def W8 (c : Dev nD) : Valuation τ sig (Elt Ideal) :=
  Pipeline.withArrays spec0 c (W7 m c) fun w => (dat0 (E7 m) c).arrAt w cfg0.N
theorem W8_arr (c : Dev nD) (w : Fin cfg0.W) :
    W8 m c (Proc.devRef .tc (Pipeline.arrRef spec0 w)) = (dat0 (E7 m) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m c (Proc.devRef .tc b) = W7 m c (Proc.devRef .tc b) := by
  unfold W8; exact Pipeline.withArrays_of_ne spec0 c _ _ b hb
abbrev E8 : (c : Dev nD) → (b : Ref sig .tc) → Buf (Elt Ideal) ((c : Thread nD τ).loc b) := fun c b => W8 m c b
theorem hF0 (c : Dev nD) (w : Fin cfg0.W) : (dat0 (E7 m) c).arrAt w cfg0.N = E8 m c (Pipeline.arrRef spec0 w) :=
  (W8_arr m c w).symm
theorem hrest0 (c : Dev nD) : ∀ b, b ∉ Finset.univ.image (Pipeline.arrRef spec0) → E8 m c b = E7 m c b :=
  fun b hb => W8_of_ne m c b fun w e => hb (Finset.mem_image.mpr ⟨w, Finset.mem_univ _, e⟩)

/-- After the output region. -/
def W9 (c : Dev nD) : Valuation τ sig (Elt Ideal) :=
  Pipeline.withArrays spec1 c (W8 m c) fun w => (dat1 (E8 m) c).arrAt w cfg1.N
theorem W9_arr (c : Dev nD) (w : Fin cfg1.W) :
    W9 m c (Proc.devRef .tc (Pipeline.arrRef spec1 w)) = (dat1 (E8 m) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m c (Proc.devRef .tc b) = W8 m c (Proc.devRef .tc b) := by
  unfold W9; exact Pipeline.withArrays_of_ne spec1 c _ _ b hb
abbrev E9 : (c : Dev nD) → (b : Ref sig .tc) → Buf (Elt Ideal) ((c : Thread nD τ).loc b) := fun c b => W9 m c b
theorem hF1 (c : Dev nD) (w : Fin cfg1.W) : (dat1 (E8 m) c).arrAt w cfg1.N = E9 m c (Pipeline.arrRef spec1 w) :=
  (W9_arr m c w).symm
theorem hrest1 (c : Dev nD) : ∀ b, b ∉ Finset.univ.image (Pipeline.arrRef spec1) → E9 m c b = E8 m c b :=
  fun b hb => W9_of_ne m c b fun w e => hb (Finset.mem_image.mpr ⟨w, Finset.mem_univ _, e⟩)

/-! ## The proof data family and the thread state -/

def pdats : (p : Fin 2) → (c : Dev nD) → Dat τ (Elt Ideal) Unit ℕ (UR sig nD τ) ℕ (Pipeline.pin (pcfgs (F := Ideal)) adm p) c
  | ⟨0, _⟩ => fun c => dat0 (E7 m) c
  | ⟨1, _⟩ => fun c => dat1 (E8 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev Tₙ (c : Dev nD) : sProp 𝕄 := iprop(StableHlo.held (c : Thread nD τ) (Pipeline.ucRefs τ sig) (W9 m c) ∗ ∃ r, prngReg c r)

variable (hind : Indep0 (F := Ideal) (E7 m))

set_option backward.isDefEq.respectTransparency.types false in
/-- Region 0 over the thread state: entered with every unscoped buffer at the contents before it, left with them at the
    contents after it; its arrays are split out of the unscoped buffers and put back at what the write-backs leave. -/
def reg0 : Pipeline.RegionSeg (pcfgs (F := Ideal)) adm (pdats m) () defs₀ 𝒱₀ L lv 0 where
  win := launch0.win.to₀
  block_pos := launch0.block_pos
  stage_whole := launch0.stage_whole
  K := PEmpty
  osem k := k.elim
  ho := Pipeline.OwnSemFacts.none _
  hbody c := body_obligation0 (E7 m) hind c
  hwaits := Pipeline.hwaits_of_owed_zero _ _ _ _ L lv 0 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec0 c (E7 m c)
  hentry c := by
    rw [Pipeline.ownSems0_none]
    have hsplit := Pipeline.arrays_of_unscopedBufs (p := 0) (pcfgs (F := Ideal)) adm (pdats m) launch0.win launch0.arr_whole c
      ((pdats m 0 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (E7 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdats m) ((pdats m 0 c).share_full fun _ => rfl)
      (E7 m c) (E8 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at the
    contents after it; its arrays are split out of the unscoped buffers and put back at what the write-backs leave. -/
def reg1 : Pipeline.RegionSeg (pcfgs (F := Ideal)) adm (pdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (E8 m) c
  hwaits := Pipeline.hwaits_of_owed_zero _ _ _ _ L lv 1 fun _ _ => rfl
  pre c := iprop(StableHlo.held (c : Thread nD τ) (Pipeline.ucRefs τ sig) (W8 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E8 m c)
  hentry c := by
    rw [Pipeline.ownSems0_none]
    have hsplit := Pipeline.arrays_of_unscopedBufs (p := 1) (pcfgs (F := Ideal)) adm (pdats m) launch1.win launch1.arr_whole c
      ((pdats m 1 c).share_full fun _ => rfl) (E8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := UR sig nD τ) (Lvl := ℕ)
      launch1.win launch1.arr_whole c (pdats m) ((pdats m 1 c).share_full fun _ => rfl)
      (E8 m c) (E9 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

/-- The rest state beside the buffers, the same at the three places the host segments and the regions meet. -/
abbrev ER : Fin 3 → Dev nD → sProp 𝕄 := fun _ c => R c

abbrev segs (c : Dev nD) : List (Seg (pcfgs (F := Ideal)) adm (pdats m) () defs₀ 𝒱₀ L lv) :=
  [.host (seg0 m 𝒱₀ L lv ER), .host (seg1 m 𝒱₀ L lv ER), .host (seg2 m 𝒱₀ L lv ER), .host (seg3 m 𝒱₀ L lv ER), .host (seg4 m 𝒱₀ L lv ER), .host (seg5 m 𝒱₀ L lv ER), .host (seg6 m 𝒱₀ L lv ER), .region (reg0 m hind), .region (reg1 m)]

include hind in
set_option backward.isDefEq.respectTransparency.types false in
/-- Every weakly fair execution of the idealized kernel program terminates, nothing faulting, with every unscoped buffer of
    every core at the contents after the output region. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W9 m c b) := by
  refine Pipeline.θ_run_regions_kit_dev (pcfgs (F := Ideal)) adm (pdats m) () cellOf_inj emb₁ defs₀ 𝒱₀ L lv m ρ main
    (segs m hind)
    (fun c Q => by
      rewrite [main_chain c, Seg.run_eq_chain,
        show (segs m hind c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          Prog.lift (.customCall (Pipeline.entry 1) ()) ] from rfl]
      exact .rfl)
    (fun c => by simp only [segs, Seg.pipes_host, Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := fun c => ⟨.rfl, .rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

end Cert.KernelIdeal.Hand

end
-- ==== Proof.LibOnlineLogSumExp.lean ====
/-
  The running maximum and running sum of a softmax computed tile by tile, on the extended reals.

  A row of scores arrives in tiles s 0, s 1, … (a tile is a finite family of extended reals; an entry ⊥ is a
  masked position). A streaming log-sum-exp keeps a pair (m, l), starts at (⊥, 0) and, at tile n whose largest
  entry is c n, moves to
      m' = max m (c n),    l' = exp (m - m') * l + ∑ j, exp (s n j - m').
  When each of the first n + 1 tiles has a real largest entry (so none of their entries is ⊤), after those tiles m is the largest entry M of all
  tiles so far, a real number, and l is the real number ∑ exp (s k j - M) over all of them, which is positive:
  rescaling the old sum by exp (m - m') turns each exp (a - m) into exp (a - m') (the exponential of a sum), a
  masked entry contributes exp ⊥ = 0 before and after, and the first step multiplies the empty sum 0 by exp ⊥ = 0.
  For real x, M and positive real L also x - (M + log L) = (x - M) - log L: the one-pass result is the two-pass one.
-/
import Idealize.ShloMosaic.PureOps.Ideal

noncomputable section

namespace Cert.Lib.OnlineLogSumExp

open Idealize.ShloMosaic Finset

/-- The coercion of a finite real sum is the sum of the coercions. -/
theorem coe_sum {ι : Type} (t : Finset ι) (f : ι → ℝ) :
    ((∑ i ∈ t, f i : ℝ) : EReal) = ∑ i ∈ t, ((f i : ℝ) : EReal) := by
  classical
  refine Finset.induction_on t (by simp) ?_
  intro a t ha ih
  rw [Finset.sum_insert ha, Finset.sum_insert ha, EReal.coe_add, ih]

theorem exp_coe (r : ℝ) : Ideal.exp (r : EReal) = ((Real.exp r : ℝ) : EReal) := rfl

theorem exp_bot : Ideal.exp ⊥ = 0 := rfl

theorem log_coe_pos (r : ℝ) (h : 0 < r) : Ideal.log (r : EReal) = ((Real.log r : ℝ) : EReal) := by
  show (if r ≤ 0 then (⊥ : EReal) else ((Real.log r : ℝ) : EReal)) = _
  rw [if_neg (not_le.2 h)]

/-- exp (a - M) as a real number: 0 for a masked entry a = ⊥. -/
def term (a : EReal) (M : ℝ) : ℝ := (Ideal.exp (a - (M : EReal))).toReal

theorem term_bot (M : ℝ) : term ⊥ M = 0 := by
  unfold term; rw [EReal.bot_sub, exp_bot, EReal.toReal_zero]

theorem term_coe (r M : ℝ) : term (r : EReal) M = Real.exp (r - M) := by
  unfold term; rw [← EReal.coe_sub, exp_coe, EReal.toReal_coe]

theorem term_self (M : ℝ) : term (M : EReal) M = 1 := by
  rw [term_coe, sub_self, Real.exp_zero]

theorem term_nonneg (a : EReal) (M : ℝ) (ha : a ≠ ⊤) : 0 ≤ term a M := by
  induction a using EReal.rec with
  | bot => rw [term_bot]
  | coe r => rw [term_coe]; exact (Real.exp_pos _).le
  | top => exact absurd rfl ha

/-- For an entry that is not ⊤, exp (a - M) on the extended reals is the coercion of the real number term a M. -/
theorem exp_sub_eq_term (a : EReal) (ha : a ≠ ⊤) (M : ℝ) :
    Ideal.exp (a - (M : EReal)) = ((term a M : ℝ) : EReal) := by
  induction a using EReal.rec with
  | bot => rw [term_bot, EReal.bot_sub, exp_bot, EReal.coe_zero]
  | coe r => rw [term_coe, ← EReal.coe_sub, exp_coe]
  | top => exact absurd rfl ha

/-- Moving the reference point from M to M' rescales every term by exp (M - M'). -/
theorem term_rescale (a : EReal) (ha : a ≠ ⊤) (M M' : ℝ) :
    Real.exp (M - M') * term a M = term a M' := by
  induction a using EReal.rec with
  | bot => rw [term_bot, term_bot, mul_zero]
  | coe r => rw [term_coe, term_coe, ← Real.exp_add]; congr 1; ring
  | top => exact absurd rfl ha

variable {J : Type} [Fintype J]

/-- The streaming pair (running maximum, running sum) after n tiles. -/
def run (s : ℕ → J → EReal) (c : ℕ → EReal) : ℕ → EReal × EReal
  | 0 => (⊥, 0)
  | n + 1 =>
    (max (run s c n).1 (c n),
      Ideal.exp ((run s c n).1 - max (run s c n).1 (c n)) * (run s c n).2
        + ∑ j, Ideal.exp (s n j - max (run s c n).1 (c n)))

theorem ne_top_of_le_coe {a : EReal} {r : ℝ} (h : a ≤ (r : EReal)) : a ≠ ⊤ := by
  intro e; rw [e] at h; exact absurd (top_le_iff.1 h) (EReal.coe_ne_top r)

/-- After n + 1 tiles, each with a real largest entry c k (an upper bound of the tile that some entry attains), the
    running maximum is a real M that bounds every entry so far and is attained, and the running sum is the real
    sum of exp (s k j - M) over all entries so far. Only the tiles 0 … n are asked anything. -/
theorem run_spec (s : ℕ → J → EReal) (c : ℕ → EReal) (n : ℕ) (hub : ∀ k ≤ n, ∀ j, s k j ≤ c k)
    (hatt : ∀ k ≤ n, ∃ j, s k j = c k) (hreal : ∀ k ≤ n, ∃ r : ℝ, c k = (r : EReal)) :
    ∃ M : ℝ, (run s c (n + 1)).1 = (M : EReal) ∧ (∀ k ≤ n, ∀ j, s k j ≤ (M : EReal))
      ∧ (∃ k ≤ n, ∃ j, s k j = (M : EReal))
      ∧ (run s c (n + 1)).2 = ((∑ k ∈ range (n + 1), ∑ j, term (s k j) M : ℝ) : EReal) := by
  induction n with
  | zero =>
    have hnt : ∀ j, s 0 j ≠ ⊤ := fun j => by
      obtain ⟨r, hr⟩ := hreal 0 le_rfl
      exact ne_top_of_le_coe (hr ▸ hub 0 le_rfl j)
    obtain ⟨r, hr⟩ := hreal 0 le_rfl
    have hm : max (⊥ : EReal) (c 0) = (r : EReal) := by rw [hr]; exact max_eq_right bot_le
    refine ⟨r, ?_, ?_, ?_, ?_⟩
    · show max (⊥ : EReal) (c 0) = _
      exact hm
    · intro k hk j
      obtain rfl : k = 0 := Nat.le_zero.1 hk
      exact hr ▸ hub 0 le_rfl j
    · obtain ⟨j, hj⟩ := hatt 0 le_rfl
      exact ⟨0, le_rfl, j, hj.trans hr⟩
    · show Ideal.exp ((⊥ : EReal) - max (⊥ : EReal) (c 0)) * (0 : EReal) + ∑ j, Ideal.exp (s 0 j - max (⊥ : EReal) (c 0)) = _
      rw [hm, mul_zero, zero_add, Finset.sum_range_one, coe_sum]
      exact Finset.sum_congr rfl fun j _ => exp_sub_eq_term _ (hnt j) r
  | succ n ih =>
    have hnt : ∀ k ≤ n + 1, ∀ j, s k j ≠ ⊤ := fun k hk j => by
      obtain ⟨r, hr⟩ := hreal k hk
      exact ne_top_of_le_coe (hr ▸ hub k hk j)
    obtain ⟨M, h1, h2, h3, h4⟩ := ih (fun k hk => hub k (Nat.le_succ_of_le hk)) (fun k hk => hatt k (Nat.le_succ_of_le hk))
      (fun k hk => hreal k (Nat.le_succ_of_le hk))
    obtain ⟨r, hr⟩ := hreal (n + 1) le_rfl
    have hm : max (run s c (n + 1)).1 (c (n + 1)) = ((max M r : ℝ) : EReal) := by
      rw [h1, hr]; exact (EReal.coe_strictMono.monotone.map_max).symm
    refine ⟨max M r, ?_, ?_, ?_, ?_⟩
    · show max (run s c (n + 1)).1 (c (n + 1)) = _
      exact hm
    · intro k hk j
      rcases Nat.lt_or_ge k (n + 1) with hlt | hge
      · exact (h2 k (Nat.lt_succ_iff.1 hlt) j).trans (EReal.coe_le_coe_iff.2 (le_max_left M r))
      · obtain rfl : k = n + 1 := le_antisymm hk hge
        exact (hr ▸ hub (n + 1) le_rfl j).trans (EReal.coe_le_coe_iff.2 (le_max_right M r))
    · rcases le_total M r with hle | hle
      · obtain ⟨j, hj⟩ := hatt (n + 1) le_rfl
        exact ⟨n + 1, le_rfl, j, by rw [hj, hr, max_eq_right hle]⟩
      · obtain ⟨k, hk, j, hj⟩ := h3
        exact ⟨k, Nat.le_succ_of_le hk, j, by rw [hj, max_eq_left hle]⟩
    · show Ideal.exp ((run s c (n + 1)).1 - max (run s c (n + 1)).1 (c (n + 1))) * (run s c (n + 1)).2
          + ∑ j, Ideal.exp (s (n + 1) j - max (run s c (n + 1)).1 (c (n + 1))) = _
      rw [hm, h1, h4, ← EReal.coe_sub, exp_coe, ← EReal.coe_mul, Finset.sum_range_succ _ (n + 1), EReal.coe_add,
        coe_sum (Finset.univ) (fun j => term (s (n + 1) j) (max M r))]
      congr 1
      · congr 1
        rw [Finset.mul_sum]
        refine Finset.sum_congr rfl fun k hk => ?_
        rw [Finset.mul_sum]
        exact Finset.sum_congr rfl fun j _ =>
          term_rescale _ (hnt k (Nat.le_succ_of_le (Nat.lt_succ_iff.1 (Finset.mem_range.1 hk))) j) M (max M r)
      · exact Finset.sum_congr rfl fun j _ => exp_sub_eq_term _ (hnt (n + 1) le_rfl j) (max M r)

/-- The sum of the terms is positive when some entry attains the reference point M and no entry so far is ⊤. -/
theorem sum_term_pos (s : ℕ → J → EReal) (n : ℕ) (M : ℝ) (hnt : ∀ k ≤ n, ∀ j, s k j ≠ ⊤)
    (hatt : ∃ k ≤ n, ∃ j, s k j = (M : EReal)) : 0 < ∑ k ∈ range (n + 1), ∑ j, term (s k j) M := by
  obtain ⟨k, hk, j, hj⟩ := hatt
  have h0 : ∀ k' ∈ range (n + 1), 0 ≤ ∑ j, term (s k' j) M := fun k' hk' =>
    Finset.sum_nonneg fun j _ => term_nonneg _ _ (hnt k' (Nat.lt_succ_iff.1 (Finset.mem_range.1 hk')) j)
  refine lt_of_lt_of_le ?_ (Finset.single_le_sum h0 (Finset.mem_range.2 (Nat.lt_succ_of_le hk)))
  refine lt_of_lt_of_le ?_ (Finset.single_le_sum (fun j _ => term_nonneg _ _ (hnt k hk j)) (Finset.mem_univ j))
  rw [hj, term_self]; exact one_pos

/-- The one-pass result x - (M + log L) is the two-pass result (x - M) - log L, for real x, M and positive real L. -/
theorem sub_lse_eq (x M L : ℝ) (hL : 0 < L) :
    (x : EReal) - ((M : EReal) + Ideal.log (L : EReal)) = ((x : EReal) - (M : EReal)) - Ideal.log (L : EReal) := by
  rw [log_coe_pos L hL, ← EReal.coe_add, ← EReal.coe_sub, ← EReal.coe_sub, ← EReal.coe_sub]
  congr 1; ring

end Cert.Lib.OnlineLogSumExp

end
-- ==== Proof.KI.Tiles.lean ====
/-
  What the two kernel regions compute, as functions of the arrays they are entered with, on the extended reals.

  E is the padded lookup (4096 rows of 384 columns), Wp the padded vocabulary matrix (50000 rows of 384 columns).
  logit b v is their contraction over all 384 columns. The second region writes logit b v - lse b. The first region
  streams, for each row b, the 25 vocabulary tiles of 2048 positions: tile k holds logit b (2048 k + j) at the
  positions inside the vocabulary and ⊥ at the 1200 positions past it (tile 24 only); it keeps the running maximum
  and running sum of LibOnlineLogSumExp and writes their m + log l.
-/
import Idealize.ShloMosaic.PureOps.Ideal
import Idealize.ShloMosaic.Lib.ValueIdx
import proofs.«107669_j24335284699350_2_alg».proof.Proof.LibOnlineLogSumExp

noncomputable section

namespace Cert.KernelIdeal.Hand

open Idealize.ShloMosaic Idealize.ShloMosaic.ValueIdx

/-- The score of row b against word v over the padded operands: the contraction over all 384 columns. -/
def logit (E : (⟨2, ![4096, 384]⟩ : Shape).Idx → EReal) (Wp : (⟨2, ![50000, 384]⟩ : Shape).Idx → EReal)
    (b : Fin 4096) (v : Fin 50000) : EReal :=
  ∑ e : Fin 384, E (ix2 b e) * Wp (ix2 v e)

/-- What the second region leaves in the result array: the score less the row's log-sum-exp. -/
def G1 (E : (⟨2, ![4096, 384]⟩ : Shape).Idx → EReal) (Wp : (⟨2, ![50000, 384]⟩ : Shape).Idx → EReal)
    (lse : (⟨2, ![4096, 1]⟩ : Shape).Idx → EReal) : (⟨2, ![4096, 50000]⟩ : Shape).Idx → EReal :=
  fun j => logit E Wp (j 0) (j 1) - lse (ix2 (j 0) (0 : Fin 1))

/-- Position j of vocabulary tile k of row b: the score inside the vocabulary, ⊥ past its end. -/
def tileScore (E : (⟨2, ![4096, 384]⟩ : Shape).Idx → EReal) (Wp : (⟨2, ![50000, 384]⟩ : Shape).Idx → EReal)
    (b : Fin 4096) (k : ℕ) (j : Fin 2048) : EReal :=
  if h : k * 2048 + j.val < 50000 then logit E Wp b ⟨k * 2048 + j.val, h⟩ else ⊥

/-- The largest entry of a tile. -/
def tileMax (E : (⟨2, ![4096, 384]⟩ : Shape).Idx → EReal) (Wp : (⟨2, ![50000, 384]⟩ : Shape).Idx → EReal)
    (b : Fin 4096) (k : ℕ) : EReal :=
  Finset.univ.sup (tileScore E Wp b k)

/-- What the first region leaves in the log-sum-exp array: m + log l of the streaming pair after the 25 tiles. -/
def G0 (E : (⟨2, ![4096, 384]⟩ : Shape).Idx → EReal) (Wp : (⟨2, ![50000, 384]⟩ : Shape).Idx → EReal) :
    (⟨2, ![4096, 1]⟩ : Shape).Idx → EReal :=
  fun j => (Cert.Lib.OnlineLogSumExp.run (tileScore E Wp (j 0)) (tileMax E Wp (j 0)) 25).1
    + Ideal.log (Cert.Lib.OnlineLogSumExp.run (tileScore E Wp (j 0)) (tileMax E Wp (j 0)) 25).2

end Cert.KernelIdeal.Hand

end
-- ==== Proof.KI.Region1Value.lean ====
/-
  What the second region leaves in the result array, as one function of the three arrays it reads, and that it leaves
  those three as it found them.

  Point t = 25 r + k of the grid writes back the part inside the result of block (r, k): rows 2048 r … 2048 r + 2047,
  columns 2048 k … up to the vocabulary's end (all 2048 of them for k < 24, the first 848 for k = 24). Entry (p, q) of
  what it writes is the body's stored value of the three staged blocks, ∑ e, E[2048 r + p, e] · Wp[2048 k + q, e]
  - lse[2048 r + p], which is the function G1 of the three arrays at (2048 r + p, 2048 k + q): each block written
  back is a block of G1. Row b, column v of the result lies in the block of point 25 (b / 2048) + v / 2048, so the
  blocks cover the result and it ends as G1.
-/
import proofs.«107669_j24335284699350_2_alg».proof.Proof.KI.Region1
import proofs.«107669_j24335284699350_2_alg».proof.Proof.KI.Tiles
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The three arrays read are left as found -/

/-- An array the region only reads is never written back. -/
theorem kept1 (c : Dev nD) (w : Fin cfg1.W) (hw : w ≠ 3) : (dat1 V c).arrAt w cfg1.N = V c (Pipeline.arrRef spec1 w) :=
  ((dat1 V c).arrAt_in w (by
    match w, hw with
    | ⟨0, _⟩, _ => rfl
    | ⟨1, _⟩, _ => rfl
    | ⟨2, _⟩, _ => rfl
    | ⟨3, _⟩, h => exact absurd rfl h) _).trans (A_eq1 V c w)

/-! ## The index maps and the cuts, over the grid -/

/-- Point t is (batch block t / 25, vocabulary tile t % 25): the lookup's and the log-sum-exp column's blocks follow the
    batch block, the vocabulary's the tile, the result's both. -/
theorem idx1_facts : ∀ t : Fin cfg1.N,
    win1_0.index t (0 : Fin 2) = win1_3.index t (0 : Fin 2) ∧ win1_0.index t (1 : Fin 2) = 0
    ∧ win1_1.index t (0 : Fin 2) = win1_3.index t (1 : Fin 2) ∧ win1_1.index t (1 : Fin 2) = 0
    ∧ win1_2.index t (0 : Fin 2) = win1_3.index t (0 : Fin 2) ∧ win1_2.index t (1 : Fin 2) = 0
    ∧ win1_3.index t (0 : Fin 2) = t.val / 25 ∧ win1_3.index t (1 : Fin 2) = t.val % 25 ∧ t.val < 50 :=
  (by decide +kernel : ∀ t : Fin grid1.N, _)

/-- The result's block is whole on its rows and, on its columns, cut to 848 at tile 24 and whole before it; the
    vocabulary's block is cut on its rows as the result's on its columns, and whole on its columns. -/
theorem xsize1_facts : ∀ t : Fin cfg1.N,
    win1_3.xsize (grid1.coords t) (0 : Fin 2) = 2048
    ∧ ((t.val % 25 = 24 ∧ win1_3.xsize (grid1.coords t) (1 : Fin 2) = 848)
        ∨ (t.val % 25 < 24 ∧ win1_3.xsize (grid1.coords t) (1 : Fin 2) = 2048))
    ∧ win1_1.xsize (grid1.coords t) (0 : Fin 2) = win1_3.xsize (grid1.coords t) (1 : Fin 2)
    ∧ win1_1.xsize (grid1.coords t) (1 : Fin 2) = 384 :=
  (by decide +kernel : ∀ t : Fin grid1.N, _)

/-! ## One entry of a block written back -/

/-- At a position its transfer moves, a filled block holds the moved part's entry there. -/
theorem fill_apply_of_moved {G : Pipeline.Grid} (w : Pipeline.Window sig G) {α : Type} (i : G.Coords) (d : w.block.Idx → α)
    (g : (w.xblock i).Idx → α) (j : w.block.Idx) (h : ∀ a, (j a).val < w.xsize i a) :
    w.fill i d g j = g fun a => ⟨(j a).val, h a⟩ := by
  unfold Pipeline.Window.fill; rw [dif_pos ((w.moved_iff i j).mpr h)]

/-- The body's stored value of three blocks that are rows 2048 r … of E, rows 2048 k … of Wp and rows 2048 r … of lse,
    at (p, q), is G1 of the three arrays at (2048 r + p, 2048 k + q). -/
theorem pay1_blocks (E : S4096x384.Idx → EReal) (Wp : S50000x384.Idx → EReal) (lse : S4096x1.Idx → EReal)
    (x0 x2 : Vec Ideal S2048x384 .bf16) (x5 : Vec Ideal S2048x1 .f32) (r k : ℕ) (p q : Fin 2048)
    (hb : r * 2048 + p.val < 4096) (hv : k * 2048 + q.val < 50000)
    (h0 : ∀ e : Fin 384, x0 (ix2 p e) = E (ix2 (⟨r * 2048 + p.val, hb⟩ : Fin 4096) e))
    (h2 : ∀ e : Fin 384, x2 (ix2 q e) = Wp (ix2 (⟨k * 2048 + q.val, hv⟩ : Fin 50000) e))
    (h5 : x5 (ix2 p (0 : Fin 1)) = lse (ix2 (⟨r * 2048 + p.val, hb⟩ : Fin 4096) (0 : Fin 1))) :
    k1_pay1 (F := Ideal) x0 x2 x5 (ix2 p q)
      = G1 E Wp lse (ix2 (⟨r * 2048 + p.val, hb⟩ : Fin 4096) (⟨k * 2048 + q.val, hv⟩ : Fin 50000)) := by
  rw [pay1_apply]
  show _ = (∑ e : Fin 384, E (ix2 (⟨r * 2048 + p.val, hb⟩ : Fin 4096) e) * Wp (ix2 (⟨k * 2048 + q.val, hv⟩ : Fin 50000) e))
    - lse (ix2 (⟨r * 2048 + p.val, hb⟩ : Fin 4096) (0 : Fin 1))
  rw [h5]
  exact congrArg (· - lse (ix2 (⟨r * 2048 + p.val, hb⟩ : Fin 4096) (0 : Fin 1)))
    (Finset.sum_congr rfl fun e _ => by rw [h0 e, h2 e])

/-! ## What each point writes back -/

/-- What point t writes back is block t of G1 of the three arrays as the region finds them. -/
theorem flushed3_eq (c : Dev nD) (t : Fin cfg1.N) :
    (dat1 V c).flushed 3 t
      = ((cfg1.win 3).blk t).view.read (Elt Ideal) (G1 (V c main_v3) (V c main_v5) (V c main_v6)) := by
  show (cfg1.win 3).cut (grid1.coords t) ((dat1 V c).after 3 t) = _
  rw [after1_3]
  obtain ⟨e0, e1, e2, e3, e4, e5, e6, e7, e8⟩ := idx1_facts t
  obtain ⟨s0, s1, s2, s3⟩ := xsize1_facts t
  funext j
  have hj0 : (j 0).val < win1_3.xsize (grid1.coords t) (0 : Fin 2) := (j 0).isLt
  have hj1 : (j 1).val < win1_3.xsize (grid1.coords t) (1 : Fin 2) := (j 1).isLt
  have hp : (j 0).val < 2048 := by omega
  have hq : (j 1).val < 2048 := by omega
  have hb : win1_3.index t (0 : Fin 2) * 2048 + (j 0).val < 4096 := by omega
  have hv : win1_3.index t (1 : Fin 2) * 2048 + (j 1).val < 50000 := by omega
  have hj : win1_3.xinj (grid1.coords t) j = ix2 (⟨(j 0).val, hp⟩ : Fin 2048) (⟨(j 1).val, hq⟩ : Fin 2048) :=
    funext fun a => by
      match a with
      | ⟨0, _⟩ => rfl
      | ⟨1, _⟩ => rfl
  have hemb : ((cfg1.win 3).blk t).view.emb j
      = ix2 (⟨win1_3.index t (0 : Fin 2) * 2048 + (j 0).val, hb⟩ : Fin 4096) (⟨win1_3.index t (1 : Fin 2) * 2048 + (j 1).val, hv⟩ : Fin 50000) :=
    funext fun a => Fin.ext (by
      match a with
      | ⟨0, _⟩ => show win1_3.index t (0 : Fin 2) * 2048 + 1 * (j 0).val = win1_3.index t (0 : Fin 2) * 2048 + (j 0).val; omega
      | ⟨1, _⟩ => show win1_3.index t (1 : Fin 2) * 2048 + 1 * (j 1).val = win1_3.index t (1 : Fin 2) * 2048 + (j 1).val; omega)
  show k1_pay1 (F := Ideal) (iblk1 V c 0 t) (wblk1 V c t) (iblk1 V c 2 t) (win1_3.xinj (grid1.coords t) j)
    = G1 (V c main_v3) (V c main_v5) (V c main_v6) (((cfg1.win 3).blk t).view.emb j)
  rw [hj, hemb]
  refine pay1_blocks (V c main_v3) (V c main_v5) (V c main_v6) _ _ _ _ _ _ _ hb hv (fun e => ?_) (fun e => ?_) ?_
  · show V c main_v3 (((cfg1.win 0).blk t).view.emb (ix2 (⟨(j 0).val, hp⟩ : Fin 2048) e)) = _
    refine congrArg (V c main_v3) (funext fun a => Fin.ext ?_)
    match a with
    | ⟨0, _⟩ => show win1_0.index t (0 : Fin 2) * 2048 + 1 * (j 0).val = win1_3.index t (0 : Fin 2) * 2048 + (j 0).val; omega
    | ⟨1, _⟩ => show win1_0.index t (1 : Fin 2) * 384 + 1 * e.val = e.val; omega
  · have hm : ∀ a, ((ix2 (⟨(j 1).val, hq⟩ : Fin 2048) e : S2048x384.Idx) a).val < win1_1.xsize (grid1.coords t) a := fun a => by
      match a with
      | ⟨0, _⟩ => show (j 1).val < win1_1.xsize (grid1.coords t) (0 : Fin 2); omega
      | ⟨1, _⟩ => show e.val < win1_1.xsize (grid1.coords t) (1 : Fin 2); have := e.isLt; omega
    unfold wblk1
    rw [fill_apply_of_moved win1_1 (grid1.coords t) _ _ _ hm]
    show V c main_v5 (((cfg1.win 1).blk t).view.emb _) = _
    refine congrArg (V c main_v5) (funext fun a => Fin.ext ?_)
    match a with
    | ⟨0, _⟩ => show win1_1.index t (0 : Fin 2) * 2048 + 1 * (j 1).val = win1_3.index t (1 : Fin 2) * 2048 + (j 1).val; omega
    | ⟨1, _⟩ => show win1_1.index t (1 : Fin 2) * 384 + 1 * e.val = e.val; omega
  · show V c main_v6 (((cfg1.win 2).blk t).view.emb (ix2 (⟨(j 0).val, hp⟩ : Fin 2048) (0 : Fin 1))) = _
    refine congrArg (V c main_v6) (funext fun a => Fin.ext ?_)
    match a with
    | ⟨0, _⟩ => show win1_2.index t (0 : Fin 2) * 2048 + 1 * (j 0).val = win1_3.index t (0 : Fin 2) * 2048 + (j 0).val; omega
    | ⟨1, _⟩ => show win1_2.index t (1 : Fin 2) * 1 + 1 * 0 = 0; omega

/-! ## The blocks cover the result -/

/-- An index of the result is in point t's block iff each coordinate is among the block's coordinates inside the result on
    its axis. -/
theorem mem_blk3 (t : Fin cfg1.N) (i : S4096x50000.Idx) :
    i ∈ ((cfg1.win 3).blk t).view.set ↔ ∀ a : Fin 2, win1_3.index t a * S2048x2048.size a ≤ (i a).val
      ∧ (i a).val < win1_3.index t a * S2048x2048.size a + win1_3.xsize (grid1.coords t) a := by
  show i ∈ ((View.whole main_v7).slice (win1_3.rect t)).set ↔ _
  rw [View.set_slice_whole, Rect.mem_set_unit]
  exact Iff.rfl

/-- Row b, column v of the result is written back by point 25 (b / 2048) + v / 2048. -/
theorem cover3 (i : S4096x50000.Idx) :
    ∃ t : Fin cfg1.N, (cfg1.win 3).flush t = true ∧ i ∈ ((cfg1.win 3).blk t).view.set := by
  have h0 : (i 0).val < 4096 := (i 0).isLt
  have h1 : (i 1).val < 50000 := (i 1).isLt
  have hN : 25 * ((i 0).val / 2048) + (i 1).val / 2048 < grid1.N := by rw [N_1]; omega
  refine ⟨⟨25 * ((i 0).val / 2048) + (i 1).val / 2048, hN⟩, flush1_3 _, ?_⟩
  rw [mem_blk3]
  obtain ⟨-, -, -, -, -, -, e6, e7, -⟩ := idx1_facts ⟨25 * ((i 0).val / 2048) + (i 1).val / 2048, hN⟩
  obtain ⟨s0, s1, -, -⟩ := xsize1_facts ⟨25 * ((i 0).val / 2048) + (i 1).val / 2048, hN⟩
  have ht : (⟨25 * ((i 0).val / 2048) + (i 1).val / 2048, hN⟩ : Fin cfg1.N).val = 25 * ((i 0).val / 2048) + (i 1).val / 2048 := rfl
  intro a
  match a with
  | ⟨0, _⟩ =>
    show win1_3.index ⟨25 * ((i 0).val / 2048) + (i 1).val / 2048, hN⟩ (0 : Fin 2) * 2048 ≤ (i 0).val
      ∧ (i 0).val < win1_3.index ⟨25 * ((i 0).val / 2048) + (i 1).val / 2048, hN⟩ (0 : Fin 2) * 2048
          + win1_3.xsize (grid1.coords ⟨25 * ((i 0).val / 2048) + (i 1).val / 2048, hN⟩) (0 : Fin 2)
    omega
  | ⟨1, _⟩ =>
    show win1_3.index ⟨25 * ((i 0).val / 2048) + (i 1).val / 2048, hN⟩ (1 : Fin 2) * 2048 ≤ (i 1).val
      ∧ (i 1).val < win1_3.index ⟨25 * ((i 0).val / 2048) + (i 1).val / 2048, hN⟩ (1 : Fin 2) * 2048
          + win1_3.xsize (grid1.coords ⟨25 * ((i 0).val / 2048) + (i 1).val / 2048, hN⟩) (1 : Fin 2)
    omega

/-! ## The result array after the region -/

/-- The result array ends holding G1 of the three arrays as the region finds them. -/
theorem final1 (c : Dev nD) :
    ((dat1 V c).arrAt 3 cfg1.N : S4096x50000.Idx → EReal) = G1 (V c main_v3) (V c main_v5) (V c main_v6) :=
  (dat1 V c).arrAt_eq_of_cover 3 (G1 (V c main_v3) (V c main_v5) (V c main_v6)) (fun t _ => flushed3_eq V c t) cover3

end Cert.KernelIdeal.Hand

end
-- ==== Proof.KI.R0Kept.lean ====
/-
  The statistics region leaves the two arrays it reads (the padded lookup and the padded vocabulary matrix) as it found
  them: their windows are inputs, and an input's array is never written back.
-/
import proofs.«107669_j24335284699350_2_alg».proof.Proof.KI.R0Frame

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable (V : (c : Dev nD) → (b : Ref sig .tc) → Buf (Elt Ideal) ((c : Thread nD τ).loc b))

/-- An array the region only reads is never written back. -/
theorem kept0 (c : Dev nD) (w : Fin cfg0.W) (hw : w ≠ 2) :
    (dat0 (F := Ideal) V c).arrAt w cfg0.N = V c (Pipeline.arrRef spec0 w) :=
  ((dat0 (F := Ideal) V c).arrAt_in w (by
    match w, hw with
    | ⟨0, _⟩, _ => rfl
    | ⟨1, _⟩, _ => rfl
    | ⟨2, _⟩, h => exact absurd rfl h) _).trans (A_eq0 V c w)

end Cert.KernelIdeal.Hand

end
-- ==== Proof.KI.R0PayTile.lean ====
/-
  The masked score tile of the statistics body, read at one position, on the extended reals.

  At grid point (batch block, vocabulary tile vk) the body contracts the 2048 × 384 block of the lookup with the
  2048 × 384 block of the vocabulary matrix over their 384 columns, and keeps entry (r, j) only where column j of the
  tile is a word of the vocabulary, vk · 2048 + j < 50000; elsewhere it puts the named fill, which denotes ⊥. So entry
  (r, j) is ∑ e, lookup (r, e) · vocabulary (j, e) inside the vocabulary and ⊥ past its end: it reads row j of the
  vocabulary block and no other, and past the vocabulary's end it reads no row at all.

  The mask is computed on 32-bit words: vk · 2048 + j as a product and a sum of words, compared signed with 50000. With
  vk < 25 and j < 2048 the number is below 53248, far from the word's sign bit, so the word comparison is the comparison
  of the numbers. The two reset values of the carried pair are the words of -∞ and of 0.
-/
import proofs.«107669_j24335284699350_2_alg».proof.Proof.KI.Region1Pay

noncomputable section

namespace Cert.KernelIdeal.Hand

open Cert.KernelIdeal Cert.KernelIdeal.Gen
open Idealize.ShloMosaic Idealize.ShloMosaic.ValueIdx

/-- The word 0xFF800000 is -∞. -/
theorem ofBits_neg_inf : Ideal.ofBits .f32 0xFF800000#32 = (⊥ : EReal) := by
  simp [Ideal.ofBits, Ideal.ieee]

/-- The reset value of the running maximum is -∞ everywhere. -/
theorem pay3_apply (y : S2048x1.Idx) : (k0_pay3 (F := Ideal)) y = (⊥ : EReal) := by
  unfold k0_pay3
  rw [shapeCast_self]
  exact ofBits_neg_inf

/-- The reset value of the running sum is 0 everywhere. -/
theorem pay4_apply (y : S2048x1.Idx) : (k0_pay4 (F := Ideal)) y = (0 : EReal) := by
  unfold k0_pay4
  rw [shapeCast_self]
  exact Ideal.ofBits_zero_f32

/-- The mask bit of column j of tile vk: the signed word comparison of vk · 2048 + j with 50000 is the comparison of
    the numbers, because the number stays below 2 ^ 31. -/
theorem mask_bit (vk j : Nat) (hv : vk < 25) (hj : j < 2048) :
    IntOp.cmpi .slt (IntOp.addi (Scalar.muli (BitVec.ofNat 32 vk) 2048#32) (BitVec.ofNat 32 j)) 50000#32
      = if vk * 2048 + j < 50000 then 1#1 else 0#1 := by
  have hx : IntOp.addi (Scalar.muli (BitVec.ofNat 32 vk) 2048#32) (BitVec.ofNat 32 j) = BitVec.ofNat 32 (vk * 2048 + j) := by
    show BitVec.ofNat 32 vk * BitVec.ofNat 32 2048 + BitVec.ofNat 32 j = _
    rw [← BitVec.ofNat_mul, ← BitVec.ofNat_add]
  rw [hx]
  have hn : vk * 2048 + j < 53248 := by omega
  generalize vk * 2048 + j = n at hn ⊢
  have hs : (BitVec.ofNat 32 n).slt 50000#32 = decide (n < 50000) := by
    have h1 : (BitVec.ofNat 32 n).toInt = (n : Int) := by
      rw [BitVec.toInt_eq_toNat_of_lt (by rw [BitVec.toNat_ofNat]; omega), BitVec.toNat_ofNat]
      omega
    have h2 : (50000#32 : BitVec 32).toInt = 50000 := by decide
    rw [BitVec.slt, h1, h2]
    exact decide_eq_decide.mpr (by omega)
  show BitVec.ofBool ((BitVec.ofNat 32 n).slt 50000#32) = _
  rw [hs]
  by_cases h : n < 50000
  · rw [if_pos h, decide_eq_true h]; rfl
  · rw [if_neg h, decide_eq_false h]; rfl

/-- Entry (r, j) of the masked score tile at grid point i: the score of lookup row r against vocabulary row j where
    column j of the tile is a word of the vocabulary, and -∞ past the vocabulary's end. -/
def tile (i : grid0.Coords) (x0 x1 : Vec Ideal S2048x384 .bf16) (r j : Fin 2048) : EReal :=
  if (i 1).val * 2048 + j.val < 50000 then ∑ e : Fin 384, x0 (ix2 r e) * x1 (ix2 j e) else ⊥

/-- The body's masked product at position (r, j) is that entry. -/
theorem pay5_apply (i : grid0.Coords) (x0 x1 : Vec Ideal S2048x384 .bf16) (r j : Fin 2048) :
    k0_pay5 (F := Ideal) i x0 x1 (ix2 r j) = tile i x0 x1 r j := by
  unfold k0_pay5
  refine (select_apply _ _ _ (ix2 r j)).trans ?_
  rw [shapeCast_self, shapeCast_self]
  have hi : iota Kind.tc S2048x2048 32 [1] iota_S2048x2048_d1_w32 (ix2 r j) = BitVec.ofNat 32 j.val := by
    show BitVec.ofNat 32 (0 * 2048 + j.val) = _
    rw [Nat.zero_mul, Nat.zero_add]
  have hc : cmpi CmpIPredicate.slt
        (addi (broadcast S2048x2048 (Scalar.muli (BitVec.ofNat 32 (i 1).val) 2048#32))
          (iota Kind.tc S2048x2048 32 [1] iota_S2048x2048_d1_w32))
        (broadcast S2048x2048 50000#32) (ix2 r j)
      = if (i 1).val * 2048 + j.val < 50000 then 1#1 else 0#1 := by
    show IntOp.cmpi .slt (IntOp.addi (Scalar.muli (BitVec.ofNat 32 (i 1).val) 2048#32)
      (iota Kind.tc S2048x2048 32 [1] iota_S2048x2048_d1_w32 (ix2 r j))) 50000#32 = _
    rw [hi]
    exact mask_bit _ _ (i 1).isLt j.isLt
  rw [hc]
  have hn : broadcast S2048x2048 (Named.named (F := Ideal) κ "neg_big" (φ := .f32) 0xFF333332#32) (ix2 r j) = (⊥ : EReal) :=
    IdealRules.named_const.ideal_named_scalar κ "neg_big" (φ := .f32) 0xFF333332#32 ⊥ rfl
  unfold tile
  by_cases h : (i 1).val * 2048 + j.val < 50000
  · rw [if_pos h, if_pos h, select_one]; exact matmul_D1_apply x0 x1 r j
  · rw [if_neg h, if_neg h, select_zero]; exact hn

/-- Two vocabulary blocks whose tiles agree entry by entry give the same masked product. -/
theorem pay5_congr (i : grid0.Coords) (x0 x1 x1' : Vec Ideal S2048x384 .bf16)
    (h : ∀ r j : Fin 2048, tile i x0 x1 r j = tile i x0 x1' r j) :
    k0_pay5 (F := Ideal) i x0 x1 = k0_pay5 (F := Ideal) i x0 x1' := by
  funext y
  obtain ⟨r, j, rfl⟩ : ∃ (r j : Fin 2048), y = ix2 r j := ⟨y 0, y 1, eq_ix2 y⟩
  rw [pay5_apply, pay5_apply]
  exact h r j

end Cert.KernelIdeal.Hand

end
-- ==== Proof.KI.R0PayIndep.lean ====
/-
  The statistics step does not read the rows of the vocabulary block that lie past the array's end.

  The vocabulary has 50000 words and a tile 2048, so the last of the 25 tiles overhangs the array: of tile vk's block
  only the rows q with vk · 2048 + q < 50000 are fetched from the array, and a staging buffer keeps whatever it held in
  the others. Those are exactly the columns the body masks: entry (r, j) of the masked score tile reads vocabulary row j
  when vk · 2048 + j < 50000 and nothing otherwise. So the tile, hence the masked product, hence the new running maximum
  and the new running sum, are the same whatever the staging buffer held past the array's end — in particular the same as
  with zeros there.
-/
import proofs.«107669_j24335284699350_2_alg».proof.Proof.KI.R0PayTile
import proofs.«107669_j24335284699350_2_alg».proof.Proof.KI.R0Frame

set_option maxRecDepth 16384

noncomputable section

namespace Cert.KernelIdeal.Hand

open Cert.KernelIdeal Cert.KernelIdeal.Gen
open Idealize.ShloMosaic Idealize.ShloMosaic.ValueIdx Idealize.ShloMosaic.TcCoe
open Idealize.ShloMosaic.Pipeline (Dat Cfg Window)

/-- Row q of tile vk's vocabulary block lies inside the array when vk · 2048 + q < 50000: the transfer moves all 2048
    rows of a tile that ends inside the array, and the first 50000 - vk · 2048 of the one that overhangs it. -/
theorem xsize1_row (i : grid0.Coords) (q : Fin 2048) (h : (i 1).val * 2048 + q.val < 50000) : q.val < win0_1.xsize i 0 := by
  have hi : (i 1).val < 25 := (i 1).isLt
  have ht : cc0_transform_1 i 0 = (i 1).val := by
    show (BitVec.ofNat 32 (i 1).val).toNat = _
    rw [BitVec.toNat_ofNat]; exact Nat.mod_eq_of_lt (by omega)
  show q.val < (Pipeline.Clip.of (cc0_transform_1 i 0) 2048 50000).extent 2048
  rw [ht]; unfold Pipeline.Clip.of
  split
  · exact q.isLt
  · show q.val < 50000 - (i 1).val * 2048; omega

/-- So every entry of such a row is moved by the transfer (the 384 columns are never cut). -/
theorem moved_row (i : grid0.Coords) (q : Fin 2048) (e : Fin 384) (h : (i 1).val * 2048 + q.val < 50000) :
    win0_1.moved i (ix2 q e) = true := by
  refine (win0_1.moved_iff i _).mpr fun a => ?_
  match a with
  | ⟨0, _⟩ => exact xsize1_row i q h
  | ⟨1, _⟩ => exact e.isLt

/-- An entry of the masked score tile is the same whatever fills the block past the array's end: inside the vocabulary
    it reads a row that was fetched, past its end it reads nothing. -/
theorem tile_fill (i : grid0.Coords) (x0 : Vec Ideal S2048x384 .bf16) (d d' : S2048x384.Idx → Elt Ideal .bf16)
    (B : (win0_1.xblock i).Idx → Elt Ideal .bf16) (r j : Fin 2048) :
    tile i x0 (win0_1.fill i d B) r j = tile i x0 (win0_1.fill i d' B) r j := by
  unfold tile
  by_cases h : (i 1).val * 2048 + j.val < 50000
  · rw [if_pos h, if_pos h]
    refine Finset.sum_congr rfl fun e _ => ?_
    have hm := moved_row i j e h
    have e1 : win0_1.fill i d B (ix2 j e) = win0_1.fill i d' B (ix2 j e) := by
      unfold Pipeline.Window.fill; rw [dif_pos hm, dif_pos hm]
    rw [e1]
  · rw [if_neg h, if_neg h]

/-- Hence so is the masked product. -/
theorem pay5_fill (i : grid0.Coords) (x0 : Vec Ideal S2048x384 .bf16) (d d' : S2048x384.Idx → Elt Ideal .bf16)
    (B : (win0_1.xblock i).Idx → Elt Ideal .bf16) :
    k0_pay5 (F := Ideal) i x0 (win0_1.fill i d B) = k0_pay5 (F := Ideal) i x0 (win0_1.fill i d' B) :=
  pay5_congr i x0 _ _ (tile_fill i x0 d d' B)

/-- The new running maximum reads the vocabulary block only through the masked product. -/
theorem stepM_congr (i : grid0.Coords) (x0 x1 x1' : Vec Ideal S2048x384 .bf16) (m : Vec Ideal S2048x1 .f32)
    (h : k0_pay5 (F := Ideal) i x0 x1 = k0_pay5 (F := Ideal) i x0 x1') : stepM i x0 x1 m = stepM i x0 x1' m := by
  unfold stepM k0_pay6; rw [h]

/-- So does the new running sum. -/
theorem stepL_congr (i : grid0.Coords) (x0 x1 x1' : Vec Ideal S2048x384 .bf16) (m l : Vec Ideal S2048x1 .f32)
    (h : k0_pay5 (F := Ideal) i x0 x1 = k0_pay5 (F := Ideal) i x0 x1') : stepL i x0 x1 m l = stepL i x0 x1' m l := by
  unfold stepL k0_pay7 k0_pay6; rw [h]

/-- The step is the same whatever a staging buffer held past the array's end. -/
theorem indep0 (V : (c : Dev nD) → (b : Ref sig .tc) → Buf (Elt Ideal) ((c : Thread nD τ).loc b)) : Indep0 (F := Ideal) V where
  m c t d mo := by
    unfold X1
    exact stepM_congr (grid0.coords t) (iblk0 V c 0 t) _ _ mo (pay5_fill (grid0.coords t) (iblk0 V c 0 t) d zfill (iblk0 V c 1 t))
  l c t d mo lo := by
    unfold X1
    exact stepL_congr (grid0.coords t) (iblk0 V c 0 t) _ _ mo lo (pay5_fill (grid0.coords t) (iblk0 V c 0 t) d zfill (iblk0 V c 1 t))

end Cert.KernelIdeal.Hand

end
-- ==== Proof.Spec.lean ====
/-
  The result both programs compute, as one function of the three argument arrays, index by index, on the extended reals.

  Row b of the batch looks up column col x b of W1: the index x b, moved up by 50000 when it is negative (the lookup's own
  rule for negative indices), read as a signed number and clamped into 0 … 49999. Its scores against the vocabulary are
  score b v = ∑ e < 300, W1[e, col x b] · W2[v, e]; rowMax b is their supremum over the 50000 words; and the result is the
  log-softmax of the row in its two-pass form, (score b v - rowMax b) - log (∑ v', exp (score b v' - rowMax b)).
-/
import Idealize.ShloMosaic.PureOps.Ideal
import Idealize.ShloMosaic.Lib.ValueIdx

noncomputable section

namespace Cert.Spec

open Idealize.ShloMosaic Idealize.ShloMosaic.ValueIdx

/-- A lookup index after the rule for negative indices: w + 50000 when w is negative as a signed word, else w. -/
def wrapped (w : BitVec 32) : BitVec 32 := Scalar.select (IntOp.cmpi .slt w 0#32) (IntOp.addi w 50000#32) w

/-- The column of W1 that batch row b looks up. -/
def col (x : IVec ⟨1, ![4096]⟩ 32) (b : Fin 4096) : Fin 50000 :=
  ⟨min (wrapped (x (ix1 b))).toInt.toNat 49999, by omega⟩

/-- The score of batch row b against vocabulary word v. -/
def score (x : IVec ⟨1, ![4096]⟩ 32) (W1 : FVec Ideal ⟨2, ![300, 50000]⟩ .f32) (W2 : FVec Ideal ⟨2, ![50000, 300]⟩ .f32)
    (b : Fin 4096) (v : Fin 50000) : EReal :=
  ∑ e : Fin 300, W1 (ix2 e (col x b)) * W2 (ix2 v e)

/-- The largest score of batch row b. -/
def rowMax (x : IVec ⟨1, ![4096]⟩ 32) (W1 : FVec Ideal ⟨2, ![300, 50000]⟩ .f32) (W2 : FVec Ideal ⟨2, ![50000, 300]⟩ .f32)
    (b : Fin 4096) : EReal :=
  Finset.univ.sup fun v : Fin 50000 => score x W1 W2 b v

/-- The sum of the shifted exponentials of row b. -/
def rowSum (x : IVec ⟨1, ![4096]⟩ 32) (W1 : FVec Ideal ⟨2, ![300, 50000]⟩ .f32) (W2 : FVec Ideal ⟨2, ![50000, 300]⟩ .f32)
    (b : Fin 4096) : EReal :=
  ∑ v : Fin 50000, Ideal.exp (score x W1 W2 b v - rowMax x W1 W2 b)

/-- The result at row b, word v. -/
def outAt (x : IVec ⟨1, ![4096]⟩ 32) (W1 : FVec Ideal ⟨2, ![300, 50000]⟩ .f32) (W2 : FVec Ideal ⟨2, ![50000, 300]⟩ .f32)
    (b : Fin 4096) (v : Fin 50000) : EReal :=
  (score x W1 W2 b v - rowMax x W1 W2 b) - Ideal.log (rowSum x W1 W2 b)

/-- The result array. -/
def out (x : IVec ⟨1, ![4096]⟩ 32) (W1 : FVec Ideal ⟨2, ![300, 50000]⟩ .f32) (W2 : FVec Ideal ⟨2, ![50000, 300]⟩ .f32) :
    FVec Ideal ⟨2, ![4096, 50000]⟩ .f32 :=
  fun j => outAt x W1 W2 (j 0) (j 1)

theorem out_apply (x : IVec ⟨1, ![4096]⟩ 32) (W1 : FVec Ideal ⟨2, ![300, 50000]⟩ .f32) (W2 : FVec Ideal ⟨2, ![50000, 300]⟩ .f32)
    (b : Fin 4096) (v : Fin 50000) : out x W1 W2 (ix2 b v) = outAt x W1 W2 b v := rfl

/-- The row maximum by its universal property: an upper bound of the row's scores that one of them attains. -/
theorem rowMax_eq_of (x : IVec ⟨1, ![4096]⟩ 32) (W1 : FVec Ideal ⟨2, ![300, 50000]⟩ .f32) (W2 : FVec Ideal ⟨2, ![50000, 300]⟩ .f32)
    (b : Fin 4096) (M : EReal) (hub : ∀ v, score x W1 W2 b v ≤ M) (hatt : ∃ v, score x W1 W2 b v = M) :
    rowMax x W1 W2 b = M := by
  obtain ⟨v, hv⟩ := hatt
  exact le_antisymm (Finset.sup_le fun v' _ => hub v') (hv ▸ Finset.le_sup (f := fun v : Fin 50000 => score x W1 W2 b v) (Finset.mem_univ v))

end Cert.Spec

end
-- ==== Proof.KI.Host.lean ====
/-
  What the first kernel region is entered with. Before the region the program transposes W1, looks up one row of the
  transpose per batch entry, pads the looked-up rows and the rows of W2 on their last axis from 300 to 384 entries with the
  integer 0 converted to a float, and changes both arrays to bf16, which on the extended reals changes nothing. So the
  padded W2 holds W2[v, e] at column e < 300 of row v and 0 at the 84 columns after it; the three argument arrays are as
  launched; and, when every lookup index lies in [-50000, 50000), the lookup's in-range mask is 1 everywhere, the row
  it gathers for batch entry b is row col x b of the transpose (the index moved up by 50000 when negative, read signed
  and clamped into 0 … 49999), and the padded first operand holds W1[e, col x b] at column e < 300 of row b and 0 after.
-/
import proofs.«107669_j24335284699350_2_alg».proof.Proof.Gen.KernelIdeal.Regions
import proofs.«107669_j24335284699350_2_alg».proof.Proof.Spec
import Idealize.ShloMosaic.Lib.KernelVsHost
import Idealize.ShloMosaic.Lib.ValueLayout

noncomputable section

namespace Cert.KernelIdeal.Hand

open Idealize.ShloMosaic Idealize.ShloMosaic.TcCoe Idealize.ShloMosaic.ValueIdx
open Cert.KernelIdeal Cert.KernelIdeal.Gen

variable (m : (ℓ : Loc nD τ sig) → Buf (Elt Ideal) ℓ)

/-! ## The argument arrays -/

/-- No operation before the first region writes the lookup indices. -/
theorem V7_arg0 (c : Dev nD) : V7 (F := Ideal) m c main_arg0 = m ((c : Thread nD τ).loc main_arg0) :=
  (V7_of m c main_arg0 (by decide)).trans <| (V6_of m c main_arg0 (by decide)).trans <| (V5_of m c main_arg0 (by decide)).trans <|
    (V4_of m c main_arg0 (by decide)).trans <| (V3_of m c main_arg0 (by decide)).trans <| (V2_of m c main_arg0 (by decide)).trans <|
    (V1_of m c main_arg0 (by decide)).trans rfl
/-- No operation before the first region writes W1. -/
theorem V7_arg1 (c : Dev nD) : V7 (F := Ideal) m c main_arg1 = m ((c : Thread nD τ).loc main_arg1) :=
  (V7_of m c main_arg1 (by decide)).trans <| (V6_of m c main_arg1 (by decide)).trans <| (V5_of m c main_arg1 (by decide)).trans <|
    (V4_of m c main_arg1 (by decide)).trans <| (V3_of m c main_arg1 (by decide)).trans <| (V2_of m c main_arg1 (by decide)).trans <|
    (V1_of m c main_arg1 (by decide)).trans rfl
/-- No operation before the first region writes W2. -/
theorem V7_arg2 (c : Dev nD) : V7 (F := Ideal) m c main_arg2 = m ((c : Thread nD τ).loc main_arg2) :=
  (V7_of m c main_arg2 (by decide)).trans <| (V6_of m c main_arg2 (by decide)).trans <| (V5_of m c main_arg2 (by decide)).trans <|
    (V4_of m c main_arg2 (by decide)).trans <| (V3_of m c main_arg2 (by decide)).trans <| (V2_of m c main_arg2 (by decide)).trans <|
    (V1_of m c main_arg2 (by decide)).trans rfl

/-! ## The padded W2 -/

/-- The padding value: the integer 0 converted. -/
def padZero : FVec Ideal S_ .f32 := sitofp (F := Ideal) .f32 (constantI S_ 32 0#32)

/-- The integer 0 converted is the real 0. -/
theorem padZero_apply (i : S_.Idx) : padZero i = 0 := by
  show ((((0#32 : BitVec 32).toInt : ℤ) : ℝ) : EReal) = 0
  simp

/-- W2 padded on its last axis from 300 to 384 and converted to bf16. -/
def w2Pad (W2 : FVec Ideal S50000x300 .f32) : FVec Ideal S50000x384 .bf16 :=
  truncf .bf16 (pad S50000x384 ![0, 0] ![0, 84] ![0, 0] W2 padZero pads_S50000x300_S50000x384_000_0840 h_S_) bitsLt_bf16_f32

/-- The second operand of the first region is the padded W2. -/
theorem v5_eq (c : Dev nD) :
    (V7 (F := Ideal) m c main_v5 : S50000x384.Idx → EReal) = w2Pad (m ((c : Thread nD τ).loc main_arg2)) := by
  dsimp only [V7, V6, hostOps0_6, hostOps0_5]
  after_results
  rfl

/-- The padded W2 at row v, column e: W2[v, e] inside the 300 columns, 0 after them. -/
theorem w2Pad_apply (W2 : FVec Ideal S50000x300 .f32) (v : Fin 50000) (e : Fin 384) :
    w2Pad W2 (ix2 v e) = if h : e.val < 300 then W2 (ix2 v ⟨e.val, h⟩) else 0 := by
  unfold w2Pad
  rw [truncf_apply]
  split
  · rename_i h
    exact pad_apply_of_inside _ _ _ W2 padZero pads_S50000x300_S50000x384_000_0840 h_S_ (ix2 v e) (ix2 v ⟨e.val, h⟩)
      (fun a => match a with
        | ⟨0, _⟩ => by show v.val = 0 + v.val * (0 + 1); omega
        | ⟨1, _⟩ => by show e.val = 0 + e.val * (0 + 1); omega)
  · rename_i h
    rw [pad_apply_of_not_inside _ _ _ W2 padZero pads_S50000x300_S50000x384_000_0840 h_S_ (ix2 v e) (1 : Fin 2) (by
      show ¬(0 ≤ e.val ∧ (e.val - 0) % (0 + 1) = 0 ∧ (e.val - 0) / (0 + 1) < 300)
      omega)]
    exact padZero_apply _

/-- THE SECOND OPERAND AT AN INDEX: W2[v, e] at column e < 300 of row v, and 0 at the padding columns. -/
theorem V7_w2 (c : Dev nD) (v : Fin 50000) (e : Fin 384) :
    (V7 (F := Ideal) m c main_v5 : S50000x384.Idx → EReal) (ValueIdx.ix2 v e)
      = if h : e.val < 300 then (m ((c : Thread nD τ).loc main_arg2) : S50000x300.Idx → EReal) (ValueIdx.ix2 v ⟨e.val, h⟩)
        else (0 : EReal) := by
  rw [v5_eq]
  exact w2Pad_apply _ v e

/-! ## The looked-up rows of W1, padded -/

/-- The lookup indices after the rule for negative ones. -/
def wrappedVec (x : IVec S4096 32) : IVec S4096 32 :=
  select (cmpi .slt x (broadcastInDim S4096 ![] bcast_S_S4096 (constantI S_ 32 0#32)))
    (addi x (broadcastInDim S4096 ![] bcast_S_S4096 (constantI S_ 32 50000#32))) x

/-- The start indices of the row gather, one per batch row. -/
def startIdx (x : IVec S4096 32) : IVec S4096x1 32 := broadcastInDim S4096x1 ![0] bcast_S4096_S4096x1_0 (wrappedVec x)

/-- The in-range mask of the lookup. -/
def inRange (x : IVec S4096 32) : IVec S4096 1 :=
  Host.reduce IntOp.andi
    (andi (cmpi .sge (startIdx x) (broadcastInDim S4096x1 ![] bcast_S_S4096x1 (constantI S_ 32 0#32)))
      (cmpi .sle (startIdx x) (broadcastInDim S4096x1 ![0, 1] bcast_S1x1_S4096x1_0_1
        (broadcastInDim S1x1 ![1] bcast_S1_S1x1_1 (constantI S1 32 49999#32)))))
    (constantI S_ 1 1#1) reducesTo_S4096x1_S4096_d1 h_S_

/-- The lookup as one function of the indices and the transposed table: the gathered row where the index is in range,
    the filler elsewhere. -/
def takenOf (x : IVec S4096 32) (T : FVec Ideal S50000x300 .f32) : FVec Ideal S4096x300 .f32 :=
  select (broadcastInDim S4096x300 ![0] bcast_S4096_S4096x300_0 (inRange x))
    (Host.gather gather_S50000x300_S4096x1_S4096x300_1_0_n_n_0_1_1300 T (startIdx x))
    (broadcastInDim S4096x300 ![] bcast_S_S4096x300 (constant (F := Ideal) S_ .f32 0x7FC00000#32))

/-- The looked-up rows padded on their last axis from 300 to 384 and converted to bf16. -/
def embPad (x : IVec S4096 32) (W1 : FVec Ideal S300x50000 .f32) : FVec Ideal S4096x384 .bf16 :=
  truncf .bf16 (pad S4096x384 ![0, 0] ![0, 84] ![0, 0]
    (takenOf x (transpose S50000x300 [1, 0] W1 transposes_S300x50000_S50000x300_1_0)) padZero
    pads_S4096x300_S4096x384_000_0840 h_S_) bitsLt_bf16_f32

/-! ## The stretches, each over any contents it starts from -/

theorem after0_v0 (W : Valuation τ sig (Elt Ideal)) :
    (StableHlo.after (hostOps0 (F := Ideal)) W main_v0 : S50000x300.Idx → EReal)
      = transpose S50000x300 [1, 0] (W main_arg1 : S300x50000.Idx → EReal) transposes_S300x50000_S50000x300_1_0 := by
  dsimp only [hostOps0]
  after_results

theorem after1_v1 (W : Valuation τ sig (Elt Ideal)) :
    (StableHlo.after (hostOps0_1 (F := Ideal)) W main_v1 : S4096x300.Idx → EReal) = takenOf (W main_arg0) (W main_v0) := by
  dsimp only [hostOps0_1]
  after_results_simp
  rfl

theorem after2_c (W : Valuation τ sig (Elt Ideal)) :
    (StableHlo.after (hostOps0_2 (F := Ideal)) W main_c : S_.Idx → BitVec 32) = constantI S_ 32 0#32 := by
  dsimp only [hostOps0_2]
  after_results

theorem after3_v2 (W : Valuation τ sig (Elt Ideal)) :
    (StableHlo.after (hostOps0_3 (F := Ideal)) W main_v2 : S4096x384.Idx → EReal)
      = pad S4096x384 ![0, 0] ![0, 84] ![0, 0] (W main_v1 : S4096x300.Idx → EReal)
          (sitofp (F := Ideal) .f32 (W main_c : S_.Idx → BitVec 32)) pads_S4096x300_S4096x384_000_0840 h_S_ := by
  dsimp only [hostOps0_3]
  after_results
  rfl

theorem after4_v3 (W : Valuation τ sig (Elt Ideal)) :
    (StableHlo.after (hostOps0_4 (F := Ideal)) W main_v3 : S4096x384.Idx → EReal)
      = (truncf (F := Ideal) .bf16 (W main_v2 : FVec Ideal S4096x384 .f32) bitsLt_bf16_f32 : FVec Ideal S4096x384 .bf16) := by
  dsimp only [hostOps0_4]
  after_results

/-! ## The first operand of the first region -/

theorem v0_eq (c : Dev nD) :
    (V1 (F := Ideal) m c main_v0 : S50000x300.Idx → EReal)
      = transpose S50000x300 [1, 0] (m ((c : Thread nD τ).loc main_arg1) : S300x50000.Idx → EReal) transposes_S300x50000_S50000x300_1_0 :=
  after0_v0 (V0 m c)

theorem v1_eq (c : Dev nD) :
    (V2 (F := Ideal) m c main_v1 : S4096x300.Idx → EReal)
      = takenOf (m ((c : Thread nD τ).loc main_arg0))
          (transpose S50000x300 [1, 0] (m ((c : Thread nD τ).loc main_arg1) : S300x50000.Idx → EReal) transposes_S300x50000_S50000x300_1_0) :=
  (after1_v1 (V1 m c)).trans (congrArg₂ takenOf ((V1_of m c main_arg0 (by decide)).trans rfl) (v0_eq m c))

theorem v2_eq (c : Dev nD) :
    (V4 (F := Ideal) m c main_v2 : S4096x384.Idx → EReal)
      = pad S4096x384 ![0, 0] ![0, 84] ![0, 0]
          (takenOf (m ((c : Thread nD τ).loc main_arg0))
            (transpose S50000x300 [1, 0] (m ((c : Thread nD τ).loc main_arg1) : S300x50000.Idx → EReal) transposes_S300x50000_S50000x300_1_0))
          padZero pads_S4096x300_S4096x384_000_0840 h_S_ :=
  (after3_v2 (V3 m c)).trans (congrArg₂
    (fun (a : S4096x300.Idx → EReal) (z : S_.Idx → BitVec 32) =>
      pad S4096x384 ![0, 0] ![0, 84] ![0, 0] a (sitofp (F := Ideal) .f32 z) pads_S4096x300_S4096x384_000_0840 h_S_)
    ((V3_of m c main_v1 (by decide)).trans (v1_eq m c)) (after2_c (V2 m c)))

theorem v3_eq (c : Dev nD) :
    (V7 (F := Ideal) m c main_v3 : S4096x384.Idx → EReal)
      = embPad (m ((c : Thread nD τ).loc main_arg0)) (m ((c : Thread nD τ).loc main_arg1)) :=
  ((V7_of m c main_v3 (by decide)).trans (V6_of m c main_v3 (by decide))).trans
    ((after4_v3 (V4 m c)).trans (congrArg (fun a : FVec Ideal S4096x384 .f32 => (truncf (F := Ideal) .bf16 a bitsLt_bf16_f32 : FVec Ideal S4096x384 .bf16)) (v2_eq m c)))

/-! ## Words -/

theorem zero_word : (0#32 : BitVec 32).toInt = 0 := by decide
theorem hi_word : (50000#32 : BitVec 32).toInt = 50000 := by decide
theorem top_word : (49999#32 : BitVec 32).toInt = 49999 := by decide

/-- An index in [-50000, 50000), after the rule for negative indices, is in [0, 49999]. -/
theorem wrapped_range (w : BitVec 32) (h : -50000 ≤ w.toInt ∧ w.toInt < 50000) :
    0 ≤ (Cert.Spec.wrapped w).toInt ∧ (Cert.Spec.wrapped w).toInt ≤ 49999 := by
  unfold Cert.Spec.wrapped
  by_cases hneg : w.toInt < 0
  · have hc : IntOp.cmpi .slt w 0#32 = 1#1 := IntOp.cmpi_slt.2 (by rw [zero_word]; exact hneg)
    rw [hc, select_one]
    have e : (IntOp.addi w 50000#32).toInt = w.toInt + 50000 := by
      unfold IntOp.addi
      rw [BitVec.toInt_add, hi_word]
      exact Int.bmod_eq_of_le (by omega) (by omega)
    omega
  · have hc : ¬IntOp.cmpi .slt w 0#32 = 1#1 := fun hc => hneg (by have := IntOp.cmpi_slt.1 hc; rwa [zero_word] at this)
    rw [eq_zero_of_ne_one hc, select_zero]
    omega

/-- A fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi 1#1 1#1 = 1#1 from by decide]
    exact foldl_andi_one f l fun n hn => h n (List.mem_cons_of_mem _ hn)

/-- A reduction by `and` from 1 of an array of ones is 1. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1) (hx : ∀ i, x i = 1#1) :
    Host.reduce IntOp.andi x init h hu j = 1#1 := by
  rw [Host.reduce_eq_foldl, hinit]
  exact foldl_andi_one x _ fun i _ => hx i

/-! ## The lookup at an index -/

theorem wrappedVec_apply (x : IVec S4096 32) (b : Fin 4096) : wrappedVec x (ix1 b) = Cert.Spec.wrapped (x (ix1 b)) := rfl

/-- The start index of batch row b is its lookup index after the rule for negative indices. -/
theorem startIdx_apply (x : IVec S4096 32) (b : Fin 4096) (k : Fin 1) :
    startIdx x (ix2 b k) = Cert.Spec.wrapped (x (ix1 b)) := by
  unfold startIdx
  rw [broadcastInDim_apply ![0] bcast_S4096_S4096x1_0 (wrappedVec x) (ix2 b k) (ix1 b)
    (fun a => match a with | ⟨0, _⟩ => by rw [if_neg (by show ¬((4096 : ℕ) = 1); omega)]; rfl)]
  exact wrappedVec_apply x b

/-- With every lookup index in [-50000, 50000) the in-range mask is 1 everywhere. -/
theorem inRange_eq_one (x : IVec S4096 32)
    (hx : ∀ b : Fin 4096, -50000 ≤ (x (ix1 b)).toInt ∧ (x (ix1 b)).toInt < 50000) (b : Fin 4096) :
    inRange x (ix1 b) = 1#1 := by
  unfold inRange
  refine reduce_andi_one _ _ _ _ _ rfl (fun i => ?_)
  obtain ⟨p, q, rfl⟩ : ∃ (p : Fin 4096) (q : Fin 1), i = ix2 p q := ⟨i 0, i 1, eq_ix2 i⟩
  have hr := wrapped_range _ (hx p)
  show IntOp.andi (IntOp.cmpi .sge (startIdx x (ix2 p q)) 0#32) (IntOp.cmpi .sle (startIdx x (ix2 p q)) 49999#32) = 1#1
  rw [startIdx_apply]
  exact IntOp.andi_eq_one.2 ⟨IntOp.cmpi_sge.2 (by rw [zero_word]; exact hr.1), IntOp.cmpi_sle.2 (by rw [top_word]; exact hr.2)⟩

/-- The row gather at (b, e): the table at the row the start index of b names, read signed and clamped into
    [0, 49999], and column e. -/
theorem gather_row_apply {α : Type} (T : S50000x300.Idx → α) (idx : IVec S4096x1 32) (b : Fin 4096) (e : Fin 300) :
    Host.gather gather_S50000x300_S4096x1_S4096x300_1_0_n_n_0_1_1300 T idx (ix2 b e)
      = T (ix2 (⟨min (idx (ix2 b (0 : Fin 1))).toInt.toNat 49999, by omega⟩ : Fin 50000) e) := by
  unfold Host.gather
  refine congrArg T (funext fun a => ?_)
  match a with
  | ⟨0, _⟩ =>
    refine Fin.ext ?_
    show gather_S50000x300_S4096x1_S4096x300_1_0_n_n_0_1_1300.start (ix2 b e) idx 0
      + gather_S50000x300_S4096x1_S4096x300_1_0_n_n_0_1_1300.batchCoord (ix2 b e) 0
      + gather_S50000x300_S4096x1_S4096x300_1_0_n_n_0_1_1300.offCoord (ix2 b e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50000x300_S4096x1_S4096x300_1_0_n_n_0_1_1300.startIndexMap from List.mem_singleton.mpr rfl)]
    have hsi : gather_S50000x300_S4096x1_S4096x300_1_0_n_n_0_1_1300.siIdx (ix2 b e)
        ⟨List.idxOf (0 : Fin 2) gather_S50000x300_S4096x1_S4096x300_1_0_n_n_0_1_1300.startIndexMap,
          List.idxOf_lt_length_iff.2 (List.mem_singleton.mpr rfl)⟩ = ix2 b (0 : Fin 1) := by
      funext k; refine Fin.ext ?_
      match k with
      | ⟨0, _⟩ => rfl
      | ⟨1, _⟩ => rfl
    rw [hsi]
    rfl
  | ⟨1, _⟩ =>
    refine Fin.ext ?_
    show gather_S50000x300_S4096x1_S4096x300_1_0_n_n_0_1_1300.start (ix2 b e) idx 1
      + gather_S50000x300_S4096x1_S4096x300_1_0_n_n_0_1_1300.batchCoord (ix2 b e) 1
      + gather_S50000x300_S4096x1_S4096x300_1_0_n_n_0_1_1300.offCoord (ix2 b e) 1 = e.val
    rw [GatherDims.batchCoord_eq_zero _ _ _ List.not_mem_nil]
    have hs : gather_S50000x300_S4096x1_S4096x300_1_0_n_n_0_1_1300.start (ix2 b e) idx 1 = 0 := by
      unfold GatherDims.start
      rw [dif_neg (show (1 : Fin 2) ∉ gather_S50000x300_S4096x1_S4096x300_1_0_n_n_0_1_1300.startIndexMap from by decide)]
    have ho : gather_S50000x300_S4096x1_S4096x300_1_0_n_n_0_1_1300.offCoord (ix2 b e) 1 = e.val := by
      unfold GatherDims.offCoord
      rw [dif_pos ((GatherDims.mem_sKept _ _).mpr ⟨by decide, List.not_mem_nil⟩)]
      rfl
    rw [hs, ho]
    omega

/-- The lookup at (b, e), every index in range: the table at row col x b, column e. -/
theorem takenOf_apply (x : IVec S4096 32) (T : FVec Ideal S50000x300 .f32)
    (hx : ∀ b : Fin 4096, -50000 ≤ (x (ix1 b)).toInt ∧ (x (ix1 b)).toInt < 50000) (b : Fin 4096) (e : Fin 300) :
    takenOf x T (ix2 b e) = T (ix2 (Cert.Spec.col x b) e) := by
  unfold takenOf
  rw [select_apply]
  have hm : broadcastInDim S4096x300 ![0] bcast_S4096_S4096x300_0 (inRange x) (ix2 b e) = 1#1 := by
    rw [broadcastInDim_apply ![0] bcast_S4096_S4096x300_0 (inRange x) (ix2 b e) (ix1 b)
      (fun a => match a with | ⟨0, _⟩ => by rw [if_neg (by show ¬((4096 : ℕ) = 1); omega)]; rfl)]
    exact inRange_eq_one x hx b
  rw [hm, select_one, gather_row_apply]
  refine congrArg T (congrArg (fun r : Fin 50000 => ix2 r e) (Fin.ext ?_))
  show min (startIdx x (ix2 b (0 : Fin 1))).toInt.toNat 49999 = min (Cert.Spec.wrapped (x (ix1 b))).toInt.toNat 49999
  rw [startIdx_apply]

/-- The first operand at (b, e): W1[e, col x b] inside the 300 columns, 0 after them. -/
theorem embPad_apply (x : IVec S4096 32) (W1 : FVec Ideal S300x50000 .f32)
    (hx : ∀ b : Fin 4096, -50000 ≤ (x (ix1 b)).toInt ∧ (x (ix1 b)).toInt < 50000) (b : Fin 4096) (e : Fin 384) :
    embPad x W1 (ix2 b e) = if h : e.val < 300 then W1 (ix2 ⟨e.val, h⟩ (Cert.Spec.col x b)) else 0 := by
  unfold embPad
  rw [truncf_apply]
  split
  · rename_i h
    rw [pad_apply_of_inside _ _ _ _ padZero pads_S4096x300_S4096x384_000_0840 h_S_ (ix2 b e) (ix2 b ⟨e.val, h⟩)
      (fun a => match a with
        | ⟨0, _⟩ => by show b.val = 0 + b.val * (0 + 1); omega
        | ⟨1, _⟩ => by show e.val = 0 + e.val * (0 + 1); omega)]
    rw [takenOf_apply x _ hx b ⟨e.val, h⟩]
    exact transpose_ix2_apply W1 transposes_S300x50000_S50000x300_1_0 (Cert.Spec.col x b) ⟨e.val, h⟩
  · rename_i h
    rw [pad_apply_of_not_inside _ _ _ _ padZero pads_S4096x300_S4096x384_000_0840 h_S_ (ix2 b e) (1 : Fin 2) (by
      show ¬(0 ≤ e.val ∧ (e.val - 0) % (0 + 1) = 0 ∧ (e.val - 0) / (0 + 1) < 300)
      omega)]
    exact padZero_apply _

/-- THE FIRST OPERAND AT AN INDEX, every lookup index in [-50000, 50000): W1[e, col x b] at column e < 300 of row b, and 0
    at the padding columns. -/
theorem V7_emb (c : Dev nD)
    (hx : ∀ b : Fin 4096, -50000 ≤ ((m ((c : Thread nD τ).loc main_arg0) : S4096.Idx → BitVec 32) (ValueIdx.ix1 b)).toInt
      ∧ ((m ((c : Thread nD τ).loc main_arg0) : S4096.Idx → BitVec 32) (ValueIdx.ix1 b)).toInt < 50000)
    (b : Fin 4096) (e : Fin 384) :
    (V7 (F := Ideal) m c main_v3 : S4096x384.Idx → EReal) (ValueIdx.ix2 b e)
      = if h : e.val < 300 then
          (m ((c : Thread nD τ).loc main_arg1) : S300x50000.Idx → EReal)
            (ValueIdx.ix2 ⟨e.val, h⟩ (Cert.Spec.col (m ((c : Thread nD τ).loc main_arg0)) b))
        else (0 : EReal) := by
  rw [v3_eq]
  exact embPad_apply _ _ hx b e

end Cert.KernelIdeal.Hand

end
-- ==== Proof.KI.Ends.lean ====
/-
  What the idealized kernel program's run leaves, read at the buffers that matter: the three arguments as launched (no host
  operation and no region writes one), the lookup and the vocabulary matrix reaching the output region as the statistics
  region found them, and the result array as the output region's function of the arrays it was entered with.
-/
import proofs.«107669_j24335284699350_2_alg».proof.Proof.KI.Run
import proofs.«107669_j24335284699350_2_alg».proof.Proof.KI.Region1Value
import proofs.«107669_j24335284699350_2_alg».proof.Proof.KI.R0Kept
import proofs.«107669_j24335284699350_2_alg».proof.Proof.KI.R0PayIndep
import proofs.«107669_j24335284699350_2_alg».proof.Proof.KI.Host
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem W9_arg0 (c : Dev nD) : W9 m c (Proc.devRef .tc main_arg0) = m ((c : Thread nD τ).loc main_arg0) :=
  (W9_of_ne m c main_arg0 (by decide)).trans ((W8_of_ne m c main_arg0 (by decide)).trans (V7_arg0 m c))
theorem W9_arg1 (c : Dev nD) : W9 m c (Proc.devRef .tc main_arg1) = m ((c : Thread nD τ).loc main_arg1) :=
  (W9_of_ne m c main_arg1 (by decide)).trans ((W8_of_ne m c main_arg1 (by decide)).trans (V7_arg1 m c))
theorem W9_arg2 (c : Dev nD) : W9 m c (Proc.devRef .tc main_arg2) = m ((c : Thread nD τ).loc main_arg2) :=
  (W9_of_ne m c main_arg2 (by decide)).trans ((W8_of_ne m c main_arg2 (by decide)).trans (V7_arg2 m c))

theorem E8_v3 (c : Dev nD) : E8 m c main_v3 = E7 m c main_v3 :=
  (W8_arr m c 0).trans (kept0 (E7 m) c 0 (by decide))
theorem E8_v5 (c : Dev nD) : E8 m c main_v5 = E7 m c main_v5 :=
  (W8_arr m c 1).trans (kept0 (E7 m) c 1 (by decide))
theorem E9_v7 (c : Dev nD) : (E9 m c main_v7 : S4096x50000.Idx → EReal) = G1 (E8 m c main_v3) (E8 m c main_v5) (E8 m c main_v6) :=
  (W9_arr m c 3).trans (final1 (E8 m) c)

/-- Every weakly fair execution of the idealized kernel program terminates, nothing faulting, with every unscoped buffer at
    the contents after the output region. -/
theorem run_ends : θ_run (defs (F := Ideal)) (onTc (τ := τ) (main (F := Ideal))) ⟨m, fun _ => 0, ρ⟩ (fun r => ∀ c : Dev nD,
      ∀ b ∈ Pipeline.ucRefs τ sig, r.2.mem (((c : Thread nD τ)).1, b) = W9 m c b) :=
  run_all m ρ (indep0 (E7 m))

/-- In particular it leaves the three arguments as launched. -/
theorem frame_ideal : θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W9_arg0 m c),
      (h c _ (mem_uc main_arg1 (by decide))).trans (W9_arg1 m c),
      (h c _ (mem_uc main_arg2 (by decide))).trans (W9_arg2 m c)⟩)
    (run_ends m ρ)

end Cert.KernelIdeal.Hand

end
-- ==== Proof.KI.R0ValueOf.lean ====
/-
  What the statistics region leaves in the log-sum-exp column, as one function of the two arrays it reads.

  Point t = 25 g + k of the grid is (batch block g, vocabulary tile k). Row r of the block is row b = 2048 g + r of the
  batch. The body's tile at that point, row r, position j is the contraction of row b of the lookup with row
  2048 k + j of the vocabulary matrix when that row exists and ⊥ past the matrix's end: tileScore E Wp b k j. So the pair
  the two carried buffers hold after point t, at row r, is the streaming pair of row b after its tiles 0 … k: at k = 0 it
  restarts from (⊥, 0), and for k > 0 the point before is tile k - 1 of the same batch block. At k = 24 the body writes
  maximum + log sum of the pair after all 25 tiles into the output block, and only those points write the block back:
  point 25 g + 24 writes rows 2048 g … 2048 g + 2047 of G0. The two blocks cover the column.
-/
import proofs.«107669_j24335284699350_2_alg».proof.Proof.KI.R0Kept
import proofs.«107669_j24335284699350_2_alg».proof.Proof.KI.Tiles
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Lib.OnlineLogSumExp (run)

variable (V : (c : Dev nD) → (b : Ref sig .tc) → Buf (Elt Ideal) ((c : Thread nD τ).loc b))

/-! ## The body's arithmetic, entry by entry -/

/-- What the value of the region is read from: the body's stored values at one entry, over the tile's entries. -/
structure PayFacts0 (tile : grid0.Coords → Vec Ideal S2048x384 .bf16 → Vec Ideal S2048x384 .bf16 → Fin 2048 → Fin 2048 → EReal) : Prop where
  htile : ∀ (i : grid0.Coords) (x0 x1 : Vec Ideal S2048x384 .bf16) (r j : Fin 2048),
    tile i x0 x1 r j = if (i 1).val * 2048 + j.val < 50000 then ∑ e : Fin 384, x0 (ix2 r e) * x1 (ix2 j e) else ⊥
  hpay3 : ∀ y, (k0_pay3 (F := Ideal)) y = ⊥
  hpay4 : ∀ y, (k0_pay4 (F := Ideal)) y = 0
  hstepM : ∀ (i : grid0.Coords) (x0 x1 : Vec Ideal S2048x384 .bf16) (m : Vec Ideal S2048x1 .f32) (r : Fin 2048),
    stepM i x0 x1 m (ix2 r (0 : Fin 1)) = max (m (ix2 r (0 : Fin 1))) (Finset.univ.sup fun j : Fin 2048 => tile i x0 x1 r j)
  hstepL : ∀ (i : grid0.Coords) (x0 x1 : Vec Ideal S2048x384 .bf16) (m l : Vec Ideal S2048x1 .f32) (r : Fin 2048),
    stepL i x0 x1 m l (ix2 r (0 : Fin 1))
      = Ideal.exp (m (ix2 r (0 : Fin 1)) - stepM i x0 x1 m (ix2 r (0 : Fin 1))) * l (ix2 r (0 : Fin 1))
        + ∑ j : Fin 2048, Ideal.exp (tile i x0 x1 r j - stepM i x0 x1 m (ix2 r (0 : Fin 1)))
  hlse : ∀ (m l : Vec Ideal S2048x1 .f32) y, lseOut m l y = m y + Ideal.log (l y)

/-! ## The index maps and the cuts, over the grid -/

theorem idx0_facts : ∀ t : Fin cfg0.N,
    win0_0.index t (0 : Fin 2) = t.val / 25 ∧ win0_0.index t (1 : Fin 2) = 0
    ∧ win0_1.index t (0 : Fin 2) = t.val % 25 ∧ win0_1.index t (1 : Fin 2) = 0
    ∧ win0_2.index t (0 : Fin 2) = t.val / 25 ∧ win0_2.index t (1 : Fin 2) = 0
    ∧ ((grid0.coords t) 1).val = t.val % 25 ∧ t.val < 50 :=
  (by decide +kernel : ∀ t : Fin grid0.N, _)

/-- The vocabulary's block is cut on its rows to 848 at tile 24 and whole before it, and whole on its columns. -/
theorem xsize0_facts : ∀ t : Fin cfg0.N,
    ((t.val % 25 = 24 ∧ win0_1.xsize (grid0.coords t) (0 : Fin 2) = 848)
        ∨ (t.val % 25 < 24 ∧ win0_1.xsize (grid0.coords t) (0 : Fin 2) = 2048))
    ∧ win0_1.xsize (grid0.coords t) (1 : Fin 2) = 384 :=
  (by decide +kernel : ∀ t : Fin grid0.N, _)

/-! ## The blocks, entry by entry -/

/-- At a position its transfer moves, a filled block holds the moved part's entry there. -/
theorem fill_apply_of_lt {G : Pipeline.Grid} (w : Pipeline.Window sig G) {α : Type} (i : G.Coords) (d : w.block.Idx → α)
    (g : (w.xblock i).Idx → α) (j : w.block.Idx) (h : ∀ a, (j a).val < w.xsize i a) :
    w.fill i d g j = g fun a => ⟨(j a).val, h a⟩ := by
  unfold Pipeline.Window.fill; rw [dif_pos ((w.moved_iff i j).mpr h)]

/-- Row r of the lookup's block at point t is row 2048 (t / 25) + r of the lookup. -/
theorem iblk0_0_apply (c : Dev nD) (t : Fin cfg0.N) (r : Fin 2048) (e : Fin 384) (hb : t.val / 25 * 2048 + r.val < 4096) :
    (iblk0 V c 0 t : Vec Ideal S2048x384 .bf16) (ix2 r e) = V c main_v3 (ix2 (⟨t.val / 25 * 2048 + r.val, hb⟩ : Fin 4096) e) := by
  obtain ⟨e0, e1, -⟩ := idx0_facts t
  show V c main_v3 (((cfg0.win 0).blk t).view.emb (ix2 r e)) = _
  refine congrArg (V c main_v3) (funext fun a => Fin.ext ?_)
  match a with
  | ⟨0, _⟩ => show win0_0.index t (0 : Fin 2) * 2048 + 1 * r.val = t.val / 25 * 2048 + r.val; omega
  | ⟨1, _⟩ => show win0_0.index t (1 : Fin 2) * 384 + 1 * e.val = e.val; omega

/-- Row j of the vocabulary's block at point t, when inside the matrix, is row 2048 (t % 25) + j of the matrix. -/
theorem X1_apply (c : Dev nD) (t : Fin cfg0.N) (j : Fin 2048) (e : Fin 384) (hv : t.val % 25 * 2048 + j.val < 50000) :
    X1 V c t zfill (ix2 j e) = V c main_v5 (ix2 (⟨t.val % 25 * 2048 + j.val, hv⟩ : Fin 50000) e) := by
  obtain ⟨-, -, e2, e3, -⟩ := idx0_facts t
  obtain ⟨s0, s1⟩ := xsize0_facts t
  have hm : ∀ a, ((ix2 j e : S2048x384.Idx) a).val < win0_1.xsize (grid0.coords t) a := fun a => by
    match a with
    | ⟨0, _⟩ => show j.val < win0_1.xsize (grid0.coords t) (0 : Fin 2); omega
    | ⟨1, _⟩ => show e.val < win0_1.xsize (grid0.coords t) (1 : Fin 2); have := e.isLt; omega
  unfold X1
  rw [fill_apply_of_lt win0_1 (grid0.coords t) _ _ _ hm]
  show V c main_v5 (((cfg0.win 1).blk t).view.emb _) = _
  refine congrArg (V c main_v5) (funext fun a => Fin.ext ?_)
  match a with
  | ⟨0, _⟩ => show win0_1.index t (0 : Fin 2) * 2048 + 1 * j.val = t.val % 25 * 2048 + j.val; omega
  | ⟨1, _⟩ => show win0_1.index t (1 : Fin 2) * 384 + 1 * e.val = e.val; omega

variable {tile : grid0.Coords → Vec Ideal S2048x384 .bf16 → Vec Ideal S2048x384 .bf16 → Fin 2048 → Fin 2048 → EReal}

/-- The body's tile at point t, row r is tile t % 25 of row 2048 (t / 25) + r. -/
theorem tile_eq (h : PayFacts0 tile) (c : Dev nD) (t : Fin cfg0.N) (r j : Fin 2048) (b : Fin 4096)
    (hb : b.val = t.val / 25 * 2048 + r.val) :
    tile (grid0.coords t) (iblk0 V c 0 t) (X1 V c t zfill) r j = tileScore (V c main_v3) (V c main_v5) b (t.val % 25) j := by
  obtain ⟨-, -, -, -, -, -, e6, -⟩ := idx0_facts t
  have hb' : t.val / 25 * 2048 + r.val < 4096 := hb ▸ b.isLt
  have eb : b = ⟨t.val / 25 * 2048 + r.val, hb'⟩ := Fin.ext hb
  rw [h.htile]
  unfold tileScore
  by_cases hv : t.val % 25 * 2048 + j.val < 50000
  · rw [if_pos (by rw [e6]; exact hv), dif_pos hv]
    unfold logit
    refine Finset.sum_congr rfl fun e _ => ?_
    rw [iblk0_0_apply V c t r e hb', X1_apply V c t j e hv, eb]
  · rw [if_neg (by rw [e6]; exact hv), dif_neg hv]

/-! ## The carried pair, by induction on the point -/

/-- One step of the body at point t, row r, from a pair that is the streaming pair of the row after k = t % 25 tiles. -/
theorem step_eq (h : PayFacts0 tile) (c : Dev nD) (t : Fin cfg0.N) (r : Fin 2048) (b : Fin 4096)
    (hb : b.val = t.val / 25 * 2048 + r.val) (m l : Vec Ideal S2048x1 .f32)
    (hm : m (ix2 r (0 : Fin 1)) = (run (tileScore (V c main_v3) (V c main_v5) b) (tileMax (V c main_v3) (V c main_v5) b) (t.val % 25)).1)
    (hl : l (ix2 r (0 : Fin 1)) = (run (tileScore (V c main_v3) (V c main_v5) b) (tileMax (V c main_v3) (V c main_v5) b) (t.val % 25)).2) :
    stepM (grid0.coords t) (iblk0 V c 0 t) (X1 V c t zfill) m (ix2 r (0 : Fin 1))
        = (run (tileScore (V c main_v3) (V c main_v5) b) (tileMax (V c main_v3) (V c main_v5) b) (t.val % 25 + 1)).1
      ∧ stepL (grid0.coords t) (iblk0 V c 0 t) (X1 V c t zfill) m l (ix2 r (0 : Fin 1))
        = (run (tileScore (V c main_v3) (V c main_v5) b) (tileMax (V c main_v3) (V c main_v5) b) (t.val % 25 + 1)).2 := by
  have ht : (fun j : Fin 2048 => tile (grid0.coords t) (iblk0 V c 0 t) (X1 V c t zfill) r j)
      = tileScore (V c main_v3) (V c main_v5) b (t.val % 25) := funext fun j => tile_eq V h c t r j b hb
  have hM : stepM (grid0.coords t) (iblk0 V c 0 t) (X1 V c t zfill) m (ix2 r (0 : Fin 1))
      = (run (tileScore (V c main_v3) (V c main_v5) b) (tileMax (V c main_v3) (V c main_v5) b) (t.val % 25 + 1)).1 := by
    rw [h.hstepM, ht, hm]; rfl
  refine ⟨hM, ?_⟩
  rw [h.hstepL, hM, hm, hl]
  simp only [tile_eq V h c t r _ b hb]
  rfl

/-- After point n the carried pair, at row r, is the streaming pair of row 2048 (n / 25) + r after its tiles 0 … n % 25. -/
theorem scAt_eq (h : PayFacts0 tile) (c : Dev nD) : ∀ (n : ℕ) (hn : n < cfg0.N) (r : Fin 2048) (b : Fin 4096) (k : ℕ),
    b.val = n / 25 * 2048 + r.val → k = n % 25 + 1 →
    (scAt (F := Ideal) V c n hn).1 (ix2 r (0 : Fin 1)) = (run (tileScore (V c main_v3) (V c main_v5) b) (tileMax (V c main_v3) (V c main_v5) b) k).1
    ∧ (scAt (F := Ideal) V c n hn).2 (ix2 r (0 : Fin 1)) = (run (tileScore (V c main_v3) (V c main_v5) b) (tileMax (V c main_v3) (V c main_v5) b) k).2 := by
  intro n
  induction n with
  | zero =>
    intro hn r b k hb hk
    subst hk
    rw [scAt_reset V c ⟨0, hn⟩ rfl]
    exact step_eq V h c ⟨0, hn⟩ r b hb _ _ (h.hpay3 _) (h.hpay4 _)
  | succ n ih =>
    intro hn r b k hb hk
    subst hk
    by_cases h0 : (n + 1) % 25 = 0
    · rw [scAt_reset V c ⟨n + 1, hn⟩ h0]
      have hs := step_eq V h c ⟨n + 1, hn⟩ r b hb (k0_pay3 (F := Ideal)) (k0_pay4 (F := Ideal))
        (by rw [h.hpay3]; show _ = (run _ _ ((n + 1) % 25)).1; rw [h0]; rfl)
        (by rw [h.hpay4]; show _ = (run _ _ ((n + 1) % 25)).2; rw [h0]; rfl)
      exact hs
    · have e : scAt (F := Ideal) V c (n + 1) hn
          = (stepM (grid0.coords ⟨n + 1, hn⟩) (iblk0 V c 0 ⟨n + 1, hn⟩) (X1 V c ⟨n + 1, hn⟩ zfill) (scAt (F := Ideal) V c n (Nat.lt_of_succ_lt hn)).1,
            stepL (grid0.coords ⟨n + 1, hn⟩) (iblk0 V c 0 ⟨n + 1, hn⟩) (X1 V c ⟨n + 1, hn⟩ zfill) (scAt (F := Ideal) V c n (Nat.lt_of_succ_lt hn)).1 (scAt (F := Ideal) V c n (Nat.lt_of_succ_lt hn)).2) :=
        scAt_step V c ⟨n + 1, hn⟩ h0
      rw [e]
      obtain ⟨i1, i2⟩ := ih (Nat.lt_of_succ_lt hn) r b ((n + 1) % 25) (by rw [hb]; show (n + 1) / 25 * 2048 + r.val = n / 25 * 2048 + r.val; omega) (by omega)
      exact step_eq V h c ⟨n + 1, hn⟩ r b hb _ _ i1 i2

/-! ## What the points that write back write -/

/-- What a point of tile 24 writes back is its block of G0 of the two arrays as the region finds them. -/
theorem flushed2_eq (h : PayFacts0 tile) (c : Dev nD) (t : Fin cfg0.N) (hf : t.val % 25 = 24) :
    (dat0 (F := Ideal) V c).flushed 2 t
      = ((cfg0.win 2).blk t).view.read (Elt Ideal) (G0 (V c main_v3) (V c main_v5)) := by
  show (cfg0.win 2).cut (grid0.coords t) ((dat0 (F := Ideal) V c).after 2 t) = _
  rw [after0_2]
  obtain ⟨-, -, -, -, e4, e5, -, e7⟩ := idx0_facts t
  funext j
  have hr : (j 0).val < 2048 := (j 0).isLt
  have hz : (j 1).val < 1 := (j 1).isLt
  have hb : t.val / 25 * 2048 + (j 0).val < 4096 := by omega
  have hj : win0_2.xinj (grid0.coords t) j = ix2 (⟨(j 0).val, hr⟩ : Fin 2048) (0 : Fin 1) :=
    funext fun a => by
      match a with
      | ⟨0, _⟩ => rfl
      | ⟨1, _⟩ => exact Fin.ext (by show (j 1).val = 0; omega)
  have hemb : ((cfg0.win 2).blk t).view.emb j = ix2 (⟨t.val / 25 * 2048 + (j 0).val, hb⟩ : Fin 4096) (0 : Fin 1) :=
    funext fun a => Fin.ext (by
      match a with
      | ⟨0, _⟩ => show win0_2.index t (0 : Fin 2) * 2048 + 1 * (j 0).val = t.val / 25 * 2048 + (j 0).val; omega
      | ⟨1, _⟩ => show win0_2.index t (1 : Fin 2) * 1 + 1 * (j 1).val = 0; omega)
  show lseOut (scAt (F := Ideal) V c t.val t.isLt).1 (scAt (F := Ideal) V c t.val t.isLt).2 (win0_2.xinj (grid0.coords t) j)
    = G0 (V c main_v3) (V c main_v5) (((cfg0.win 2).blk t).view.emb j)
  rw [hj, hemb, h.hlse]
  obtain ⟨h1, h2⟩ := scAt_eq V h c t.val t.isLt ⟨(j 0).val, hr⟩ ⟨t.val / 25 * 2048 + (j 0).val, hb⟩ 25 rfl (by omega)
  rw [h1, h2]
  rfl

/-! ## The two blocks cover the column -/

theorem mem_blk2 (t : Fin cfg0.N) (i : S4096x1.Idx) :
    i ∈ ((cfg0.win 2).blk t).view.set ↔ ∀ a : Fin 2, win0_2.index t a * S2048x1.size a ≤ (i a).val
      ∧ (i a).val < win0_2.index t a * S2048x1.size a + S2048x1.size a := by
  show i ∈ ((View.whole main_v6).slice (win0_2.rect t)).set ↔ _
  rw [View.set_slice_whole, Rect.mem_set_unit]
  exact Iff.rfl

/-- Row b of the column is written back by point 25 (b / 2048) + 24. -/
theorem cover2 (i : S4096x1.Idx) :
    ∃ t : Fin cfg0.N, (cfg0.win 2).flush t = true ∧ i ∈ ((cfg0.win 2).blk t).view.set := by
  have h0 : (i 0).val < 4096 := (i 0).isLt
  have h1 : (i 1).val < 1 := (i 1).isLt
  have hN : 25 * ((i 0).val / 2048) + 24 < grid0.N := by rw [N_0]; omega
  refine ⟨⟨25 * ((i 0).val / 2048) + 24, hN⟩, (flush0_2 _).mpr (by show (25 * ((i 0).val / 2048) + 24) % 25 = 24; omega), ?_⟩
  rw [mem_blk2]
  obtain ⟨-, -, -, -, e4, e5, -, -⟩ := idx0_facts ⟨25 * ((i 0).val / 2048) + 24, hN⟩
  have ht : (⟨25 * ((i 0).val / 2048) + 24, hN⟩ : Fin cfg0.N).val = 25 * ((i 0).val / 2048) + 24 := rfl
  intro a
  match a with
  | ⟨0, _⟩ =>
    show win0_2.index ⟨25 * ((i 0).val / 2048) + 24, hN⟩ (0 : Fin 2) * 2048 ≤ (i 0).val
      ∧ (i 0).val < win0_2.index ⟨25 * ((i 0).val / 2048) + 24, hN⟩ (0 : Fin 2) * 2048 + 2048
    omega
  | ⟨1, _⟩ =>
    show win0_2.index ⟨25 * ((i 0).val / 2048) + 24, hN⟩ (1 : Fin 2) * 1 ≤ (i 1).val
      ∧ (i 1).val < win0_2.index ⟨25 * ((i 0).val / 2048) + 24, hN⟩ (1 : Fin 2) * 1 + 1
    omega

/-! ## The column after the region -/

/-- The log-sum-exp column ends holding G0 of the two arrays as the region finds them. -/
theorem final0_of (h : PayFacts0 tile) (c : Dev nD) :
    ((dat0 (F := Ideal) V c).arrAt 2 cfg0.N : S4096x1.Idx → EReal) = G0 (V c main_v3) (V c main_v5) :=
  (dat0 (F := Ideal) V c).arrAt_eq_of_cover 2 (G0 (V c main_v3) (V c main_v5))
    (fun t hf => flushed2_eq V h c t ((flush0_2 t).mp hf)) cover2

end Cert.KernelIdeal.Hand

end
-- ==== Proof.KI.R0PayStep.lean ====
/-
  The statistics step read at one row, on the extended reals.

  With t r j the masked score tile's entry (r, j), m r the running maximum the step finds and l r the running sum:
  the new maximum is m' r = max (m r) (sup over the 2048 columns j of t r j), the new sum is
  exp (m r - m' r) · l r + ∑ j, exp (t r j - m' r), and the output block is m r + log (l r).

  The body takes the row maximum as a lane reduction from -∞, which is the fold of max from ⊥ over the 2048 lanes, that
  is the supremum of the row; the row sum as a lane reduction from 0, which is the sum over the lanes; each reduction
  gives a vector of 2048 entries that is recast as a 2048 × 1 column, read at (r, 0) as the vector at r; and the new
  maximum is broadcast back along the rows before it is subtracted from the tile, so column j of row r sees m' r.
-/
import proofs.«107669_j24335284699350_2_alg».proof.Proof.KI.R0PayTile
import proofs.«107669_j24335284699350_2_alg».proof.Proof.KI.R0Pieces

set_option maxRecDepth 16384

noncomputable section

namespace Cert.KernelIdeal.Hand

open Cert.KernelIdeal Cert.KernelIdeal.Gen
open Idealize.ShloMosaic Idealize.ShloMosaic.ValueIdx

/-- A vector of a entries cast to an a × 1 column reads, at (i, u), the vector at i. -/
theorem r0_col_cast_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The fold of max from -∞ over a finite set is the set's supremum. -/
theorem r0_fold_max_eq_sup {ι : Type} (s : Finset ι) (f : ι → EReal) : s.fold max (⊥ : EReal) f = s.sup f := by
  classical
  induction s using Finset.induction_on with
  | empty => rfl
  | insert a s ha ih => rw [Finset.fold_insert ha, Finset.sup_insert, ih]

/-- The index a lane reduction reads at row r, lane k, is (r, k). -/
theorem r0_lift_row (r k : Fin 2048) : reduces_S2048x2048_S2048.lift (ix1 r) k = ix2 r k :=
  funext fun a => Fin.ext (by match a with | ⟨0, _⟩ => rfl | ⟨1, _⟩ => rfl)

/-- The lane maximum from -∞ at row r is the supremum of the row. -/
theorem r0_rowMax_apply (src : FVec Ideal S2048x2048 .f32) (r : Fin 2048) :
    multiReduction (F := Ideal) .maximumf [1] S2048 src 0xFF800000#32 reduces_S2048x2048_S2048 (.inl rfl) rfl (ix1 r)
      = Finset.univ.sup fun j : Fin 2048 => src (ix2 r j) := by
  refine (Ideal.multiReduction_maximumf_single src 0xFF800000#32 reduces_S2048x2048_S2048 (.inl rfl) rfl (ix1 r)).trans ?_
  refine Eq.trans ?_ (r0_fold_max_eq_sup Finset.univ fun j : Fin 2048 => src (ix2 r j))
  show Finset.fold max (Ideal.ofBits .f32 0xFF800000#32) _ _ = _
  rw [ofBits_neg_inf]
  exact Finset.fold_congr (fun k _ => congrArg src (r0_lift_row r k))

/-- The lane sum from 0 at row r is the sum of the row. -/
theorem r0_rowSum_apply (src : FVec Ideal S2048x2048 .f32) (r : Fin 2048) :
    multiReduction (F := Ideal) .add [1] S2048 src 0x00000000#32 reduces_S2048x2048_S2048 (.inl rfl) rfl (ix1 r)
      = ∑ j : Fin 2048, src (ix2 r j) := by
  refine (Ideal.multiReduction_add_single src 0x00000000#32 reduces_S2048x2048_S2048 (.inl rfl) rfl (ix1 r)).trans ?_
  exact Finset.sum_congr rfl fun k _ => congrArg src (r0_lift_row r k)

/-- The body's new maximum at row r: the old one against the supremum of the tile's row. -/
theorem pay6_apply (i : grid0.Coords) (x0 x1 : Vec Ideal S2048x384 .bf16) (m : Vec Ideal S2048x1 .f32) (r : Fin 2048) :
    k0_pay6 (F := Ideal) i x0 x1 m (ix2 r (0 : Fin 1))
      = max (m (ix2 r (0 : Fin 1))) (Finset.univ.sup fun j : Fin 2048 => tile i x0 x1 r j) := by
  unfold k0_pay6
  refine (maximumf_apply _ _ (ix2 r (0 : Fin 1))).trans ?_
  refine congrArg (max (m (ix2 r (0 : Fin 1)))) ?_
  refine (r0_col_cast_apply _ _ r (0 : Fin 1)).trans ?_
  refine (r0_rowMax_apply _ r).trans ?_
  exact Finset.sup_congr rfl fun j _ => pay5_apply i x0 x1 r j

/-- What is stored into the running maximum is that new maximum. -/
theorem stepM_eq_pay6 (i : grid0.Coords) (x0 x1 : Vec Ideal S2048x384 .bf16) (m : Vec Ideal S2048x1 .f32) :
    stepM i x0 x1 m = k0_pay6 (F := Ideal) i x0 x1 m := by
  unfold stepM k0_pay1
  exact shapeCast_self _ _

/-- The new running maximum at row r. -/
theorem stepM_apply (i : grid0.Coords) (x0 x1 : Vec Ideal S2048x384 .bf16) (m : Vec Ideal S2048x1 .f32) (r : Fin 2048) :
    stepM i x0 x1 m (ix2 r (0 : Fin 1))
      = max (m (ix2 r (0 : Fin 1))) (Finset.univ.sup fun j : Fin 2048 => tile i x0 x1 r j) := by
  rw [stepM_eq_pay6]; exact pay6_apply i x0 x1 m r

/-- The new running sum at row r: the old sum rescaled from the old maximum to the new one, plus the tile's row of
    exponentials shifted by the new maximum. -/
theorem stepL_apply (i : grid0.Coords) (x0 x1 : Vec Ideal S2048x384 .bf16) (m l : Vec Ideal S2048x1 .f32) (r : Fin 2048) :
    stepL i x0 x1 m l (ix2 r (0 : Fin 1))
      = Ideal.exp (m (ix2 r (0 : Fin 1)) - stepM i x0 x1 m (ix2 r (0 : Fin 1))) * l (ix2 r (0 : Fin 1))
        + ∑ j : Fin 2048, Ideal.exp (tile i x0 x1 r j - stepM i x0 x1 m (ix2 r (0 : Fin 1))) := by
  rw [stepM_eq_pay6]
  unfold stepL k0_pay7
  rw [shapeCast_self]
  refine (addf_apply _ _ (ix2 r (0 : Fin 1))).trans ?_
  refine congrArg₂ (· + ·) ?_ ?_
  · rfl
  · refine (r0_col_cast_apply _ _ r (0 : Fin 1)).trans ?_
    refine (r0_rowSum_apply _ r).trans ?_
    refine Finset.sum_congr rfl fun j _ => ?_
    show Ideal.exp (k0_pay5 (F := Ideal) i x0 x1 (ix2 r j)
      - broadcastTo S2048x2048 (k0_pay6 (F := Ideal) i x0 x1 m) broadcasts_S2048x1_S2048x2048 (ix2 r j)) = _
    rw [pay5_apply, bcast_col_apply]

/-- The output block: maximum + log sum, entry by entry. -/
theorem lseOut_apply (m l : Vec Ideal S2048x1 .f32) (y : S2048x1.Idx) : lseOut m l y = m y + Ideal.log (l y) := rfl

end Cert.KernelIdeal.Hand

end
-- ==== Proof.KI.R0Value.lean ====
/-
  The log-sum-exp column after the statistics region, from the body's arithmetic read entry by entry: the six facts the
  value was derived from are the body's own (the reset values ⊥ and 0, the masked tile, one step of the running maximum and
  of the running sum, and maximum + log sum).
-/
import proofs.«107669_j24335284699350_2_alg».proof.Proof.KI.R0ValueOf
import proofs.«107669_j24335284699350_2_alg».proof.Proof.KI.R0PayStep

noncomputable section

namespace Cert.KernelIdeal.Hand

open Cert.KernelIdeal Cert.KernelIdeal.Gen
open Idealize.ShloMosaic Idealize.ShloMosaic.TcCoe
open Idealize.SL Idealize.SL.Sem

variable (V : (c : Dev nD) → (b : Ref sig .tc) → Buf (Elt Ideal) ((c : Thread nD τ).loc b))

/-- The body's arithmetic, entry by entry. -/
theorem payFacts0 : PayFacts0 tile :=
  ⟨fun _ _ _ _ _ => rfl, pay3_apply, pay4_apply, stepM_apply, stepL_apply, lseOut_apply⟩

/-- The log-sum-exp column ends holding G0 of the two arrays as the region finds them. -/
theorem final0 (c : Dev nD) :
    ((dat0 (F := Ideal) V c).arrAt 2 cfg0.N : S4096x1.Idx → EReal) = G0 (V c main_v3) (V c main_v5) :=
  final0_of V payFacts0 c

end Cert.KernelIdeal.Hand

end
-- ==== Proof.PreFacts.lean ====
/-
  The precondition, decoded. The stated precondition is the conjunction of three whole-array tests: every entry of W1
  and every entry of W2 has absolute value below +∞, and every lookup index lies in [-50000, 50000) as a signed number.
  An extended real whose absolute value max w (-w) is below +∞ is neither infinity, so it is a real number; a signed
  comparison of two words that answers 1 is the comparison of their signed values.
-/
import proofs.«107669_j24335284699350_2_alg».proof.Proof.Gen.Pre_finite_inputs
import Idealize.ShloMosaic.Lib.ReduceAll
import Idealize.ShloMosaic.Lib.ValueIdx
import Idealize.ShloMosaic.PureOps.Ideal

noncomputable section

namespace Cert.PreFacts

open Idealize.ShloMosaic Idealize.ShloMosaic.ValueIdx
open Cert.Pre_finite_inputs

/-- The scalar shape has one index. -/
instance : Subsingleton S_.Idx := ⟨fun a b => funext fun d => d.elim0⟩

/-- The word 0x7F800000 is +∞. -/
theorem inf_word : Ideal.ofBits .f32 0x7F800000#32 = (⊤ : EReal) := by simp [Ideal.ofBits, Ideal.ieee]

/-- An extended real whose absolute value is below +∞ is a real number. -/
theorem real_of_abs_lt (w : EReal) (h : Ideal.cmp .olt (max w (-w)) (Ideal.ofBits .f32 0x7F800000#32) = 1#1) :
    ∃ r : ℝ, w = (r : EReal) := by
  rw [inf_word] at h
  induction w using EReal.rec with
  | bot => simp [Ideal.cmp] at h
  | coe r => exact ⟨r, rfl⟩
  | top => simp [Ideal.cmp] at h

/-- The word 4294917296 read signed is -50000, and 50000 read signed is 50000. -/
theorem lo_word : (4294917296#32 : BitVec 32).toInt = -50000 := by decide
theorem hi_word : (50000#32 : BitVec 32).toInt = 50000 := by decide

/-- THE PRECONDITION DECODED: every entry of W1 and of W2 is a real number, and every lookup index is in
    [-50000, 50000) read signed. -/
theorem of_pre (x : IVec ⟨1, ![4096]⟩ 32) (W1 : FVec Ideal ⟨2, ![300, 50000]⟩ .f32) (W2 : FVec Ideal ⟨2, ![50000, 300]⟩ .f32)
    (h : Cert.Pre_finite_inputs.fn (F := Ideal) x W1 W2 = fun _ => 1#1) :
    (∀ i, ∃ r : ℝ, W1 i = (r : EReal)) ∧ (∀ i, ∃ r : ℝ, W2 i = (r : EReal))
      ∧ (∀ b : Fin 4096, -50000 ≤ (x (ValueIdx.ix1 b)).toInt ∧ (x (ValueIdx.ix1 b)).toInt < 50000) := by
  have e := congrFun h ValueIdx.ix0
  dsimp only [Cert.Pre_finite_inputs.fn] at e
  obtain ⟨e12, e3⟩ := IntOp.andi_eq_one.1 e
  obtain ⟨e1, e2⟩ := IntOp.andi_eq_one.1 e12
  refine ⟨fun i => ?_, fun i => ?_, fun b => ?_⟩
  · exact real_of_abs_lt (W1 i) (Host.reduce_andi_all _ _ _ _ _ e1 i)
  · exact real_of_abs_lt (W2 i) (Host.reduce_andi_all _ _ _ _ _ e2 i)
  · have hb := Host.reduce_andi_all _ _ _ _ _ e3 (ValueIdx.ix1 b)
    obtain ⟨hge, hlt⟩ := IntOp.andi_eq_one.1 hb
    have h1 := IntOp.cmpi_sge.1 hge
    have h2 := IntOp.cmpi_slt.1 hlt
    refine ⟨?_, ?_⟩
    · exact lo_word ▸ h1
    · exact hi_word ▸ h2

end Cert.PreFacts

end
-- ==== Proof.Bridge.lean ====
/-
  The closing mathematics: what the two kernel regions compute over the padded operands is the specification.

  Row b fixed. The padded lookup E holds W1[e, col x b] at column e < 300 and 0 after, the padded Wp holds W2[v, e] and 0
  after, so the contraction over all 384 columns is the score over the 300 real ones: the 84 padded columns contribute
  0 · 0. Every score is a real number, a finite sum of products of reals. The 25 vocabulary tiles of 2048 positions hold
  the scores at the positions inside the vocabulary (position j of tile k is word 2048 k + j) and ⊥ at the 1200 positions
  past it, all in tile 24, whose first position is still a word; so every tile's largest entry is a real number that
  bounds the tile and is attained, and the streaming pair after the 25 tiles is (M, L) with M a real bound of all
  entries that one of them attains, so the row's largest score, and L the real sum of exp (entry - M) over all entries,
  a masked entry counting 0: the sum of exp (score - M) over the 50000 words, word v sitting in tile v / 2048 at
  position v % 2048. L is positive. For real s, M and positive L, s - (M + log L) = (s - M) - log L.
-/
import proofs.«107669_j24335284699350_2_alg».proof.Proof.Spec
import proofs.«107669_j24335284699350_2_alg».proof.Proof.LibOnlineLogSumExp
import proofs.«107669_j24335284699350_2_alg».proof.Proof.KI.Tiles

noncomputable section

namespace Cert.Bridge

open Idealize.ShloMosaic Idealize.ShloMosaic.ValueIdx Finset
open Cert.Lib.OnlineLogSumExp Cert.KernelIdeal.Hand

/-! ## Sums -/

/-- A sum over m indices of a function that is g on the first n and 0 after is the sum of g. -/
theorem sum_pad {M : Type} [AddCommMonoid M] {n m : ℕ} (hnm : n ≤ m) (g : Fin n → M) :
    ∑ e : Fin m, (if h : e.val < n then g ⟨e.val, h⟩ else 0) = ∑ e : Fin n, g e := by
  have hF : ∀ k, ∑ e : Fin k, (if h : e.val < n then g ⟨e.val, h⟩ else 0)
      = ∑ i ∈ range k, (if h : i < n then g ⟨i, h⟩ else 0) :=
    fun k => Fin.sum_univ_eq_sum_range (fun i => if h : i < n then g ⟨i, h⟩ else 0) k
  rw [hF m, ← Finset.sum_subset (Finset.range_subset_range.2 hnm)
    (fun i _ hi => dif_neg (fun h => hi (Finset.mem_range.2 h))), ← hF n]
  exact Finset.sum_congr rfl fun e _ => dif_pos e.isLt

/-- K tiles of T consecutive naturals are the first K T naturals. -/
theorem sum_tiles {M : Type} [AddCommMonoid M] (F : ℕ → M) (T : ℕ) :
    ∀ K, ∑ k ∈ range K, ∑ j ∈ range T, F (k * T + j) = ∑ i ∈ range (K * T), F i
  | 0 => by simp
  | K + 1 => by
    rw [Finset.sum_range_succ, sum_tiles F T K, Nat.add_mul, Nat.one_mul, Finset.sum_range_add]

/-! ## The padded contraction is the score -/

theorem logit_eq_score (x : IVec ⟨1, ![4096]⟩ 32) (W1 : FVec Ideal ⟨2, ![300, 50000]⟩ .f32) (W2 : FVec Ideal ⟨2, ![50000, 300]⟩ .f32)
    (E : (⟨2, ![4096, 384]⟩ : Shape).Idx → EReal) (Wp : (⟨2, ![50000, 384]⟩ : Shape).Idx → EReal)
    (hE : ∀ (b : Fin 4096) (e : Fin 384), E (ix2 b e) = if h : e.val < 300 then W1 (ix2 ⟨e.val, h⟩ (Cert.Spec.col x b)) else (0 : EReal))
    (hWp : ∀ (v : Fin 50000) (e : Fin 384), Wp (ix2 v e) = if h : e.val < 300 then W2 (ix2 v ⟨e.val, h⟩) else (0 : EReal))
    (b : Fin 4096) (v : Fin 50000) : logit E Wp b v = Cert.Spec.score x W1 W2 b v := by
  unfold logit Cert.Spec.score
  rw [← sum_pad (show 300 ≤ 384 by norm_num) (fun e : Fin 300 => W1 (ix2 e (Cert.Spec.col x b)) * W2 (ix2 v e))]
  refine Finset.sum_congr rfl fun e _ => ?_
  rw [hE, hWp]
  by_cases h : e.val < 300
  · rw [dif_pos h, dif_pos h, dif_pos h]
  · rw [dif_neg h, dif_neg h, dif_neg h, zero_mul]

/-- The real score, from real witnesses of the two matrices. -/
def realScore (f1 : (⟨2, ![300, 50000]⟩ : Shape).Idx → ℝ) (f2 : (⟨2, ![50000, 300]⟩ : Shape).Idx → ℝ)
    (x : IVec ⟨1, ![4096]⟩ 32) (b : Fin 4096) (v : Fin 50000) : ℝ :=
  ∑ e : Fin 300, f1 (ix2 e (Cert.Spec.col x b)) * f2 (ix2 v e)

theorem score_eq_real (x : IVec ⟨1, ![4096]⟩ 32) (W1 : FVec Ideal ⟨2, ![300, 50000]⟩ .f32) (W2 : FVec Ideal ⟨2, ![50000, 300]⟩ .f32)
    (f1 : (⟨2, ![300, 50000]⟩ : Shape).Idx → ℝ) (f2 : (⟨2, ![50000, 300]⟩ : Shape).Idx → ℝ)
    (hf1 : ∀ i, W1 i = (f1 i : EReal)) (hf2 : ∀ i, W2 i = (f2 i : EReal)) (b : Fin 4096) (v : Fin 50000) :
    Cert.Spec.score x W1 W2 b v = ((realScore f1 f2 x b v : ℝ) : EReal) := by
  unfold Cert.Spec.score realScore
  rw [coe_sum]
  exact Finset.sum_congr rfl fun e _ => by rw [hf1, hf2, EReal.coe_mul]

/-! ## One row -/

/-- exp (score of word n - M) as a real number, 0 for a number n that is no word. -/
def wordTerm (S : Fin 50000 → ℝ) (M : ℝ) (n : ℕ) : ℝ := if h : n < 50000 then term ((S ⟨n, h⟩ : ℝ) : EReal) M else 0

theorem wordTerm_in (S : Fin 50000 → ℝ) (M : ℝ) (n : ℕ) (h : n < 50000) :
    wordTerm S M n = term ((S ⟨n, h⟩ : ℝ) : EReal) M := dif_pos h

theorem wordTerm_out (S : Fin 50000 → ℝ) (M : ℝ) (n : ℕ) (h : ¬n < 50000) : wordTerm S M n = 0 := dif_neg h

/-- The sum over 25 tiles of 2048 numbers is the sum over the 50000 words. -/
theorem sum_wordTerm (S : Fin 50000 → ℝ) (M : ℝ) :
    ∑ k ∈ range 25, ∑ j : Fin 2048, wordTerm S M (k * 2048 + j.val) = ∑ v : Fin 50000, term ((S v : ℝ) : EReal) M := by
  have e1 : ∀ k, ∑ j : Fin 2048, wordTerm S M (k * 2048 + j.val) = ∑ j ∈ range 2048, wordTerm S M (k * 2048 + j) :=
    fun k => Fin.sum_univ_eq_sum_range (fun j => wordTerm S M (k * 2048 + j)) 2048
  have e2 : ∑ k ∈ range 25, ∑ j ∈ range 2048, wordTerm S M (k * 2048 + j) = ∑ i ∈ range (25 * 2048), wordTerm S M i :=
    sum_tiles (wordTerm S M) 2048 25
  have e3 : ∑ i ∈ range 50000, wordTerm S M i = ∑ i ∈ range (25 * 2048), wordTerm S M i :=
    Finset.sum_subset (Finset.range_subset_range.2 (by norm_num))
      fun i _ hi => wordTerm_out S M i fun h => hi (Finset.mem_range.2 h)
  have e4 : ∑ v : Fin 50000, wordTerm S M v.val = ∑ i ∈ range 50000, wordTerm S M i :=
    Fin.sum_univ_eq_sum_range (wordTerm S M) 50000
  rw [Finset.sum_congr rfl fun k _ => e1 k, e2, ← e3, ← e4]
  exact Finset.sum_congr rfl fun v _ => wordTerm_in S M v.val v.isLt

section Row

variable (E : (⟨2, ![4096, 384]⟩ : Shape).Idx → EReal) (Wp : (⟨2, ![50000, 384]⟩ : Shape).Idx → EReal)
  (b : Fin 4096) (S : Fin 50000 → ℝ)

/-- A position past the vocabulary is masked. -/
theorem tile_out (k : ℕ) (j : Fin 2048) (h : ¬k * 2048 + j.val < 50000) : tileScore E Wp b k j = ⊥ := by
  unfold tileScore; rw [dif_neg h]

theorem tile_le_max (k : ℕ) (j : Fin 2048) : tileScore E Wp b k j ≤ tileMax E Wp b k :=
  Finset.le_sup (f := tileScore E Wp b k) (Finset.mem_univ j)

theorem tileMax_att (k : ℕ) : ∃ j, tileScore E Wp b k j = tileMax E Wp b k := by
  obtain ⟨j, -, hj⟩ := Finset.exists_mem_eq_sup Finset.univ ⟨(0 : Fin 2048), Finset.mem_univ _⟩ (tileScore E Wp b k)
  exact ⟨j, hj.symm⟩

variable (hlogit : ∀ v, logit E Wp b v = ((S v : ℝ) : EReal))
include hlogit

/-- A position inside the vocabulary holds its word's score. -/
theorem tile_in (k : ℕ) (j : Fin 2048) (h : k * 2048 + j.val < 50000) :
    tileScore E Wp b k j = ((S ⟨k * 2048 + j.val, h⟩ : ℝ) : EReal) := by
  unfold tileScore; rw [dif_pos h, hlogit]

/-- Each of the 25 tiles has a real largest entry: its first position is a word. -/
theorem tileMax_real (k : ℕ) (hk : k ≤ 24) : ∃ r : ℝ, tileMax E Wp b k = (r : EReal) := by
  obtain ⟨j, hj⟩ := tileMax_att E Wp b k
  by_cases h : k * 2048 + j.val < 50000
  · exact ⟨_, hj.symm.trans (tile_in E Wp b S hlogit k j h)⟩
  · have h0 : k * 2048 + (0 : Fin 2048).val < 50000 := by show k * 2048 + 0 < 50000; omega
    have hle := tile_le_max E Wp b k 0
    rw [tile_in E Wp b S hlogit k 0 h0, ← hj, tile_out E Wp b k j h] at hle
    exact absurd (le_bot_iff.1 hle) (EReal.coe_ne_bot _)

/-- The streaming pair after the 25 tiles: a real M that bounds every score and is one, and the positive real sum L of
    exp (score - M) over the 50000 words. -/
theorem row_lse : ∃ M L : ℝ, 0 < L ∧ G0 E Wp (ix2 b (0 : Fin 1)) = (M : EReal) + Ideal.log (L : EReal)
    ∧ (∀ v, ((S v : ℝ) : EReal) ≤ (M : EReal)) ∧ (∃ v, ((S v : ℝ) : EReal) = (M : EReal))
    ∧ L = ∑ v : Fin 50000, term ((S v : ℝ) : EReal) M := by
  obtain ⟨M, h1, h2, h3, h4⟩ := run_spec (tileScore E Wp b) (tileMax E Wp b) 24
    (fun k _ j => tile_le_max E Wp b k j) (fun k _ => tileMax_att E Wp b k) (fun k hk => tileMax_real E Wp b S hlogit k hk)
  have hnt : ∀ k ≤ 24, ∀ j, tileScore E Wp b k j ≠ ⊤ := fun k hk j => ne_top_of_le_coe (h2 k hk j)
  have hpos : 0 < ∑ k ∈ range 25, ∑ j, term (tileScore E Wp b k j) M := sum_term_pos (tileScore E Wp b) 24 M hnt h3
  have h1' : (run (tileScore E Wp b) (tileMax E Wp b) 25).1 = (M : EReal) := h1
  have h4' : (run (tileScore E Wp b) (tileMax E Wp b) 25).2
      = ((∑ k ∈ range 25, ∑ j, term (tileScore E Wp b k j) M : ℝ) : EReal) := h4
  refine ⟨M, _, hpos, ?_, ?_, ?_, ?_⟩
  · show (run (tileScore E Wp b) (tileMax E Wp b) 25).1 + Ideal.log (run (tileScore E Wp b) (tileMax E Wp b) 25).2 = _
    rw [h1', h4']
  · intro v
    have hv := v.isLt
    have hlt : v.val % 2048 < 2048 := Nat.mod_lt _ (by norm_num)
    have hin : v.val / 2048 * 2048 + (⟨v.val % 2048, hlt⟩ : Fin 2048).val < 50000 := by
      show v.val / 2048 * 2048 + v.val % 2048 < 50000; omega
    have hle := h2 (v.val / 2048) (by omega) ⟨v.val % 2048, hlt⟩
    rw [tile_in E Wp b S hlogit _ _ hin] at hle
    have e : (⟨_, hin⟩ : Fin 50000) = v := Fin.ext (by show v.val / 2048 * 2048 + v.val % 2048 = v.val; omega)
    exact (congrArg (fun u : Fin 50000 => ((S u : ℝ) : EReal)) e.symm).trans_le hle
  · obtain ⟨k, _, j, hj⟩ := h3
    by_cases hin : k * 2048 + j.val < 50000
    · rw [tile_in E Wp b S hlogit k j hin] at hj
      exact ⟨_, hj⟩
    · rw [tile_out E Wp b k j hin] at hj
      exact absurd hj.symm (EReal.coe_ne_bot M)
  · -- the double sum over tiles and positions is the sum over the words
    rw [← sum_wordTerm S M]
    refine Finset.sum_congr rfl fun k _ => Finset.sum_congr rfl fun j _ => ?_
    by_cases h : k * 2048 + j.val < 50000
    · rw [tile_in E Wp b S hlogit k j h, wordTerm_in S M _ h]
    · rw [tile_out E Wp b k j h, term_bot, wordTerm_out S M _ h]

/-- The two regions' result at row b is the specification's. -/
theorem row_eq (x : IVec ⟨1, ![4096]⟩ 32) (W1 : FVec Ideal ⟨2, ![300, 50000]⟩ .f32) (W2 : FVec Ideal ⟨2, ![50000, 300]⟩ .f32)
    (hscore : ∀ v, Cert.Spec.score x W1 W2 b v = ((S v : ℝ) : EReal)) (v : Fin 50000) :
    G1 E Wp (G0 E Wp) (ix2 b v) = Cert.Spec.out x W1 W2 (ix2 b v) := by
  obtain ⟨M, L, hL, hG0, hub, hatt, hLsum⟩ := row_lse E Wp b S hlogit
  have hmax : Cert.Spec.rowMax x W1 W2 b = (M : EReal) :=
    Cert.Spec.rowMax_eq_of x W1 W2 b M (fun v => by rw [hscore]; exact hub v)
      (by obtain ⟨v, hv⟩ := hatt; exact ⟨v, by rw [hscore]; exact hv⟩)
  have hsum : Cert.Spec.rowSum x W1 W2 b = (L : EReal) := by
    unfold Cert.Spec.rowSum
    rw [hmax, hLsum, coe_sum]
    exact Finset.sum_congr rfl fun v _ => by rw [hscore]; exact exp_sub_eq_term _ (EReal.coe_ne_top _) M
  rw [Cert.Spec.out_apply]
  show logit E Wp b v - G0 E Wp (ix2 b (0 : Fin 1))
    = (Cert.Spec.score x W1 W2 b v - Cert.Spec.rowMax x W1 W2 b) - Ideal.log (Cert.Spec.rowSum x W1 W2 b)
  rw [hlogit, hG0, hscore, hmax, hsum]
  exact sub_lse_eq (S v) M L hL

end Row

/-! ## The whole array -/

/-- THE BRIDGE: the second region's result over the first region's log-sum-exp column is the specification. -/
theorem bridge (x : IVec ⟨1, ![4096]⟩ 32) (W1 : FVec Ideal ⟨2, ![300, 50000]⟩ .f32) (W2 : FVec Ideal ⟨2, ![50000, 300]⟩ .f32)
    (hW1 : ∀ i, ∃ r : ℝ, W1 i = (r : EReal)) (hW2 : ∀ i, ∃ r : ℝ, W2 i = (r : EReal))
    (E : (⟨2, ![4096, 384]⟩ : Shape).Idx → EReal) (Wp : (⟨2, ![50000, 384]⟩ : Shape).Idx → EReal)
    (hE : ∀ (b : Fin 4096) (e : Fin 384), E (ValueIdx.ix2 b e) = if h : e.val < 300 then W1 (ValueIdx.ix2 ⟨e.val, h⟩ (Cert.Spec.col x b)) else (0 : EReal))
    (hWp : ∀ (v : Fin 50000) (e : Fin 384), Wp (ValueIdx.ix2 v e) = if h : e.val < 300 then W2 (ValueIdx.ix2 v ⟨e.val, h⟩) else (0 : EReal)) :
    Cert.KernelIdeal.Hand.G1 E Wp (Cert.KernelIdeal.Hand.G0 E Wp) = Cert.Spec.out x W1 W2 := by
  choose f1 hf1 using hW1
  choose f2 hf2 using hW2
  funext j
  obtain ⟨b, v, rfl⟩ : ∃ (b : Fin 4096) (v : Fin 50000), j = ix2 b v := ⟨j 0, j 1, eq_ix2 j⟩
  exact row_eq E Wp b (realScore f1 f2 x b)
    (fun v => (logit_eq_score x W1 W2 E Wp hE hWp b v).trans (score_eq_real x W1 W2 f1 f2 hf1 hf2 b v))
    x W1 W2 (fun v => score_eq_real x W1 W2 f1 f2 hf1 hf2 b v) v

end Cert.Bridge

end
-- ==== Proof.KI.Value.lean ====
/-
  The idealized kernel program's result array is the specification's log-softmax of the arguments.

  The output region writes logit - lse over the arrays it is entered with; the lookup and the vocabulary matrix reach it
  as the statistics region found them, and lse is what the statistics region left, the streaming m + log l of the same
  two arrays. The host stretches make those arrays the zero-padded lookup and the zero-padded W2, so the closing algebra
  applies; the precondition gives the finiteness and the index range it needs.
-/
import proofs.«107669_j24335284699350_2_alg».proof.Defs
import proofs.«107669_j24335284699350_2_alg».proof.Proof.KI.Ends
import proofs.«107669_j24335284699350_2_alg».proof.Proof.KI.R0Value
import proofs.«107669_j24335284699350_2_alg».proof.Proof.PreFacts
import proofs.«107669_j24335284699350_2_alg».proof.Proof.Bridge
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-- What the statistics region leaves in the log-sum-exp array. -/
theorem E8_v6 (c : Dev nD) : (E8 m c main_v6 : S4096x1.Idx → EReal) = G0 (E7 m c main_v3) (E7 m c main_v5) :=
  (W8_arr m c 2).trans (final0 (E7 m) c)

/-- The result array after the run is the specification's function of the arguments. -/
theorem value (hpre : Cert.Pre_KernelIdeal m) (c : Dev nD) :
    (W9 m c (Proc.devRef .tc main_v7) : S4096x50000.Idx → EReal)
      = Cert.Spec.out (m ((c : Thread nD τ).loc main_arg0)) (m ((c : Thread nD τ).loc main_arg1)) (m ((c : Thread nD τ).loc main_arg2)) := by
  obtain ⟨hW1, hW2, hx⟩ := Cert.PreFacts.of_pre _ _ _ (hpre c)
  refine (E9_v7 m c).trans ?_
  rw [E8_v3, E8_v5, E8_v6]
  exact Cert.Bridge.bridge _ _ _ hW1 hW2 (E7 m c main_v3) (E7 m c main_v5) (fun b e => V7_emb m c hx b e) (fun v e => V7_w2 m c v e)

/-- Every weakly fair execution of the idealized kernel program terminates, nothing faulting, with the result array at the
    specification's function of the arguments and the arguments unchanged. -/
theorem kernel_value (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v7) = Cert.Spec.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v7 (by decide))).trans (value m hpre c),
      (h c _ (mem_uc main_arg0 (by decide))).trans (W9_arg0 m c),
      (h c _ (mem_uc main_arg1 (by decide))).trans (W9_arg1 m c),
      (h c _ (mem_uc main_arg2 (by decide))).trans (W9_arg2 m c)⟩)
    (run_ends m ρ)

end Cert.KernelIdeal.Hand

end
-- ==== Proof.Ref.Ops.lean ====
/-
  The reference program's @main as one straight line of host operations: the lookup of the columns of W1 (the
  index moved up by 50000 when negative, the range check 0 ≤ index ≤ 49999, the gather of one column per batch
  row, the select against the range check), the transposition, the contraction with W2 over the 300 embedding
  coordinates, and the two-pass log-softmax of each row (row maximum, shift, exponentials, row sum, logarithm,
  second shift). The three functions @main calls are unfolded at their calls, each value into its own buffer.
-/
import proofs.«107669_j24335284699350_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's forty operations in order, the calls unfolded: twenty-three of the column lookup (the select of the
    moved index is the inner call's one operation), the transposition, the contraction, fifteen of the log-softmax. -/
abbrev ops : List (HloOp τ sig (Elt F)) :=
  [ TRef.nullary main_call0.c (constantI S_ 32 0#32),
    TRef.unary main_call0.c main_call0.v0 (broadcastInDim S4096 ![] bcast_S_S4096),
    TRef.binary (.of main_arg0 : TRef sig ⟨S4096, .i32⟩) main_call0.v0 main_call0.v1 (cmpi .slt),
    TRef.nullary main_call0.c_0 (constantI S_ 32 50000#32),
    TRef.unary main_call0.c_0 main_call0.v2 (broadcastInDim S4096 ![] bcast_S_S4096),
    TRef.binary (.of main_arg0 : TRef sig ⟨S4096, .i32⟩) main_call0.v2 main_call0.v3 addi,
    TRef.ternary main_call0.v1 main_call0.v3 (.of main_arg0 : TRef sig ⟨S4096, .i32⟩) main_call0.call0.v0 select,
    TRef.unary main_call0.call0.v0 main_call0.v5 (broadcastInDim S4096x1 ![0] bcast_S4096_S4096x1_0),
    TRef.nullary main_call0.c_1 (constantI S1 32 49999#32),
    TRef.nullary main_call0.c_2 (constantI S_ 32 0#32),
    TRef.unary main_call0.c_2 main_call0.v6 (broadcastInDim S4096x1 ![] bcast_S_S4096x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S4096x1 ![0, 1] bcast_S1x1_S4096x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x1_S4096_d1 h_S_),
    TRef.binary (.of main_arg1 : TRef sig ⟨S300x50000, .f32⟩) main_call0.v5 main_call0.v13 (fun x i => Host.gather gather_S300x50000_S4096x1_S300x4096_0_1_n_n_1_1_3001 x i),
    TRef.unary main_call0.v12 main_call0.v14 (broadcastInDim S300x4096 ![1] bcast_S4096_S300x4096_1),
    TRef.nullary main_call0.cst (constant S_ .f32 0x7FC00000#32),
    TRef.unary main_call0.cst main_call0.v15 (broadcastInDim S300x4096 ![] bcast_S_S300x4096),
    TRef.ternary main_call0.v14 main_call0.v13 main_call0.v15 main_call0.v16 select,
    unary main_v0 main_v1 ((transpose S4096x300 [1, 0] · transposes_S300x4096_S4096x300_1_0) : (⟨S300x4096, .f32⟩ : BufTy).Contents (Elt F) → (⟨S4096x300, .f32⟩ : BufTy).Contents (Elt F)),
    binary main_v1 main_arg2 main_v2 ((fun l r => Host.dotGeneral dot_S4096x300_S50000x300_S4096x50000_1_1_0_0_n_n none l r) : (⟨S4096x300, .f32⟩ : BufTy).Contents (Elt F) → (⟨S50000x300, .f32⟩ : BufTy).Contents (Elt F) → (⟨S4096x50000, .f32⟩ : BufTy).Contents (Elt F)),
    TRef.nullary main_call1.cst (constant S_ .f32 0xFF800000#32),
    TRef.binary (.of main_v2 : TRef sig ⟨S4096x50000, .f32⟩) main_call1.cst main_call1.v0 (fun x v => Host.reduce FloatOps.maximumf x v reducesTo_S4096x50000_S4096_d1 h_S_),
    TRef.nullary main_call1.cst_0 (constant S_ .f32 0xFF800000#32),
    TRef.unary main_call1.cst_0 main_call1.v1 (broadcastInDim S4096 ![] bcast_S_S4096),
    TRef.binary main_call1.v1 main_call1.v0 main_call1.v2 maximumf,
    TRef.unary main_call1.v2 main_call1.v3 (broadcastInDim S4096x1 ![0] bcast_S4096_S4096x1_0),
    TRef.unary main_call1.v3 main_call1.v4 (broadcastInDim S4096x50000 ![0, 1] bcast_S4096x1_S4096x50000_0_1),
    TRef.binary (.of main_v2 : TRef sig ⟨S4096x50000, .f32⟩) main_call1.v4 main_call1.v5 subf,
    TRef.unary main_call1.v5 main_call1.v6 Host.exp,
    TRef.nullary main_call1.cst_1 (constant S_ .f32 0x00000000#32),
    TRef.binary main_call1.v6 main_call1.cst_1 main_call1.v7 (fun x v => Host.reduceAdd x v reducesTo_S4096x50000_S4096_d1 h_S_),
    TRef.unary main_call1.v7 main_call1.v8 (broadcastInDim S4096x1 ![0] bcast_S4096_S4096x1_0),
    TRef.unary main_call1.v8 main_call1.v9 Host.log,
    TRef.unary main_call1.v9 main_call1.v10 (broadcastInDim S4096x50000 ![0, 1] bcast_S4096x1_S4096x50000_0_1),
    TRef.binary main_call1.v5 main_call1.v10 main_call1.v11 subf ]

set_option maxRecDepth 1024 in
/-- @main is that straight line: the functions' bodies unfolded at their calls, the sequencing reassociated. -/
theorem main_eq (c : Dev nD) : main (F := F) c = seq ops := by
  simp only [main, fn_take.body, fn_where.body, fn_log_softmax.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., binary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., unary_bufs_sub .., binary_bufs_sub ..⟩

/-- From any memory with zero counters every weakly fair execution of @main terminates, and every buffer ends at
    the fold of the forty operations over the contents it was launched with. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.Ref.Term.lean ====
/-
  The reference's result as one term of the three argument arrays, cut at the places the mathematics names:
  the looked-up index as a column (the index moved up by 50000 where negative), the range check
  0 ≤ index ≤ 49999 of each batch row, the gathered columns of W1 selected against that check, the scores
  (the gathered columns transposed and contracted with W2), the scores shifted by their row maximum, and the
  log-softmax of a row.
-/
import proofs.«107669_j24335284699350_2_alg».proof.Proof.Gen.ReferenceIdeal
import Idealize.ShloMosaic.PureOps.Ideal

noncomputable section

namespace Cert.ReferenceIdeal.RefValue

open Cert.ReferenceIdeal Cert.ReferenceIdeal.Gen Idealize.ShloMosaic

/-- The index each batch row looks up, as a [4096, 1] column: x, moved up by 50000 where it is negative. -/
def idxCol (x : IVec S4096 32) : IVec S4096x1 32 :=
  broadcastInDim S4096x1 ![0] bcast_S4096_S4096x1_0
    (select (cmpi .slt x (broadcastInDim S4096 ![] bcast_S_S4096 (constantI S_ 32 0#32)))
      (addi x (broadcastInDim S4096 ![] bcast_S_S4096 (constantI S_ 32 50000#32))) x)

/-- The range check of each batch row: 0 ≤ index ∧ index ≤ 49999, and-reduced over the column's one entry. -/
def inRange (x : IVec S4096 32) : IVec S4096 1 :=
  Host.reduce IntOp.andi
    (andi (cmpi .sge (idxCol x) (broadcastInDim S4096x1 ![] bcast_S_S4096x1 (constantI S_ 32 0#32)))
      (cmpi .sle (idxCol x) (broadcastInDim S4096x1 ![0, 1] bcast_S1x1_S4096x1_0_1
        (broadcastInDim S1x1 ![1] bcast_S1_S1x1_1 (constantI S1 32 49999#32)))))
    (constantI S_ 1 1#1) reducesTo_S4096x1_S4096_d1 h_S_

/-- The looked-up columns of W1, one per batch row, as a [300, 4096] array: the gathered column where the row's
    index is in range, the filler word elsewhere. -/
def taken (x : IVec S4096 32) (W1 : FVec Ideal S300x50000 .f32) : FVec Ideal S300x4096 .f32 :=
  select (broadcastInDim S300x4096 ![1] bcast_S4096_S300x4096_1 (inRange x))
    (Host.gather gather_S300x50000_S4096x1_S300x4096_0_1_n_n_1_1_3001 W1 (idxCol x))
    (broadcastInDim S300x4096 ![] bcast_S_S300x4096 (constant (F := Ideal) S_ .f32 0x7FC00000#32))

/-- A [300, 4096] array transposed to [4096, 300] and contracted with W2 over the 300 coordinates. -/
def contractT (A : FVec Ideal S300x4096 .f32) (W2 : FVec Ideal S50000x300 .f32) : FVec Ideal S4096x50000 .f32 :=
  Host.dotGeneral (F := Ideal) dot_S4096x300_S50000x300_S4096x50000_1_1_0_0_n_n none
    (transpose S4096x300 [1, 0] A transposes_S300x4096_S4096x300_1_0) W2

/-- The scores: the looked-up columns, transposed and contracted with W2. -/
def logits (x : IVec S4096 32) (W1 : FVec Ideal S300x50000 .f32) (W2 : FVec Ideal S50000x300 .f32) :
    FVec Ideal S4096x50000 .f32 :=
  contractT (taken x W1) W2

/-- A [4096, 50000] array minus its row maximum (the maximum reduced from -∞, then joined with -∞ once more). -/
def shifted (L : FVec Ideal S4096x50000 .f32) : FVec Ideal S4096x50000 .f32 :=
  subf L (broadcastInDim S4096x50000 ![0, 1] bcast_S4096x1_S4096x50000_0_1
    (broadcastInDim S4096x1 ![0] bcast_S4096_S4096x1_0
      (maximumf (broadcastInDim S4096 ![] bcast_S_S4096 (constant (F := Ideal) S_ .f32 0xFF800000#32))
        (Host.reduce (FloatOps.maximumf (F := Ideal)) L (constant (F := Ideal) S_ .f32 0xFF800000#32)
          reducesTo_S4096x50000_S4096_d1 h_S_))))

/-- The two-pass log-softmax of each row: the shifted row minus the logarithm of the sum of its exponentials. -/
def logSoftmax (L : FVec Ideal S4096x50000 .f32) : FVec Ideal S4096x50000 .f32 :=
  subf (shifted L) (broadcastInDim S4096x50000 ![0, 1] bcast_S4096x1_S4096x50000_0_1
    (Host.log (broadcastInDim S4096x1 ![0] bcast_S4096_S4096x1_0
      (Host.reduceAdd (Host.exp (shifted L)) (constant (F := Ideal) S_ .f32 0x00000000#32)
        reducesTo_S4096x50000_S4096_d1 h_S_))))

/-- The reference's result of its three arguments. -/
def refTerm (x : IVec ⟨1, ![4096]⟩ 32) (W1 : FVec Ideal ⟨2, ![300, 50000]⟩ .f32) (W2 : FVec Ideal ⟨2, ![50000, 300]⟩ .f32) :
    FVec Ideal ⟨2, ![4096, 50000]⟩ .f32 :=
  logSoftmax (logits x W1 W2)

end Cert.ReferenceIdeal.RefValue

end
-- ==== Proof.Ref.Run.lean ====
/-
  The run of the reference read back: every weakly fair execution ends with the result buffer at `refTerm` of
  the arguments' launch contents and the arguments unchanged. The fold of the forty operations is read in
  stretches, each over whatever the buffers held before it: the column lookup, the transposition with the
  contraction, and the log-softmax in five pieces (row maximum; its join with -∞; the shift; the sum of the
  exponentials; the logarithm and the second shift), so that every equation below is between small terms.
-/
import proofs.«107669_j24335284699350_2_alg».proof.Proof.Ref.Ops
import proofs.«107669_j24335284699350_2_alg».proof.Proof.Ref.Term

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The column lookup's twenty-three operations. -/
abbrev opsTake {F : FTy → Type} [FloatOps F] : List (HloOp τ sig (Elt F)) :=
  [ TRef.nullary main_call0.c (constantI S_ 32 0#32),
    TRef.unary main_call0.c main_call0.v0 (broadcastInDim S4096 ![] bcast_S_S4096),
    TRef.binary (.of main_arg0 : TRef sig ⟨S4096, .i32⟩) main_call0.v0 main_call0.v1 (cmpi .slt),
    TRef.nullary main_call0.c_0 (constantI S_ 32 50000#32),
    TRef.unary main_call0.c_0 main_call0.v2 (broadcastInDim S4096 ![] bcast_S_S4096),
    TRef.binary (.of main_arg0 : TRef sig ⟨S4096, .i32⟩) main_call0.v2 main_call0.v3 addi,
    TRef.ternary main_call0.v1 main_call0.v3 (.of main_arg0 : TRef sig ⟨S4096, .i32⟩) main_call0.call0.v0 select,
    TRef.unary main_call0.call0.v0 main_call0.v5 (broadcastInDim S4096x1 ![0] bcast_S4096_S4096x1_0),
    TRef.nullary main_call0.c_1 (constantI S1 32 49999#32),
    TRef.nullary main_call0.c_2 (constantI S_ 32 0#32),
    TRef.unary main_call0.c_2 main_call0.v6 (broadcastInDim S4096x1 ![] bcast_S_S4096x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S4096x1 ![0, 1] bcast_S1x1_S4096x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x1_S4096_d1 h_S_),
    TRef.binary (.of main_arg1 : TRef sig ⟨S300x50000, .f32⟩) main_call0.v5 main_call0.v13 (fun x i => Host.gather gather_S300x50000_S4096x1_S300x4096_0_1_n_n_1_1_3001 x i),
    TRef.unary main_call0.v12 main_call0.v14 (broadcastInDim S300x4096 ![1] bcast_S4096_S300x4096_1),
    TRef.nullary main_call0.cst (constant S_ .f32 0x7FC00000#32),
    TRef.unary main_call0.cst main_call0.v15 (broadcastInDim S300x4096 ![] bcast_S_S300x4096),
    TRef.ternary main_call0.v14 main_call0.v13 main_call0.v15 main_call0.v16 select ]

/-- The transposition and the contraction. -/
abbrev opsMid {F : FTy → Type} [FloatOps F] : List (HloOp τ sig (Elt F)) :=
  [ unary main_v0 main_v1 ((transpose S4096x300 [1, 0] · transposes_S300x4096_S4096x300_1_0) : (⟨S300x4096, .f32⟩ : BufTy).Contents (Elt F) → (⟨S4096x300, .f32⟩ : BufTy).Contents (Elt F)),
    binary main_v1 main_arg2 main_v2 ((fun l r => Host.dotGeneral dot_S4096x300_S50000x300_S4096x50000_1_1_0_0_n_n none l r) : (⟨S4096x300, .f32⟩ : BufTy).Contents (Elt F) → (⟨S50000x300, .f32⟩ : BufTy).Contents (Elt F) → (⟨S4096x50000, .f32⟩ : BufTy).Contents (Elt F)) ]

/-- The row maximum, reduced from -∞. -/
abbrev opsMax {F : FTy → Type} [FloatOps F] : List (HloOp τ sig (Elt F)) :=
  [ TRef.nullary main_call1.cst (constant S_ .f32 0xFF800000#32),
    TRef.binary (.of main_v2 : TRef sig ⟨S4096x50000, .f32⟩) main_call1.cst main_call1.v0 (fun x v => Host.reduce FloatOps.maximumf x v reducesTo_S4096x50000_S4096_d1 h_S_) ]

/-- The row maximum joined with a broadcast -∞. -/
abbrev opsJoin {F : FTy → Type} [FloatOps F] : List (HloOp τ sig (Elt F)) :=
  [ TRef.nullary main_call1.cst_0 (constant S_ .f32 0xFF800000#32),
    TRef.unary main_call1.cst_0 main_call1.v1 (broadcastInDim S4096 ![] bcast_S_S4096),
    TRef.binary main_call1.v1 main_call1.v0 main_call1.v2 maximumf ]

/-- The scores minus their row maximum. -/
abbrev opsShift {F : FTy → Type} [FloatOps F] : List (HloOp τ sig (Elt F)) :=
  [ TRef.unary main_call1.v2 main_call1.v3 (broadcastInDim S4096x1 ![0] bcast_S4096_S4096x1_0),
    TRef.unary main_call1.v3 main_call1.v4 (broadcastInDim S4096x50000 ![0, 1] bcast_S4096x1_S4096x50000_0_1),
    TRef.binary (.of main_v2 : TRef sig ⟨S4096x50000, .f32⟩) main_call1.v4 main_call1.v5 subf ]

/-- The row sums of the exponentials of the shifted scores, from 0. -/
abbrev opsSum {F : FTy → Type} [FloatOps F] : List (HloOp τ sig (Elt F)) :=
  [ TRef.unary main_call1.v5 main_call1.v6 Host.exp,
    TRef.nullary main_call1.cst_1 (constant S_ .f32 0x00000000#32),
    TRef.binary main_call1.v6 main_call1.cst_1 main_call1.v7 (fun x v => Host.reduceAdd x v reducesTo_S4096x50000_S4096_d1 h_S_) ]

/-- The shifted scores minus the logarithm of their row's sum. -/
abbrev opsLog {F : FTy → Type} [FloatOps F] : List (HloOp τ sig (Elt F)) :=
  [ TRef.unary main_call1.v7 main_call1.v8 (broadcastInDim S4096x1 ![0] bcast_S4096_S4096x1_0),
    TRef.unary main_call1.v8 main_call1.v9 Host.log,
    TRef.unary main_call1.v9 main_call1.v10 (broadcastInDim S4096x50000 ![0, 1] bcast_S4096x1_S4096x50000_0_1),
    TRef.binary main_call1.v5 main_call1.v10 main_call1.v11 subf ]

theorem ops_split : (ops : List (HloOp τ sig (Elt Ideal)))
    = opsTake ++ (opsMid ++ (opsMax ++ (opsJoin ++ (opsShift ++ (opsSum ++ opsLog))))) := rfl

/-- Two stretches run one after the other. -/
theorem after_app : ∀ (l₁ l₂ : List (HloOp τ sig (Elt Ideal))) (V : Valuation τ sig (Elt Ideal)),
    after (l₁ ++ l₂) V = after l₂ (after l₁ V)
  | [], _, _ => rfl
  | op :: l₁, l₂, V => by rw [List.cons_append, after_cons, after_cons, after_app l₁ l₂]

/-! ## The column lookup and the contraction -/

/-- After the lookup's operations the looked-up columns' buffer holds `taken` of the two arguments read. -/
theorem take_v0 (V : Valuation τ sig (Elt Ideal)) :
    after (opsTake (F := Ideal)) V (main_v0 : DevRef τ sig)
      = taken (V (main_arg0 : DevRef τ sig)) (V (main_arg1 : DevRef τ sig)) := by
  after_results_simp <;> rfl

/-- The lookup's operations leave W2's buffer alone. -/
theorem take_arg2 (V : Valuation τ sig (Elt Ideal)) :
    after (opsTake (F := Ideal)) V (main_arg2 : DevRef τ sig) = V (main_arg2 : DevRef τ sig) := by
  after_results_simp

attribute [local irreducible] FloatOps.dotGeneral in
/-- After the transposition and the contraction the scores' buffer holds the contraction of the transposed
    looked-up columns with W2. -/
theorem mid_v2 (V : Valuation τ sig (Elt Ideal)) :
    after (opsMid (F := Ideal)) V (main_v2 : DevRef τ sig)
      = contractT (V (main_v0 : DevRef τ sig)) (V (main_arg2 : DevRef τ sig)) := by
  after_results_simp <;> rfl

/-! ## The log-softmax, piece by piece -/

attribute [local irreducible] Host.reduce in
theorem max_v0 (V : Valuation τ sig (Elt Ideal)) :
    after (opsMax (F := Ideal)) V (main_call1_v0 : DevRef τ sig)
      = Host.reduce (FloatOps.maximumf (F := Ideal)) (V (main_v2 : DevRef τ sig) : FVec Ideal S4096x50000 .f32)
          (constant (F := Ideal) S_ .f32 0xFF800000#32) reducesTo_S4096x50000_S4096_d1 h_S_ := by
  after_results_simp <;> rfl

theorem max_v2 (V : Valuation τ sig (Elt Ideal)) :
    after (opsMax (F := Ideal)) V (main_v2 : DevRef τ sig) = V (main_v2 : DevRef τ sig) := by
  after_results_simp

theorem join_v2 (V : Valuation τ sig (Elt Ideal)) :
    after (opsJoin (F := Ideal)) V (main_call1_v2 : DevRef τ sig)
      = maximumf (broadcastInDim S4096 ![] bcast_S_S4096 (constant (F := Ideal) S_ .f32 0xFF800000#32))
          (V (main_call1_v0 : DevRef τ sig) : FVec Ideal S4096 .f32) := by
  after_results_simp <;> rfl

theorem join_main_v2 (V : Valuation τ sig (Elt Ideal)) :
    after (opsJoin (F := Ideal)) V (main_v2 : DevRef τ sig) = V (main_v2 : DevRef τ sig) := by
  after_results_simp

theorem shift_v5 (V : Valuation τ sig (Elt Ideal)) :
    after (opsShift (F := Ideal)) V (main_call1_v5 : DevRef τ sig)
      = subf (F := Ideal) (s := S4096x50000) (φ := .f32) (V (main_v2 : DevRef τ sig))
          (broadcastInDim S4096x50000 ![0, 1] bcast_S4096x1_S4096x50000_0_1
            (broadcastInDim S4096x1 ![0] bcast_S4096_S4096x1_0 (V (main_call1_v2 : DevRef τ sig) : FVec Ideal S4096 .f32))) := by
  after_results_simp <;> rfl

attribute [local irreducible] Host.reduceAdd in
theorem sum_v7 (V : Valuation τ sig (Elt Ideal)) :
    after (opsSum (F := Ideal)) V (main_call1_v7 : DevRef τ sig)
      = Host.reduceAdd (Host.exp (V (main_call1_v5 : DevRef τ sig) : FVec Ideal S4096x50000 .f32))
          (constant (F := Ideal) S_ .f32 0x00000000#32) reducesTo_S4096x50000_S4096_d1 h_S_ := by
  after_results_simp <;> rfl

theorem sum_v5 (V : Valuation τ sig (Elt Ideal)) :
    after (opsSum (F := Ideal)) V (main_call1_v5 : DevRef τ sig) = V (main_call1_v5 : DevRef τ sig) := by
  after_results_simp

theorem log_v3 (V : Valuation τ sig (Elt Ideal)) :
    after (opsLog (F := Ideal)) V (main_v3 : DevRef τ sig)
      = subf (F := Ideal) (s := S4096x50000) (φ := .f32) (V (main_call1_v5 : DevRef τ sig))
          (broadcastInDim S4096x50000 ![0, 1] bcast_S4096x1_S4096x50000_0_1
            (Host.log (F := Ideal) (s := S4096x1) (φ := .f32)
              (broadcastInDim S4096x1 ![0] bcast_S4096_S4096x1_0 (V (main_call1_v7 : DevRef τ sig) : FVec Ideal S4096 .f32)))) := by
  after_results_simp <;> rfl

/-! ## The whole fold -/

/-- The fold of the forty operations at the result buffer is `refTerm` of the argument buffers' contents. -/
theorem out_eq (V : Valuation τ sig (Elt Ideal)) :
    after ops V (main_v3 : DevRef τ sig)
      = refTerm (V (main_arg0 : DevRef τ sig)) (V (main_arg1 : DevRef τ sig)) (V (main_arg2 : DevRef τ sig)) := by
  rw [ops_split, after_app, after_app, after_app, after_app, after_app, after_app,
    log_v3, sum_v7, sum_v5, shift_v5, join_v2, join_main_v2, max_v0, max_v2, mid_v2, take_v0, take_arg2]
  rfl

theorem arg0_eq (V : Valuation τ sig (Elt Ideal)) : after ops V (main_arg0 : DevRef τ sig) = V (main_arg0 : DevRef τ sig) := by
  after_results_simp
theorem arg1_eq (V : Valuation τ sig (Elt Ideal)) : after ops V (main_arg1 : DevRef τ sig) = V (main_arg1 : DevRef τ sig) := by
  after_results_simp
theorem arg2_eq (V : Valuation τ sig (Elt Ideal)) : after ops V (main_arg2 : DevRef τ sig) = V (main_arg2 : DevRef τ sig) := by
  after_results_simp

/-- From any memory with zero counters every weakly fair execution of the reference terminates with its result
    at `refTerm` of the arguments' launch contents, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3)
        = refTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v3).trans (out_eq _), (h c main_arg0).trans (arg0_eq _),
      (h c main_arg1).trans (arg1_eq _), (h c main_arg2).trans (arg2_eq _)⟩)
    (run_after (F := Ideal) m ρ)

end Cert.ReferenceIdeal.RefValue

end
-- ==== Proof.Ref.Softmax.lean ====
/-
  The reference's log-softmax read at an index. Row b of the result is the row of scores minus its largest entry M (the
  maximum reduced from -∞ and joined with -∞ once more, which changes nothing), minus the logarithm of the sum over the
  row of the exponentials of the shifted scores.
-/
import proofs.«107669_j24335284699350_2_alg».proof.Proof.Ref.Term
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx

/-- The word 0xFF800000 is -∞. -/
theorem neg_inf_word : Ideal.ofBits .f32 0xFF800000#32 = (⊥ : EReal) := by simp [Ideal.ofBits, Ideal.ieee]

/-- A [4096, 50000] array reduces along axis 1 to a [4096] vector. -/
theorem reduces_rows : S4096x50000.Reduces [1] S4096 := by decide

/-- The index of row b with coordinate k put back on the reduced axis is (b, k). -/
theorem lift_row (b : Fin 4096) (k : Fin 50000) : reduces_rows.lift (ix1 b) k = ix2 b k := by
  funext c
  refine Fin.ext ?_
  match c with
  | ⟨0, _⟩ => rfl
  | ⟨1, _⟩ => rfl

/-- A fold of the maximum from -∞ over n = 50000 coordinates is the supremum over them. -/
theorem fold_max_eq_sup (n : ℕ) (hn : n = 50000) (i0 : EReal) (hi : i0 = ⊥) (f : Fin n → EReal) (g : Fin 50000 → EReal)
    (hfg : ∀ k : Fin n, f k = g (k.cast hn)) :
    (Finset.univ : Finset (Fin n)).fold (FloatOps.maximumf (F := Ideal) (φ := .f32)) i0 f = Finset.univ.sup g := by
  subst hn hi
  obtain rfl : f = g := funext hfg
  rfl

/-- A sum over n = 50000 coordinates, re-indexed. -/
theorem sum_cast (n : ℕ) (hn : n = 50000) (f : Fin n → EReal) (g : Fin 50000 → EReal)
    (hfg : ∀ k : Fin n, f k = g (k.cast hn)) : ∑ k, f k = ∑ v, g v := by
  subst hn
  exact Finset.sum_congr rfl fun k _ => hfg k

/-- The maximum reduced from -∞ along a row is the supremum of the row. -/
theorem rowMax_apply (L : FVec Ideal S4096x50000 .f32) (b : Fin 4096) :
    Host.reduce (FloatOps.maximumf (F := Ideal)) L (constant (F := Ideal) S_ .f32 0xFF800000#32)
        reducesTo_S4096x50000_S4096_d1 h_S_ (ix1 b)
      = Finset.univ.sup fun v' : Fin 50000 => L (ix2 b v') := by
  rw [Host.reduce_eq_fold_single _ L _ reducesTo_S4096x50000_S4096_d1 reduces_rows h_S_ (ix1 b)]
  exact fold_max_eq_sup _ rfl _ neg_inf_word _ _ fun k => congrArg L (lift_row b (k.cast rfl))

/-- A row's entry minus the row's supremum. -/
theorem shifted_apply (L : FVec Ideal S4096x50000 .f32) (b : Fin 4096) (v : Fin 50000) :
    shifted L (ix2 b v) = L (ix2 b v) - Finset.univ.sup fun v' : Fin 50000 => L (ix2 b v') := by
  unfold shifted
  rw [subf_apply]
  rw [broadcastInDim_apply ![0, 1] bcast_S4096x1_S4096x50000_0_1 _ (ix2 b v) (ix2 b (0 : Fin 1))
    (fun a => match a with
      | ⟨0, _⟩ => by rw [if_neg (by show ¬((4096 : ℕ) = 1); omega)]; rfl
      | ⟨1, _⟩ => by rw [if_pos (by show (1 : ℕ) = 1; rfl)]; rfl)]
  rw [broadcastInDim_apply ![0] bcast_S4096_S4096x1_0 _ (ix2 b (0 : Fin 1)) (ix1 b)
    (fun a => match a with | ⟨0, _⟩ => by rw [if_neg (by show ¬((4096 : ℕ) = 1); omega)]; rfl)]
  rw [maximumf_apply]
  show L (ix2 b v) - max (Ideal.ofBits .f32 0xFF800000#32)
    (Host.reduce (FloatOps.maximumf (F := Ideal)) L (constant (F := Ideal) S_ .f32 0xFF800000#32)
      reducesTo_S4096x50000_S4096_d1 h_S_ (ix1 b)) = _
  rw [rowMax_apply, neg_inf_word, max_eq_right bot_le]

/-- The sum reduced from 0 along a row of the exponentials of the shifted array. -/
theorem sumExp_apply (L : FVec Ideal S4096x50000 .f32) (b : Fin 4096) :
    Host.reduceAdd (Host.exp (shifted L)) (constant (F := Ideal) S_ .f32 0x00000000#32) reducesTo_S4096x50000_S4096_d1 h_S_ (ix1 b)
      = ∑ v' : Fin 50000, Ideal.exp (shifted L (ix2 b v')) := by
  show Ideal.hostReduceAdd reducesTo_S4096x50000_S4096_d1 (Host.exp (shifted L)) (Ideal.ofBits .f32 0x00000000#32) (ix1 b) = _
  rw [Ideal.hostReduceAdd_single reducesTo_S4096x50000_S4096_d1 reduces_rows, Ideal.ofBits_zero_f32, zero_add]
  exact sum_cast _ rfl _ _ fun k => congrArg (Host.exp (shifted L)) (lift_row b (k.cast rfl))

/-- The host's logarithm of an array, at an index. -/
theorem hostLog_apply {s : Shape} (X : FVec Ideal s .f32) (i : s.Idx) : Host.log X i = Ideal.log (X i) := rfl

/-- THE LOG-SOFTMAX AT AN INDEX: the score minus the row's supremum, minus the logarithm of the row's sum of the
    exponentials of the scores so shifted. -/
theorem logSoftmax_apply (L : FVec Ideal S4096x50000 .f32) (b : Fin 4096) (v : Fin 50000) :
    logSoftmax L (ix2 b v)
      = (L (ix2 b v) - Finset.univ.sup fun v' : Fin 50000 => L (ix2 b v'))
        - Ideal.log (∑ v' : Fin 50000, Ideal.exp (L (ix2 b v') - Finset.univ.sup fun v'' : Fin 50000 => L (ix2 b v''))) := by
  unfold logSoftmax
  rw [subf_apply]
  rw [broadcastInDim_apply ![0, 1] bcast_S4096x1_S4096x50000_0_1 _ (ix2 b v) (ix2 b (0 : Fin 1))
    (fun a => match a with
      | ⟨0, _⟩ => by rw [if_neg (by show ¬((4096 : ℕ) = 1); omega)]; rfl
      | ⟨1, _⟩ => by rw [if_pos (by show (1 : ℕ) = 1; rfl)]; rfl)]
  rw [hostLog_apply]
  rw [broadcastInDim_apply ![0] bcast_S4096_S4096x1_0 _ (ix2 b (0 : Fin 1)) (ix1 b)
    (fun a => match a with | ⟨0, _⟩ => by rw [if_neg (by show ¬((4096 : ℕ) = 1); omega)]; rfl)]
  rw [sumExp_apply, shifted_apply]
  simp only [shifted_apply]

end Cert.ReferenceIdeal.RefValue

end
-- ==== Proof.Ref.Take.lean ====
/-
  The column lookup read at an index. The looked-up index of batch row b is the word x b moved up by 50000 when it
  is negative; under the precondition -50000 ≤ x b < 50000 that word lies in 0 … 49999, so the range check of every
  row holds and the select never takes the filler word. The gather reads column (index, signed, clamped into
  0 … 49999) of W1 on each of the 300 rows: entry (e, b) of the looked-up array is W1[e, col x b].
-/
import proofs.«107669_j24335284699350_2_alg».proof.Proof.Ref.Term
import proofs.«107669_j24335284699350_2_alg».proof.Proof.Spec
import Idealize.ShloMosaic.Lib.Affine
import Idealize.ShloMosaic.PureOps.Reduce
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.ValueIdx

/-! ## The moved index is in range -/

/-- Adding 50000 to a negative word no smaller than -50000 does not wrap. -/
theorem toInt_addi_50000 (w : BitVec 32) (h : -50000 ≤ w.toInt ∧ w.toInt < 0) :
    (IntOp.addi w 50000#32).toInt = w.toInt + 50000 := by
  unfold IntOp.addi
  rw [BitVec.toInt_add, show (50000#32 : BitVec 32).toInt = 50000 from by decide]
  simp only [Int.bmod]
  omega

/-- A word in -50000 … 49999, moved up by 50000 when negative, lies in 0 … 49999. -/
theorem wrapped_range (w : BitVec 32) (h : -50000 ≤ w.toInt ∧ w.toInt < 50000) :
    0 ≤ (Cert.Spec.wrapped w).toInt ∧ (Cert.Spec.wrapped w).toInt ≤ 49999 := by
  unfold Cert.Spec.wrapped
  by_cases hneg : w.toInt < 0
  · have hc : IntOp.cmpi .slt w 0#32 = 1#1 := IntOp.cmpi_slt.mpr (by simpa using hneg)
    rw [hc, select_one, toInt_addi_50000 w ⟨h.1, hneg⟩]
    omega
  · have hc : IntOp.cmpi .slt w 0#32 = 0#1 :=
      eq_zero_of_ne_one (fun h1 => hneg (by simpa using IntOp.cmpi_slt.mp h1))
    rw [hc, select_zero]; omega

/-! ## The index column and the range check at an index -/

/-- The index column at row b is the moved index of x b. -/
theorem idxCol_apply (x : IVec S4096 32) (b : Fin 4096) (u : Fin 1) :
    idxCol x (ix2 b u) = Cert.Spec.wrapped (x (ix1 b)) := by
  unfold idxCol
  rw [broadcastInDim_apply ![0] bcast_S4096_S4096x1_0 _ (ix2 b u) (ix1 b) (fun a => match a with | ⟨0, _⟩ => rfl)]
  rfl

/-- An and-fold from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- Under the precondition every batch row's index passes the range check. -/
theorem inRange_apply (x : IVec S4096 32)
    (hx : ∀ b : Fin 4096, -50000 ≤ (x (ix1 b)).toInt ∧ (x (ix1 b)).toInt < 50000) (j : S4096.Idx) :
    inRange x j = 1#1 := by
  unfold inRange
  rw [Host.reduce_eq_foldl]
  refine foldl_andi_one _ _ fun i _ => ?_
  obtain ⟨b, u, rfl⟩ : ∃ (b : Fin 4096) (u : Fin 1), i = ix2 b u := ⟨i 0, i 1, eq_ix2 i⟩
  show IntOp.andi (IntOp.cmpi .sge (idxCol x (ix2 b u)) 0#32) (IntOp.cmpi .sle (idxCol x (ix2 b u)) 49999#32) = 1#1
  have hr := wrapped_range (x (ix1 b)) (hx b)
  rw [idxCol_apply, IntOp.andi_eq_one, IntOp.cmpi_sge, IntOp.cmpi_sle,
    show (0#32 : BitVec 32).toInt = 0 from by decide, show (49999#32 : BitVec 32).toInt = 49999 from by decide]
  exact hr

/-! ## The gather at an index -/

local notation "GD" => gather_S300x50000_S4096x1_S300x4096_0_1_n_n_1_1_3001

/-- On the row axis the gather keeps the whole slice: the operand's row is the result's row. -/
theorem gather_row_coord {w : Nat} (idx : IVec S4096x1 w) (e : Fin 300) (b : Fin 4096) :
    (GD).start (ix2 e b) idx (0 : Fin S300x50000.rank) + (GD).batchCoord (ix2 e b) (0 : Fin S300x50000.rank)
      + (GD).offCoord (ix2 e b) (0 : Fin S300x50000.rank) = e.val := by
  rw [GatherDims.batchCoord_eq_zero _ _ _ List.not_mem_nil, Nat.add_zero]
  unfold GatherDims.start
  rw [dif_neg (show ¬(0 : Fin S300x50000.rank) ∈ (GD).startIndexMap by decide), Nat.zero_add]
  unfold GatherDims.offCoord
  rw [dif_pos (show (0 : Fin S300x50000.rank) ∈ (GD).sKept by decide)]
  rfl

/-- On the column axis the slice has one column, the one the start index of the batch row names, read signed and clamped
    into 0 … 49999. -/
theorem gather_col_coord {w : Nat} (idx : IVec S4096x1 w) (e : Fin 300) (b : Fin 4096) :
    (GD).start (ix2 e b) idx (1 : Fin S300x50000.rank) + (GD).batchCoord (ix2 e b) (1 : Fin S300x50000.rank)
      + (GD).offCoord (ix2 e b) (1 : Fin S300x50000.rank) = min (idx (ix2 b (0 : Fin 1))).toInt.toNat 49999 := by
  rw [GatherDims.batchCoord_eq_zero _ _ _ List.not_mem_nil, Nat.add_zero,
    GatherDims.offCoord_eq_zero _ _ _ (show ¬(1 : Fin S300x50000.rank) ∈ (GD).sKept by decide), Nat.add_zero]
  unfold GatherDims.start
  rw [dif_pos (show (1 : Fin S300x50000.rank) ∈ (GD).startIndexMap by decide)]
  have hsi : (GD).siIdx (ix2 e b)
      ⟨List.idxOf (1 : Fin S300x50000.rank) (GD).startIndexMap, List.idxOf_lt_length_iff.2 (by decide)⟩ = ix2 b (0 : Fin 1) := by
    funext c; refine Fin.ext ?_
    match c with
    | ⟨0, _⟩ => rfl
    | ⟨1, _⟩ => rfl
  rw [hsi]
  rfl

/-- The gather of one column per batch row, read at (e, b): W1 at row e and at the column the start index of row b
    names, read signed and clamped into 0 … 49999. -/
theorem gather_col_apply {α : Type} {w : Nat} (W1 : S300x50000.Idx → α) (idx : IVec S4096x1 w) (e : Fin 300) (b : Fin 4096)
    (k : Fin 50000) (hk : k.val = min (idx (ix2 b (0 : Fin 1))).toInt.toNat 49999) :
    Host.gather gather_S300x50000_S4096x1_S300x4096_0_1_n_n_1_1_3001 W1 idx (ix2 e b) = W1 (ix2 e k) := by
  unfold Host.gather
  refine congrArg W1 (funext fun a => Fin.ext ?_)
  match a with
  | ⟨0, _⟩ => exact gather_row_coord idx e b
  | ⟨1, _⟩ => exact (gather_col_coord idx e b).trans hk.symm

/-! ## The looked-up columns at an index -/

/-- Under the precondition entry (e, b) of the looked-up array is W1 at row e, column `col x b`. -/
theorem taken_apply (x : IVec S4096 32) (W1 : FVec Ideal S300x50000 .f32)
    (hx : ∀ b : Fin 4096, -50000 ≤ (x (ix1 b)).toInt ∧ (x (ix1 b)).toInt < 50000) (e : Fin 300) (b : Fin 4096) :
    taken x W1 (ix2 e b) = W1 (ix2 e (Cert.Spec.col x b)) := by
  unfold taken
  rw [select_apply,
    broadcastInDim_apply ![1] bcast_S4096_S300x4096_1 (inRange x) (ix2 e b) (ix1 b) (fun a => match a with | ⟨0, _⟩ => rfl),
    inRange_apply x hx, select_one]
  exact gather_col_apply W1 (idxCol x) e b (Cert.Spec.col x b) (by rw [idxCol_apply]; rfl)

end Cert.ReferenceIdeal.RefValue

end
-- ==== Proof.Ref.Scores.lean ====
/-
  The reference's scores read at an index. The looked-up columns, a [300, 4096] array, are transposed and contracted
  with W2 over the 300 embedding coordinates: entry (b, v) is ∑ e, A[e, b] · W2[v, e]. With the looked-up array read
  at an index (entry (e, b) is W1[e, col x b]) that is the specification's score of batch row b against word v.
-/
import proofs.«107669_j24335284699350_2_alg».proof.Proof.Ref.Term
import proofs.«107669_j24335284699350_2_alg».proof.Proof.Ref.Take
import proofs.«107669_j24335284699350_2_alg».proof.Proof.Spec
import Idealize.ShloMosaic.Lib.ValueLayout
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx

local notation "DR" => dot_S4096x300_S50000x300_S4096x50000_1_1_0_0_n_n

/-- The left operand's index at output position i and contraction position k: (row of i, k). -/
theorem lhs_DR_0 (i : S4096x50000.Idx) (k : (DR).contr.Idx) : ((DR).lhsIdx i k 0).val = (i 0).val := by
  unfold DotDims.lhsIdx
  rw [dif_neg (show ¬(0 : Fin S4096x300.rank) ∈ (DR).lhsBatch by decide),
    dif_pos (show (0 : Fin S4096x300.rank) ∈ (DR).lhsNonContracting by decide)]
  rfl
theorem lhs_DR_1 (i : S4096x50000.Idx) (k : (DR).contr.Idx) : ((DR).lhsIdx i k 1).val = (k ⟨0, by decide⟩).val :=
  (DR).lhsIdx_val_of_single rfl i k
/-- The right operand's: (column of i, k). -/
theorem rhs_DR_0 (i : S4096x50000.Idx) (k : (DR).contr.Idx) : ((DR).rhsIdx i k 0).val = (i 1).val := by
  unfold DotDims.rhsIdx
  rw [dif_neg (show ¬(0 : Fin S50000x300.rank) ∈ (DR).rhsBatch by decide),
    dif_pos (show (0 : Fin S50000x300.rank) ∈ (DR).rhsNonContracting by decide)]
  rfl
theorem rhs_DR_1 (i : S4096x50000.Idx) (k : (DR).contr.Idx) : ((DR).rhsIdx i k 1).val = (k ⟨0, by decide⟩).val :=
  (DR).rhsIdx_val_of_single rfl i k

/-- The host's contraction of a [4096, 300] array with a [50000, 300] array over their 300 columns, at (b, v). -/
theorem dot_DR_apply (l : FVec Ideal S4096x300 .f32) (r : FVec Ideal S50000x300 .f32) (b : Fin 4096) (v : Fin 50000) :
    Host.dotGeneral (F := Ideal) DR none l r (ix2 b v) = ∑ e : Fin 300, l (ix2 b e) * r (ix2 v e) := by
  refine (Ideal.dotGeneral_apply DR none .single l r (ix2 b v)).trans ?_
  rw [← Equiv.sum_comp (contrEquiv1 DR 300 rfl rfl).symm]
  refine Finset.sum_congr rfl fun e _ => ?_
  have hk := contrEquiv1_symm_val DR 300 rfl rfl e
  have el : (DR).lhsIdx (ix2 b v) ((contrEquiv1 DR 300 rfl rfl).symm e) = ix2 b e := funext fun a => Fin.ext (by
    match a with
    | ⟨0, _⟩ => exact lhs_DR_0 _ _
    | ⟨1, _⟩ => exact (lhs_DR_1 _ _).trans hk)
  have er : (DR).rhsIdx (ix2 b v) ((contrEquiv1 DR 300 rfl rfl).symm e) = ix2 v e := funext fun a => Fin.ext (by
    match a with
    | ⟨0, _⟩ => exact rhs_DR_0 _ _
    | ⟨1, _⟩ => exact (rhs_DR_1 _ _).trans hk)
  rw [el, er]

/-- The looked-up columns transposed and contracted with W2, at (b, v). -/
theorem contractT_apply (A : FVec Ideal S300x4096 .f32) (W2 : FVec Ideal S50000x300 .f32) (b : Fin 4096) (v : Fin 50000) :
    contractT A W2 (ix2 b v) = ∑ e : Fin 300, A (ix2 e b) * W2 (ix2 v e) := by
  unfold contractT
  rw [dot_DR_apply]
  exact Finset.sum_congr rfl fun e _ => by rw [transpose_ix2_apply]

/-- Under the precondition the reference's scores are the specification's. -/
theorem logits_apply (x : IVec S4096 32) (W1 : FVec Ideal S300x50000 .f32) (W2 : FVec Ideal S50000x300 .f32)
    (hx : ∀ b : Fin 4096, -50000 ≤ (x (ix1 b)).toInt ∧ (x (ix1 b)).toInt < 50000) (b : Fin 4096) (v : Fin 50000) :
    logits x W1 W2 (ix2 b v) = Cert.Spec.score x W1 W2 b v := by
  unfold logits
  rw [contractT_apply]
  unfold Cert.Spec.score
  exact Finset.sum_congr rfl fun e _ => by rw [taken_apply x W1 hx]

end Cert.ReferenceIdeal.RefValue

end
-- ==== Proof.Ref.Value.lean ====
/-
  The reference's value: its result term is the specification's function of the three arguments. Entry (b, v) of
  the term is the log-softmax of row b of the scores read at v; the score of row b against word v is
  ∑ e < 300, W1[e, col x b] · W2[v, e] because, under -50000 ≤ x b < 50000, every row's looked-up index passes
  the range check, so the select keeps the gathered column; and the log-softmax of a row is the row minus its
  supremum, minus the logarithm of the sum of the exponentials of those differences (the maximum is reduced from
  -∞ and joined with -∞, which changes nothing; the sum starts from 0).
-/
import proofs.«107669_j24335284699350_2_alg».proof.Proof.Ref.Run
import proofs.«107669_j24335284699350_2_alg».proof.Proof.Ref.Softmax
import proofs.«107669_j24335284699350_2_alg».proof.Proof.Ref.Scores
import proofs.«107669_j24335284699350_2_alg».proof.Proof.Spec

noncomputable section

namespace Cert.ReferenceIdeal.RefValue

open Cert.ReferenceIdeal Idealize.ShloMosaic Idealize.ShloMosaic.ValueIdx

/-- Under the precondition on the indices the reference's result term is the specification's result array. -/
theorem refTerm_eq (x : IVec ⟨1, ![4096]⟩ 32) (W1 : FVec Ideal ⟨2, ![300, 50000]⟩ .f32) (W2 : FVec Ideal ⟨2, ![50000, 300]⟩ .f32)
    (hx : ∀ b : Fin 4096, -50000 ≤ (x (ValueIdx.ix1 b)).toInt ∧ (x (ValueIdx.ix1 b)).toInt < 50000) :
    refTerm x W1 W2 = Cert.Spec.out x W1 W2 := by
  funext j
  obtain ⟨b, v, rfl⟩ : ∃ (b : Fin 4096) (v : Fin 50000), j = ix2 b v := ⟨j 0, j 1, eq_ix2 j⟩
  rw [Cert.Spec.out_apply]
  unfold refTerm
  rw [logSoftmax_apply]
  simp only [logits_apply x W1 W2 hx, Cert.Spec.outAt, Cert.Spec.rowSum, Cert.Spec.rowMax]

end Cert.ReferenceIdeal.RefValue

end
-- ==== Proof.K.FrameBody0.lean ====
/-
  The statistics kernel's body is safe on any contents. Every load and store of the body is the whole-buffer
  rectangle of one of the five memrefs it is handed (the two operand blocks, the per-row result block and the two
  scratch accumulators, the running row maximum and the running row sum), and its two conditionals (the reset at
  the first vocabulary tile, the final store at the last) read only the vocabulary-tile coordinate. So, holding
  the five buffers whole at ANY contents, the body runs to its return without a fault, whichever way the
  conditionals go, and hands the five buffers back at contents this module does not name. Stated for every float
  instance and every resource algebra.
-/
import proofs.«107669_j24335284699350_2_alg».proof.Proof.Gen.Kernel.Launch
import proofs.«107669_j24335284699350_2_alg».proof.Proof.Gen.Kernel.Skeleton
import proofs.«107669_j24335284699350_2_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {U : Type} [URA U]

local notation "𝕄" => MT nD τ sig Unit (Elt F) ℕ U ℕ

set_option maxHeartbeats 1000000 in
/-- The statistics kernel's body is SAFE on any five whole memrefs held at any contents: whichever way its two
    conditionals on the vocabulary-tile coordinate go, every load and store is a whole-buffer rectangle of a
    buffer the body holds, so it runs to its return and hands the five buffers back, at contents not named. -/
theorem safe0 (c : Dev nD) (E : Set ℕ) (i : grid0.Coords)
    (a0 : Memref sig .tc .vmem S2048x384 .bf16) (h0 : a0.IsWhole) (a1 : Memref sig .tc .vmem S2048x384 .bf16) (h1 : a1.IsWhole)
    (a2 : Memref sig .tc .vmem S2048x1 .f32) (h2 : a2.IsWhole) (a3 : Memref sig .tc .vmem S2048x1 .f32) (h3 : a3.IsWhole)
    (a4 : Memref sig .tc .vmem S2048x1 .f32) (h4 : a4.IsWhole)
    (K : PUnit → sProp 𝕄) :
    iprop((∃ d, owns (c : Thread nD τ) a0 fullShare d) ∗ (∃ d, owns (c : Thread nD τ) a1 fullShare d)
        ∗ (∃ d, owns (c : Thread nD τ) a2 fullShare d) ∗ (∃ d, owns (c : Thread nD τ) a3 fullShare d)
        ∗ (∃ d, owns (c : Thread nD τ) a4 fullShare d)
        ∗ (iprop((∃ d, owns (c : Thread nD τ) a0 fullShare d) ∗ (∃ d, owns (c : Thread nD τ) a1 fullShare d)
            ∗ (∃ d, owns (c : Thread nD τ) a2 fullShare d) ∗ (∃ d, owns (c : Thread nD τ) a3 fullShare d)
            ∗ (∃ d, owns (c : Thread nD τ) a4 fullShare d)) -∗ K ⟨⟩))
      ⊢ wp frame (wpE (defs₀ (F := F)) Variants.none c none) E (cc0__stats_kernel i a0 h0 a1 h1 a2 h2 a3 h3 a4 h4) K := by
  simp only [cc0__stats_kernel_eq_skeleton]; unfold cc0__stats_kernel_skel
  simp only [k0_part1_eq_skeleton]; unfold k0_part1_skel
  unfold owns
  iintro ⟨⟨%d0, %f0, -, H0⟩, ⟨%d1, %f1, -, H1⟩, ⟨%d2, %f2, -, H2⟩, ⟨%d3, %f3, -, H3⟩, ⟨%d4, %f4, -, H4⟩, Hk⟩
  by_cases hc1 : Scalar.cmpi .ne (Scalar.extui (Scalar.cmpi .eq (BitVec.ofNat 32 (i 1).val) 0#32)) 0#32 = 1#1 <;>
  by_cases hc2 : k0_cond2 i = 1#1
  all_goals
    sl_exec (disch := first | exact hc1 | exact hc2)
    sl_step
    iapply Hk
    isplitl [H0]
    · iexists _, _; isplitr
      swap; · iexact H0
      ipureintro; rfl
    isplitl [H1]
    · iexists _, _; isplitr
      swap; · iexact H1
      ipureintro; rfl
    isplitl [H2]
    · iexists _, _; isplitr
      swap; · iexact H2
      ipureintro; rfl
    isplitl [H3]
    · iexists _, _; isplitr
      swap; · iexact H3
      ipureintro; rfl
    iexists _, _; isplitr
    swap; · iexact H4
    ipureintro; rfl

end Cert.Kernel.Hand
end
-- ==== Proof.K.FrameBody1.lean ====
/-
  The output kernel's body is safe on any contents. It loads its three operand blocks and its result block, each
  through the whole-buffer rectangle, and stores the result block whole; it has no conditional. So, holding the
  four buffers whole at ANY contents, the body runs to its return without a fault and hands the four buffers back
  at contents this module does not name. Stated for every float instance and every resource algebra.
-/
import proofs.«107669_j24335284699350_2_alg».proof.Proof.Gen.Kernel.Launch
import proofs.«107669_j24335284699350_2_alg».proof.Proof.Gen.Kernel.Skeleton
import proofs.«107669_j24335284699350_2_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {U : Type} [URA U]

local notation "𝕄" => MT nD τ sig Unit (Elt F) ℕ U ℕ

set_option maxHeartbeats 1000000 in
/-- The output kernel's body is SAFE on any four whole memrefs held at any contents: it loads the four buffers
    whole and stores the last one whole, so it runs to its return and hands the four back, at contents not named. -/
theorem safe1 (c : Dev nD) (E : Set ℕ) (i : grid1.Coords)
    (a0 : Memref sig .tc .vmem S2048x384 .bf16) (h0 : a0.IsWhole) (a1 : Memref sig .tc .vmem S2048x384 .bf16) (h1 : a1.IsWhole)
    (a2 : Memref sig .tc .vmem S2048x1 .f32) (h2 : a2.IsWhole) (a3 : Memref sig .tc .vmem S2048x2048 .f32) (h3 : a3.IsWhole)
    (K : PUnit → sProp 𝕄) :
    iprop((∃ d, owns (c : Thread nD τ) a0 fullShare d) ∗ (∃ d, owns (c : Thread nD τ) a1 fullShare d)
        ∗ (∃ d, owns (c : Thread nD τ) a2 fullShare d) ∗ (∃ d, owns (c : Thread nD τ) a3 fullShare d)
        ∗ (iprop((∃ d, owns (c : Thread nD τ) a0 fullShare d) ∗ (∃ d, owns (c : Thread nD τ) a1 fullShare d)
            ∗ (∃ d, owns (c : Thread nD τ) a2 fullShare d) ∗ (∃ d, owns (c : Thread nD τ) a3 fullShare d)) -∗ K ⟨⟩))
      ⊢ wp frame (wpE (defs₀ (F := F)) Variants.none c none) E (cc1__output_kernel i a0 h0 a1 h1 a2 h2 a3 h3) K := by
  simp only [cc1__output_kernel_eq_skeleton]; unfold cc1__output_kernel_skel
  unfold owns
  iintro ⟨⟨%d0, %f0, -, H0⟩, ⟨%d1, %f1, -, H1⟩, ⟨%d2, %f2, -, H2⟩, ⟨%d3, %f3, -, H3⟩, Hk⟩
  sl_exec
  sl_step
  iapply Hk
  isplitl [H0]
  · iexists _, _; isplitr
    swap; · iexact H0
    ipureintro; rfl
  isplitl [H1]
  · iexists _, _; isplitr
    swap; · iexact H1
    ipureintro; rfl
  isplitl [H2]
  · iexists _, _; isplitr
    swap; · iexact H2
    ipureintro; rfl
  iexists _, _; isplitr
  swap; · iexact H3
  ipureintro; rfl

end Cert.Kernel.Hand
end
-- ==== Proof.K.FrameData.lean ====
/-
  Proof data of the two pipelined regions for a claim that reads no contents. For each region: the windowed
  arrays as the region finds them (a parameter, the buffer contents at the region's entry); a relation on each
  staging buffer's contents before and after the body that holds of ANY two contents; the invariant between grid
  points — the scoped buffers no window stages, the statistics kernel's two carried scratch accumulators among
  them, each at some contents, and the generator register —; full shares; nothing owed. The body obligation at
  every grid point then follows from the bodies' safety on any contents: what the staging buffers and the scratch
  hold never matters to whether the body runs.
-/
import proofs.«107669_j24335284699350_2_alg».proof.Proof.K.FrameBody0
import proofs.«107669_j24335284699350_2_alg».proof.Proof.K.FrameBody1
import proofs.«107669_j24335284699350_2_alg».proof.Proof.Gen.Kernel.Regions

set_option maxRecDepth 16384

noncomputable section

namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]
variable {U : Type} [URA U]

local notation "𝕄" => MT nD τ sig Unit (Elt F) ℕ U ℕ

-- the buffer contents a region is entered from, per core: the parameter both regions' proof data are stated at
variable (V : (c : Dev nD) → (b : Ref sig .tc) → Buf (Elt F) ((c : Thread nD τ).loc b))

/-! ## Region 0: the statistics kernel -/

/-- Relational proof data of the statistics region: the arrays as the region finds them; NOTHING said of what the
    body leaves in any staging buffer (the frame reads no contents); the invariant is the scoped rest — the two
    carried scratch buffers among it, at contents not named — and the generator register; nothing owed. -/
def rdat0 (c : Dev nD) : RDat τ (Elt F) Unit ℕ U ℕ cfg0 c where
  A w := V c (Pipeline.arrRef spec0 w)
  after _ _ _ _ := True
  Φ _ := Pipeline.ΦA spec0 c
  q _ := fullShare
  owed _ := 0

/-- The invariant with the two scratch operands as whole memrefs owned at some contents. -/
theorem PhiA0_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d)
          ∗ (∃ d, owns (c : Thread nD τ) (Memref.whole cc1_stg0_0) fullShare d) ∗ (∃ d, owns (c : Thread nD τ) (Memref.whole cc1_stg0_1) fullShare d)
          ∗ (∃ d, owns (c : Thread nD τ) (Memref.whole cc1_stg1_0) fullShare d) ∗ (∃ d, owns (c : Thread nD τ) (Memref.whole cc1_stg1_1) fullShare d)
          ∗ (∃ d, owns (c : Thread nD τ) (Memref.whole cc1_stg2_0) fullShare d) ∗ (∃ d, owns (c : Thread nD τ) (Memref.whole cc1_stg2_1) fullShare d)
          ∗ (∃ d, owns (c : Thread nD τ) (Memref.whole cc1_stg3_0) fullShare d) ∗ (∃ d, owns (c : Thread nD τ) (Memref.whole cc1_stg3_1) fullShare d))
        ∗ (∃ r, prngReg c r)) := by
  unfold Pipeline.ΦA; rw [scopedRest0_eq]; simp only [owns_whole]; try rfl

/-- The body obligation of the statistics region: at every point, whatever the staging buffers hold, the body
    runs (it is safe on any contents) and hands everything back. -/
theorem body_obligation0 (c : Dev nD) : (rdat0 (U := U) V c).BodyObligation (defs₀ (F := F)) Variants.none () Set.univ := fun t Y _ => by
  rw [bigSep_W0, bigSep_W0]
  show iprop(Pipeline.ΦA spec0 c ∗ (rdat0 (U := U) V c).owesAt () t.castSucc
        ∗ owns (c : Thread nD τ) (st0_0 t) fullShare (Y 0) ∗ owns (c : Thread nD τ) (st0_1 t) fullShare (Y 1) ∗ owns (c : Thread nD τ) (st0_2 t) fullShare (Y 2))
      ⊢ wp frame (wpE (defs₀ (F := F)) Variants.none c none) Set.univ (bodyAt0 t) (fun _ => iprop(Pipeline.ΦA spec0 c ∗ (rdat0 (U := U) V c).owesAt () t.castSucc
        ∗ (∃ X, ⌜True⌝ ∗ owns (c : Thread nD τ) (st0_0 t) fullShare X) ∗ (∃ X, ⌜True⌝ ∗ owns (c : Thread nD τ) (st0_1 t) fullShare X)
        ∗ (∃ X, ⌜True⌝ ∗ owns (c : Thread nD τ) (st0_2 t) fullShare X)))
  rw [PhiA0_eq]
  unfold bodyAt0
  iintro ⟨⟨⟨HS0, HS1, Hrest⟩, Hp⟩, Ho, H0, H1, H2⟩
  iapply (safe0 c Set.univ _ _ _ _ _ _ _ _ _ _ _ _)
  isplitl [H0]; · iexists _; iexact H0
  isplitl [H1]; · iexists _; iexact H1
  isplitl [H2]; · iexists _; iexact H2
  isplitl [HS0]; · iexact HS0
  isplitl [HS1]; · iexact HS1
  iintro ⟨H0, H1, H2, HS0, HS1⟩
  isplitl [HS0 HS1 Hrest Hp]
  · isplitr [Hp]
    · isplitl [HS0]; · iexact HS0
      isplitl [HS1]; · iexact HS1
      iexact Hrest
    · iexact Hp
  isplitl [Ho]; · iexact Ho
  isplitl [H0]
  · icases H0 with ⟨%X, H0⟩; iexists X; isplitr; · ipureintro; trivial
    iexact H0
  isplitl [H1]
  · icases H1 with ⟨%X, H1⟩; iexists X; isplitr; · ipureintro; trivial
    iexact H1
  icases H2 with ⟨%X, H2⟩; iexists X; isplitr; · ipureintro; trivial
  iexact H2

/-! ## Region 1: the output kernel -/

/-- Relational proof data of the output region, as for the statistics region; it carries no scratch. -/
def rdat1 (c : Dev nD) : RDat τ (Elt F) Unit ℕ U ℕ cfg1 c where
  A w := V c (Pipeline.arrRef spec1 w)
  after _ _ _ _ := True
  Φ _ := Pipeline.ΦA spec1 c
  q _ := fullShare
  owed _ := 0

/-- The body obligation of the output region. -/
theorem body_obligation1 (c : Dev nD) : (rdat1 (U := U) V c).BodyObligation (defs₀ (F := F)) Variants.none () Set.univ := fun t Y _ => by
  rw [bigSep_W1, bigSep_W1]
  show iprop(Pipeline.ΦA spec1 c ∗ (rdat1 (U := U) V c).owesAt () t.castSucc
        ∗ owns (c : Thread nD τ) (st1_0 t) fullShare (Y 0) ∗ owns (c : Thread nD τ) (st1_1 t) fullShare (Y 1) ∗ owns (c : Thread nD τ) (st1_2 t) fullShare (Y 2)
        ∗ owns (c : Thread nD τ) (st1_3 t) fullShare (Y 3))
      ⊢ wp frame (wpE (defs₀ (F := F)) Variants.none c none) Set.univ (bodyAt1 t) (fun _ => iprop(Pipeline.ΦA spec1 c ∗ (rdat1 (U := U) V c).owesAt () t.castSucc
        ∗ (∃ X, ⌜True⌝ ∗ owns (c : Thread nD τ) (st1_0 t) fullShare X) ∗ (∃ X, ⌜True⌝ ∗ owns (c : Thread nD τ) (st1_1 t) fullShare X)
        ∗ (∃ X, ⌜True⌝ ∗ owns (c : Thread nD τ) (st1_2 t) fullShare X) ∗ (∃ X, ⌜True⌝ ∗ owns (c : Thread nD τ) (st1_3 t) fullShare X)))
  unfold bodyAt1
  iintro ⟨HΦ, Ho, H0, H1, H2, H3⟩
  iapply (safe1 c Set.univ _ _ _ _ _ _ _ _ _ _)
  isplitl [H0]; · iexists _; iexact H0
  isplitl [H1]; · iexists _; iexact H1
  isplitl [H2]; · iexists _; iexact H2
  isplitl [H3]; · iexists _; iexact H3
  iintro ⟨H0, H1, H2, H3⟩
  isplitl [HΦ]; · iexact HΦ
  isplitl [Ho]; · iexact Ho
  isplitl [H0]
  · icases H0 with ⟨%X, H0⟩; iexists X; isplitr; · ipureintro; trivial
    iexact H0
  isplitl [H1]
  · icases H1 with ⟨%X, H1⟩; iexists X; isplitr; · ipureintro; trivial
    iexact H1
  isplitl [H2]
  · icases H2 with ⟨%X, H2⟩; iexists X; isplitr; · ipureintro; trivial
    iexact H2
  icases H3 with ⟨%X, H3⟩; iexists X; isplitr; · ipureintro; trivial
  iexact H3

end Cert.Kernel.Hand
end
-- ==== Proof.K.FrameState.lean ====
/-
  What a core holds between two items of @main, and the join of a region's arrays back into the unscoped buffers.
  The resource algebra is two copies of the pipeline library's: the left copy funds the statistics region in the
  launch theorem's own bookkeeping; the right copy is dealt at launch into the thread state and carried to the
  output region, whose entry contents — the statistics region's output array among them — are known only once the
  statistics region has run. The thread state is every unscoped buffer whole at a valuation, the generator
  register at some state, nothing owed, and that second copy. After the statistics region the valuation is the
  one before it updated at the region's output array, at SOME contents (`post0`); after the output region it is
  updated once more at that region's output array.
-/
import proofs.«107669_j24335284699350_2_alg».proof.Proof.K.FrameData
import Idealize.ShloMosaic.Lib.Pipeline.RegionsLoop

set_option maxRecDepth 16384

noncomputable section

namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat HostSeg)

variable {F : FTy → Type} [FloatOps F]

/-- The user algebra: two copies of the rounds library's. The launch theorem's own copy (the left) funds the
    statistics region; the right copy funds the output region, whose entry contents are known only once the
    statistics region has run. -/
local notation "𝕌" => (UR sig nD τ × UR sig nD τ)
local notation "𝕄" => MT nD τ sig Unit (Elt F) ℕ (UR sig nD τ × UR sig nD τ) ℕ

variable (m : (ℓ : Loc nD τ sig) → Buf (Elt F) ℓ)

abbrev 𝒱₀ : Variants := Variants.none
/-- No core owes another anything: no level is assigned. -/
abbrev L : GSem nD τ sig → Finset Unit := fun _ => ∅
abbrev lv : GSem nD τ sig → Unit → ℕ := fun _ _ => 0

/-- The second copy's ghost state on core `c`, as the launch deals it: every pipeline's cells and duty tokens. -/
def G2 (c : Dev nD) : sProp 𝕄 :=
  iprop((bigSep Finset.univ fun p : Fin 2 => Pipeline.cellsGhost (Pipeline.pin (pcfgs (F := F)) adm) (embR (A := UR sig nD τ) (B := UR sig nD τ)) p c)
    ∗ (bigSep Finset.univ fun p : Fin 2 => Pipeline.toksInit (Pipeline.pin (pcfgs (F := F)) adm) (embR (A := UR sig nD τ) (B := UR sig nD τ)) p c))

/-- What rides beside the buffers through every segment: the generator register at some state, nothing owed, and
    the second copy's ghost state. -/
abbrev R (c : Dev nD) : sProp 𝕄 :=
  iprop((∃ r, prngReg c r) ∗ (∃ W, owes (c : Thread nD τ) (0 : CellTallies nD τ sig Unit) W) ∗ G2 (F := F) c)
abbrev E : Fin 3 → Dev nD → sProp 𝕄 := fun _ c => R (F := F) c

/-- The unscoped buffers when the statistics region is entered (after the seven host stretches), read at the
    TensorCore's references. -/
abbrev V7r : (c : Dev nD) → (b : Ref sig .tc) → Buf (Elt F) ((c : Thread nD τ).loc b) := fun c b => V7 m c b
/-- The unscoped buffers after the statistics region, given what it left in its output array. -/
abbrev W8 (c : Dev nD) (F6 : Buf (Elt F) ((c : Thread nD τ).loc main_v6)) : Valuation τ sig (Elt F) :=
  Function.update (V7 m c) main_v6 F6
/-- The unscoped buffers after the output region, given what each region left in its output array. -/
abbrev W9 (c : Dev nD) (F6 : Buf (Elt F) ((c : Thread nD τ).loc main_v6)) (F7 : Buf (Elt F) ((c : Thread nD τ).loc main_v7)) : Valuation τ sig (Elt F) :=
  Function.update (W8 m c F6) main_v7 F7

/-- Both pipelines' proof data, each at a family of entry contents. -/
def rdats (Va Vb : (c : Dev nD) → (b : Ref sig .tc) → Buf (Elt F) ((c : Thread nD τ).loc b)) :
    (p : Fin 2) → (c : Dev nD) → RDat τ (Elt F) Unit ℕ 𝕌 ℕ (Pipeline.pin (pcfgs (F := F)) adm p) c
  | ⟨0, _⟩ => fun c => rdat0 Va c
  | ⟨1, _⟩ => fun c => rdat1 Vb c

/-- EXIT, the arrays' part, for relational proof data: pipeline `p`'s arrays at contents `A` and the unscoped rest at
    `V` are the core's unscoped buffers at any valuation `V'` that has the arrays at `A` and agrees with `V` off them. -/
theorem arrays_join {p : Fin 2} (hw : Pipeline.WinFacts (Pipeline.pin (pcfgs (F := F)) adm p).spec)
    (harr : ∀ w, ((Pipeline.pin (pcfgs (F := F)) adm p).spec w).arr.IsWhole) (c : Dev nD)
    (rds : (p : Fin 2) → (c : Dev nD) → RDat τ (Elt F) Unit ℕ 𝕌 ℕ (Pipeline.pin (pcfgs (F := F)) adm p) c)
    (hshare : ∀ w, (rds p c).share w = fullShare)
    (V V' : (b : Ref sig .tc) → Buf (Elt F) ((c : Thread nD τ).loc b))
    (A : (w : Fin (Pipeline.pin (pcfgs (F := F)) adm p).W) → Buf (Elt F) (((Pipeline.pin (pcfgs (F := F)) adm p).spec w).arr.view.loc (c : Thread nD τ)))
    (hA : ∀ w, A w = V' (Pipeline.arrRef (Pipeline.pin (pcfgs (F := F)) adm p).spec w))
    (hrest : ∀ b, b ∉ Finset.univ.image (Pipeline.arrRef (Pipeline.pin (pcfgs (F := F)) adm p).spec) → V' b = V b) :
    iprop((rds p c).arrays A ∗ Pipeline.unscopedRest (Pipeline.pin (pcfgs (F := F)) adm p).spec c V) ⊢ (unscopedBufs c V' : sProp 𝕄) := by
  rw [Pipeline.unscopedBufs_split (Pipeline.pin (pcfgs (F := F)) adm) p hw.arr_unscoped hw.arr_inj c V',
    Pipeline.RDat.arrays_eq (pcfgs (F := F)) adm rds p c harr hshare]
  refine sep_mono (Entails.of_eq (bigSep_congr fun w _ => by rw [hA])) (Entails.of_eq ?_)
  unfold Pipeline.unscopedRest
  exact bigSep_congr fun b hb => by rw [hrest b (Finset.mem_sdiff.mp hb).2]

/-- What the statistics region leaves on core `c`: the unscoped buffers as it found them but for its output array
    `main_v6`, at SOME contents; the generator register, nothing owed, the second copy's ghost state. -/
def post0 (c : Dev nD) : sProp 𝕄 :=
  iprop(∃ F6 : Buf (Elt F) ((c : Thread nD τ).loc main_v6),
    StableHlo.held (c : Thread nD τ) (Pipeline.ucRefs τ sig) (W8 m c F6) ∗ R (F := F) c)

end Cert.Kernel.Hand
end
-- ==== Proof.K.FrameReg0.lean ====
/-
  The statistics region as a segment of @main. Entered from every unscoped buffer at the contents the seven host
  stretches left. Its three windowed arrays are split out of the unscoped buffers and joined back at the exit: an
  input array is never written, so the two operand arrays come back as found; the output array comes back at
  whatever its write-backs left, which the exit state binds existentially. The generator register enters the
  region's invariant and returns; nothing is owed throughout; the second copy of the algebra bypasses the region.
-/
import proofs.«107669_j24335284699350_2_alg».proof.Proof.K.FrameState

set_option maxRecDepth 16384

noncomputable section

namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat HostSeg)

variable {F : FTy → Type} [FloatOps F]

local notation "𝕌" => (UR sig nD τ × UR sig nD τ)
local notation "𝕄" => MT nD τ sig Unit (Elt F) ℕ (UR sig nD τ × UR sig nD τ) ℕ

variable (m : (ℓ : Loc nD τ sig) → Buf (Elt F) ℓ)

set_option backward.isDefEq.respectTransparency.types false in
/-- THE STATISTICS REGION as a segment: entered from every unscoped buffer at the contents the host stretches left
    (`V7`), left at `post0`. Its arrays are split out of the unscoped buffers and put back, the two inputs as found
    (an input array is never written) and the output at whatever the write-backs left; the generator register goes
    into the invariant and comes back; nothing is owed; the second copy's ghost state bypasses the region. -/
def reg0 : Pipeline.RDat.RegionSeg (pcfgs (F := F)) adm (rdats (V7r m) (V7r m)) () defs₀ 𝒱₀ L lv 0 where
  win := launch0.win.to₀
  block_pos := launch0.block_pos
  stage_whole := launch0.stage_whole
  K := PEmpty
  osem k := k.elim
  ho := Pipeline.OwnSemFacts.none _
  hbody c := body_obligation0 (V7r m) c
  hwaits := Pipeline.RDat.hwaits_of_owed_zero _ _ _ _ L lv 0 fun _ _ => rfl
  pre c := iprop(StableHlo.held (c : Thread nD τ) (Pipeline.ucRefs τ sig) (V7 m c) ∗ R (F := F) c)
  post c := post0 m c
  X c := iprop(∃ r, prngReg c r)
  Y c := iprop(∃ r, prngReg c r)
  Z c := iprop(Pipeline.unscopedRest (Ix := Unit) (Name := ℕ) (U := 𝕌) (Lvl := ℕ) spec0 c (V7r m c) ∗ G2 (F := F) c)
  hentry c := by
    rw [Pipeline.ownSems0_none]
    have hsplit := Pipeline.RDat.arrays_of_unscopedBufs (p := 0) (pcfgs (F := F)) adm (rdats (V7r m) (V7r m)) launch0.win launch0.arr_whole c
      ((rdats (V7r m) (V7r m) 0 c).share_full fun _ => rfl) (V7r m c) fun _ => rfl
    rw [Pipeline.unscopedBufs_held] at hsplit
    iintro ⟨⟨Hub, Hp, HO, HG⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    isplitl [Hrest]; · iexact Hrest
    iexact HG
  hin c := by
    rw [show (rdats (V7r m) (V7r m) 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats (V7r m) (V7r m) 0 c).Φ (Fin.last _) = Pipeline.ΦA spec0 c from rfl]; unfold Pipeline.ΦA
    iintro ⟨Hr, Hp⟩
    isplitl [Hp]; · iexact Hp
    isplitr; · iempintro
    iexact Hr
  hexit c := by
    unfold post0 Pipeline.RDat.arraysAt
    iintro ⟨Ha, HO, HY, Hrest, HG⟩
    ihave Ha' := (BI.bigSep_exists_pi Finset.univ (fun (w : Fin cfg0.W) (Fw : Buf (Elt F) ((cfg0.win w).arr.view.loc (c : Thread nD τ))) =>
        iprop(⌜(rdats (V7r m) (V7r m) 0 c).ArrAt w cfg0.N Fw⌝
          ∗ (cfg0.win w).arr.view.loc (c : Thread nD τ) ↦[(cfg0.win w).arr.view.set]{(rdats (V7r m) (V7r m) 0 c).share w} Fw))) $$ Ha
    icases Ha' with ⟨%A, Ha⟩
    ihave Ha2 := (BI.bigSep_pure_sep Finset.univ (fun w : Fin cfg0.W => (rdats (V7r m) (V7r m) 0 c).ArrAt w cfg0.N (A w))
        (fun w : Fin cfg0.W => ((cfg0.win w).arr.view.loc (c : Thread nD τ) ↦[(cfg0.win w).arr.view.set]{(rdats (V7r m) (V7r m) 0 c).share w} A w : sProp 𝕄))) $$ Ha
    icases Ha2 with ⟨%hA', Ha⟩
    have ne0 : (Proc.devRef .tc main_v3 : DevRef τ sig) ≠ Proc.devRef .tc main_v6 := StableHlo.devRef_ne_of_ne (by decide)
    have ne1 : (Proc.devRef .tc main_v5 : DevRef τ sig) ≠ Proc.devRef .tc main_v6 := StableHlo.devRef_ne_of_ne (by decide)
    have hA : ∀ w, A w = W8 m c (A 2) (Pipeline.arrRef spec0 w) := by
      intro w
      match w with
      | ⟨0, _⟩ =>
        have h := hA' 0 (Finset.mem_univ _)
        rw [RDat.ArrAt_in _ 0 rfl] at h
        have e : W8 m c (A 2) (Proc.devRef .tc main_v3) = V7 m c (Proc.devRef .tc main_v3) := Function.update_of_ne ne0 (A 2) (V7 m c)
        exact h.trans e.symm
      | ⟨1, _⟩ =>
        have h := hA' 1 (Finset.mem_univ _)
        rw [RDat.ArrAt_in _ 1 rfl] at h
        have e : W8 m c (A 2) (Proc.devRef .tc main_v5) = V7 m c (Proc.devRef .tc main_v5) := Function.update_of_ne ne1 (A 2) (V7 m c)
        exact h.trans e.symm
      | ⟨2, _⟩ =>
        exact (Function.update_self (Proc.devRef .tc main_v6 : DevRef τ sig) (A 2) (V7 m c)).symm
    have hrest : ∀ b : Ref sig .tc, b ∉ Finset.univ.image (Pipeline.arrRef spec0) → W8 m c (A 2) b = V7r m c b := fun b hb =>
      Function.update_of_ne (StableHlo.devRef_ne_of_ne fun e : b = main_v6 => hb (by rw [e]; exact Finset.mem_image.mpr ⟨2, Finset.mem_univ _, rfl⟩)) (A 2) (V7 m c)
    have hjoin := arrays_join (p := 0) launch0.win launch0.arr_whole c (rdats (V7r m) (V7r m))
      ((rdats (V7r m) (V7r m) 0 c).share_full fun _ => rfl) (V7r m c) (fun b => W8 m c (A 2) b) A hA hrest
    rw [Pipeline.unscopedBufs_held] at hjoin
    unfold Pipeline.RDat.arrays at hjoin
    imodintro
    iexists (A 2)
    isplitl [Ha Hrest]
    · iapply hjoin
      isplitl [Ha]; · iexact Ha
      iexact Hrest
    isplitl [HY]; · iexact HY
    isplitl [HO]
    · unfold Pipeline.RDat.owesAt Pipeline.owesWithin
      icases HO with ⟨%W, -, HO⟩; iexists W; iexact HO
    iexact HG

end Cert.Kernel.Hand
end
-- ==== Proof.K.FrameReg1.lean ====
/-
  The end state and the output region. No host stretch writes an argument array and neither region's output
  array is an argument, so whatever the two regions leave in their output arrays, the three arguments hold their
  launch contents in the last valuation (`W9_main_argK`). The output region reads the statistics region's output
  array through an input window, so its proof data can be stated only once those contents are at hand: for each
  family of such contents `reg1` is the region's record (its three input arrays come back as found, its output
  array at whatever the write-backs left), and `seg1r` is the region's custom call as a segment run from the
  existentially bound state: it takes the contents out of the existential, instantiates the record at them and
  applies the region rule with the second copy's ghost state of the region's staging cells.
-/
import proofs.«107669_j24335284699350_2_alg».proof.Proof.K.FrameState

set_option maxRecDepth 16384

noncomputable section

namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat HostSeg)

variable {F : FTy → Type} [FloatOps F]

local notation "𝕌" => (UR sig nD τ × UR sig nD τ)
local notation "𝕄" => MT nD τ sig Unit (Elt F) ℕ (UR sig nD τ × UR sig nD τ) ℕ

variable (m : (ℓ : Loc nD τ sig) → Buf (Elt F) ℓ)

/-! ## The arguments at the end -/

/-- No host stretch writes an argument and neither region's output array is one: whatever the regions left in
    `main_v6` and `main_v7`, each argument's buffer holds its launch contents at the end. -/
theorem W9_main_arg0 (c : Dev nD) (F6) (F7) : W9 m c F6 F7 main_arg0 = m ((c : Thread nD τ).loc main_arg0) :=
  (Function.update_of_ne (StableHlo.devRef_ne_of_ne (by decide)) _ _).trans <| (Function.update_of_ne (StableHlo.devRef_ne_of_ne (by decide)) _ _).trans <|
  (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans rfl
theorem W9_main_arg1 (c : Dev nD) (F6) (F7) : W9 m c F6 F7 main_arg1 = m ((c : Thread nD τ).loc main_arg1) :=
  (Function.update_of_ne (StableHlo.devRef_ne_of_ne (by decide)) _ _).trans <| (Function.update_of_ne (StableHlo.devRef_ne_of_ne (by decide)) _ _).trans <|
  (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans rfl
theorem W9_main_arg2 (c : Dev nD) (F6) (F7) : W9 m c F6 F7 main_arg2 = m ((c : Thread nD τ).loc main_arg2) :=
  (Function.update_of_ne (StableHlo.devRef_ne_of_ne (by decide)) _ _).trans <| (Function.update_of_ne (StableHlo.devRef_ne_of_ne (by decide)) _ _).trans <|
  (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans rfl

/-- The last thread state, without the `owes`: every unscoped buffer at SOME valuation that has the three arguments
    at their launch contents, the generator register at some state. -/
def Tn (c : Dev nD) : sProp 𝕄 :=
  iprop(∃ W : Valuation τ sig (Elt F),
    ⌜W main_arg0 = m ((c : Thread nD τ).loc main_arg0) ∧ W main_arg1 = m ((c : Thread nD τ).loc main_arg1) ∧ W main_arg2 = m ((c : Thread nD τ).loc main_arg2)⌝
      ∗ StableHlo.held (c : Thread nD τ) (Pipeline.ucRefs τ sig) W ∗ ∃ r, prngReg c r)

/-! ## The output region, entered at contents known only when it is entered -/

section
variable (o6 : (c : Dev nD) → Buf (Elt F) ((c : Thread nD τ).loc main_v6))

/-- The unscoped buffers when the output region is entered, given what the statistics region left in `main_v6`
    on each core, read at the TensorCore's references. -/
abbrev W8r : (c : Dev nD) → (b : Ref sig .tc) → Buf (Elt F) ((c : Thread nD τ).loc b) := fun c b => W8 m c (o6 c) b

set_option maxHeartbeats 1000000 in
set_option backward.isDefEq.respectTransparency.types false in
/-- THE OUTPUT REGION as a region record, at a given family `o6` of contents of `main_v6`: entered from every
    unscoped buffer at `W8 … (o6 c)`, left at the last thread state. Its three input arrays come back as found,
    its output array at whatever the write-backs left; no argument is among what changed. -/
def reg1 : Pipeline.RDat.RegionSeg (pcfgs (F := F)) adm (rdats (V7r m) (W8r m o6)) () defs₀ 𝒱₀ L lv 1 where
  win := launch1.win.to₀
  block_pos := launch1.block_pos
  stage_whole := launch1.stage_whole
  K := PEmpty
  osem k := k.elim
  ho := Pipeline.OwnSemFacts.none _
  hbody c := body_obligation1 (W8r m o6) c
  hwaits := Pipeline.RDat.hwaits_of_owed_zero _ _ _ _ L lv 1 fun _ _ => rfl
  pre c := iprop(StableHlo.held (c : Thread nD τ) (Pipeline.ucRefs τ sig) (W8 m c (o6 c)) ∗ (∃ r, prngReg c r) ∗ (∃ W, owes (c : Thread nD τ) (0 : CellTallies nD τ sig Unit) W))
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := 𝕌) (Lvl := ℕ) spec1 c (W8r m o6 c)
  hentry c := by
    rw [Pipeline.ownSems0_none]
    have hsplit := Pipeline.RDat.arrays_of_unscopedBufs (p := 1) (pcfgs (F := F)) adm (rdats (V7r m) (W8r m o6)) launch1.win launch1.arr_whole c
      ((rdats (V7r m) (W8r m o6) 1 c).share_full fun _ => rfl) (W8r m o6 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats (V7r m) (W8r m o6) 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats (V7r m) (W8r m o6) 1 c).Φ (Fin.last _) = Pipeline.ΦA spec1 c from rfl]; unfold Pipeline.ΦA
    iintro ⟨Hr, Hp⟩
    isplitl [Hp]; · iexact Hp
    isplitr; · iempintro
    iexact Hr
  hexit c := by
    unfold Tn Pipeline.RDat.arraysAt
    iintro ⟨Ha, HO, HY, Hrest⟩
    ihave Ha' := (BI.bigSep_exists_pi Finset.univ (fun (w : Fin cfg1.W) (Fw : Buf (Elt F) ((cfg1.win w).arr.view.loc (c : Thread nD τ))) =>
        iprop(⌜(rdats (V7r m) (W8r m o6) 1 c).ArrAt w cfg1.N Fw⌝
          ∗ (cfg1.win w).arr.view.loc (c : Thread nD τ) ↦[(cfg1.win w).arr.view.set]{(rdats (V7r m) (W8r m o6) 1 c).share w} Fw))) $$ Ha
    icases Ha' with ⟨%A, Ha⟩
    ihave Ha2 := (BI.bigSep_pure_sep Finset.univ (fun w : Fin cfg1.W => (rdats (V7r m) (W8r m o6) 1 c).ArrAt w cfg1.N (A w))
        (fun w : Fin cfg1.W => ((cfg1.win w).arr.view.loc (c : Thread nD τ) ↦[(cfg1.win w).arr.view.set]{(rdats (V7r m) (W8r m o6) 1 c).share w} A w : sProp 𝕄))) $$ Ha
    icases Ha2 with ⟨%hA', Ha⟩
    have ne0 : (Proc.devRef .tc main_v3 : DevRef τ sig) ≠ Proc.devRef .tc main_v7 := StableHlo.devRef_ne_of_ne (by decide)
    have ne1 : (Proc.devRef .tc main_v5 : DevRef τ sig) ≠ Proc.devRef .tc main_v7 := StableHlo.devRef_ne_of_ne (by decide)
    have ne2 : (Proc.devRef .tc main_v6 : DevRef τ sig) ≠ Proc.devRef .tc main_v7 := StableHlo.devRef_ne_of_ne (by decide)
    have hA : ∀ w, A w = W9 m c (o6 c) (A 3) (Pipeline.arrRef spec1 w) := by
      intro w
      match w with
      | ⟨0, _⟩ =>
        have h := hA' 0 (Finset.mem_univ _)
        rw [RDat.ArrAt_in _ 0 rfl] at h
        have e : W9 m c (o6 c) (A 3) (Proc.devRef .tc main_v3) = W8 m c (o6 c) (Proc.devRef .tc main_v3) := Function.update_of_ne ne0 (A 3) (W8 m c (o6 c))
        exact h.trans e.symm
      | ⟨1, _⟩ =>
        have h := hA' 1 (Finset.mem_univ _)
        rw [RDat.ArrAt_in _ 1 rfl] at h
        have e : W9 m c (o6 c) (A 3) (Proc.devRef .tc main_v5) = W8 m c (o6 c) (Proc.devRef .tc main_v5) := Function.update_of_ne ne1 (A 3) (W8 m c (o6 c))
        exact h.trans e.symm
      | ⟨2, _⟩ =>
        have h := hA' 2 (Finset.mem_univ _)
        rw [RDat.ArrAt_in _ 2 rfl] at h
        have e : W9 m c (o6 c) (A 3) (Proc.devRef .tc main_v6) = W8 m c (o6 c) (Proc.devRef .tc main_v6) := Function.update_of_ne ne2 (A 3) (W8 m c (o6 c))
        exact h.trans e.symm
      | ⟨3, _⟩ =>
        exact (Function.update_self (Proc.devRef .tc main_v7 : DevRef τ sig) (A 3) (W8 m c (o6 c))).symm
    have hrest : ∀ b : Ref sig .tc, b ∉ Finset.univ.image (Pipeline.arrRef spec1) → W9 m c (o6 c) (A 3) b = W8r m o6 c b := fun b hb =>
      Function.update_of_ne (StableHlo.devRef_ne_of_ne fun e : b = main_v7 => hb (by rw [e]; exact Finset.mem_image.mpr ⟨3, Finset.mem_univ _, rfl⟩)) (A 3) (W8 m c (o6 c))
    have hjoin := arrays_join (p := 1) launch1.win launch1.arr_whole c (rdats (V7r m) (W8r m o6))
      ((rdats (V7r m) (W8r m o6) 1 c).share_full fun _ => rfl) (W8r m o6 c) (fun b => W9 m c (o6 c) (A 3) b) A hA hrest
    rw [Pipeline.unscopedBufs_held] at hjoin
    unfold Pipeline.RDat.arrays at hjoin
    imodintro
    isplitr [HO]
    · iexists (W9 m c (o6 c) (A 3))
      isplitr
      · ipureintro
        exact ⟨W9_main_arg0 m c _ _, W9_main_arg1 m c _ _, W9_main_arg2 m c _ _⟩
      isplitl [Ha Hrest]
      · iapply hjoin
        isplitl [Ha]; · iexact Ha
        iexact Hrest
      iexact HY
    · unfold Pipeline.RDat.owesAt Pipeline.owesWithin
      icases HO with ⟨%W, -, HO⟩; iexists W; iexact HO

end

set_option backward.isDefEq.respectTransparency.types false in
/-- THE OUTPUT REGION as a segment of @main the launch theorem composes: its one custom call, run from `post0` —
    the statistics region's output array at SOME contents. Those contents are taken out of the existential first,
    the region's record is taken at them (`reg1`), and the region's rule (the library's) is applied with the cells'
    ghost state of the second copy of the algebra, which the thread state carried here from the launch. -/
def seg1r : HostSeg (Name := ℕ) (U := 𝕌) (pcfgs (F := F)) defs₀ 𝒱₀ L lv where
  prog := Prog.lift (.customCall (Pipeline.entry 1) ())
  pre c := post0 m c
  post c := iprop(Tn m c ∗ ∃ W, owes (c : Thread nD τ) (0 : CellTallies nD τ sig Unit) W)
  run c {β} k K := by
    have hg1 : (G2 (F := F) c : sProp 𝕄) ⊢ iprop(Pipeline.cellsGhost (Pipeline.pin (pcfgs (F := F)) adm) (embR (A := UR sig nD τ) (B := UR sig nD τ)) 1 c
        ∗ Pipeline.toksInit (Pipeline.pin (pcfgs (F := F)) adm) (embR (A := UR sig nD τ) (B := UR sig nD τ)) 1 c) := by
      unfold G2; exact BI.sep_mono (bigSep_elim (Finset.mem_univ (1 : Fin 2))) (bigSep_elim (Finset.mem_univ (1 : Fin 2)))
    unfold post0 R
    iintro ⟨Hk, Hbd, ⟨%F6, Hh, Hp, HO, HG⟩, #Hla⟩
    obtain ⟨o6, rfl⟩ : ∃ o6 : (c' : Dev nD) → Buf (Elt F) ((c' : Thread nD τ).loc main_v6), o6 c = F6 :=
      ⟨Function.update (fun c' => V7 m c' main_v6) c F6, Function.update_self _ _ _⟩
    ihave Hg := hg1 $$ HG
    icases Hg with ⟨Hg1, Ht1⟩
    have hwp := Pipeline.RDat.RegionSeg.wp (pcfgs (F := F)) adm (rdats (V7r m) (W8r m o6)) () cellOf_inj
      (embR (A := UR sig nD τ) (B := UR sig nD τ)) defs₀ 𝒱₀ L lv (reg1 m o6) c none (fun u h => nomatch h) k K
    iapply hwp
    isplitl [Hk]; · iexact Hk
    isplitl [Hbd]; · iexact Hbd
    isplitl [Hh Hp HO]
    · iapply (show iprop(StableHlo.held (c : Thread nD τ) (Pipeline.ucRefs τ sig) (W8 m c (o6 c)) ∗ (∃ r, prngReg c r)
          ∗ (∃ W, owes (c : Thread nD τ) (0 : CellTallies nD τ sig Unit) W)) ⊢ (reg1 m o6).pre c from .rfl)
      isplitl [Hh]; · iexact Hh
      isplitl [Hp]; · iexact Hp
      iexact HO
    isplitr; · iexact Hla
    isplitl [Hg1]; · iexact Hg1
    iexact Ht1

end Cert.Kernel.Hand
end
-- ==== Proof.K.Frame.lean ====
/-
  The frame of the word-level program, at any float instance: from any memory with every semaphore counter at
  zero, every weakly fair execution of @main terminates, nothing faults, and the three argument arrays end
  holding their launch contents. @main is seven host stretches, the statistics region and the output region, run
  in order on each core from the launch's deal; each host stretch runs over the unscoped buffers held whole; each
  region's body runs safely whatever its buffers hold, so no contents are named but the arguments', which no
  item writes.
-/
import proofs.«107669_j24335284699350_2_alg».proof.Proof.K.FrameReg0
import proofs.«107669_j24335284699350_2_alg».proof.Proof.K.FrameReg1

set_option maxRecDepth 16384

noncomputable section

namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat HostSeg)

variable {F : FTy → Type} [FloatOps F]

local notation "𝕌" => (UR sig nD τ × UR sig nD τ)
local notation "𝕄" => MT nD τ sig Unit (Elt F) ℕ (UR sig nD τ × UR sig nD τ) ℕ

variable (m : (ℓ : Loc nD τ sig) → Buf (Elt F) ℓ) (ρ : Dev nD → PrngReg)

/-- @main's nine items as segments: the seven host stretches over the unscoped buffers (the generated records, the
    rest `R` riding along), the statistics region, and the output region's custom call. -/
abbrev segs : List (Pipeline.RDat.Seg (pcfgs (F := F)) adm (rdats (V7r m) (V7r m)) () defs₀ 𝒱₀ L lv) :=
  [ .host (seg0 m 𝒱₀ L lv (E (F := F))), .host (seg1 m 𝒱₀ L lv (E (F := F))), .host (seg2 m 𝒱₀ L lv (E (F := F))),
    .host (seg3 m 𝒱₀ L lv (E (F := F))), .host (seg4 m 𝒱₀ L lv (E (F := F))), .host (seg5 m 𝒱₀ L lv (E (F := F))),
    .host (seg6 m 𝒱₀ L lv (E (F := F))), .region (reg0 m), .host (seg1r m) ]

/-- The launch element of one copy of the rounds library's algebra. -/
abbrev i₀ : UR sig nD τ := initOf (Pipeline.cells cfgs cellOf_inj) (Pipeline.launchToks cfgs cellOf_inj)

set_option backward.isDefEq.respectTransparency.types false in
/-- THE FRAME, at any `F`: from any memory with zero counters, every weakly fair execution of @main terminates,
    nothing faults, and the three argument arrays end holding their launch contents. The seven host stretches
    write no argument; each region hands its input arrays back as it found them and changes only its own output
    array, which is no argument. Neither region's body depends on what its buffers hold to run safely, so nothing
    is said of any contents but the arguments'. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.RDat.θ_run_regions_kit_dev (pcfgs (F := F)) adm (rdats (V7r m) (V7r m)) () cellOf_inj
    (embL (A := UR sig nD τ) (B := UR sig nD τ)) defs₀ 𝒱₀ L lv m ρ main (fun _ => segs m)
    (fun c Q => by
      rewrite [main_chain c, Pipeline.RDat.Seg.run_eq_chain,
        show (segs m).map Pipeline.RDat.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          Prog.lift (.customCall (Pipeline.entry 1) ()) ] from rfl]
      exact .rfl)
    (fun c => by simp only [segs, Pipeline.RDat.Seg.pipes_host, Pipeline.RDat.Seg.pipes_region, Pipeline.RDat.Seg.pipes_nil]; decide)
    (O₀ := 0) (hL := fun _ _ => rfl) (G := G2 (F := F)) (u₀ := (i₀, i₀)) (hu₀ := ?hu)
    (T₀ := fun c => iprop(StableHlo.held (c : Thread nD τ) (Pipeline.ucRefs τ sig) (V0 m c) ∗ R (F := F) c))
    (Tₙ := Tn m)
    (hch := fun c => ⟨.rfl, .rfl, .rfl, .rfl, .rfl, .rfl, .rfl, .rfl, .rfl, .rfl⟩)
    (hinit := ?hinit)
    (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2))
    (hfin := fun c s' => ?hfin) (hQ := fun _ h => h)
  case hu =>
    -- the launch element is a pair: the left half is the launch theorem's, the right half is dealt as the second
    -- copy's ghost state
    iintro Hu
    ihave H := (ownU_pair (nD := nD) (τ := τ) (sig := sig) (Ix := Unit) (Val := Elt F) (Name := ℕ) (Lvl := ℕ) (i₀ : UR sig nD τ) (i₀ : UR sig nD τ)) $$ Hu
    icases H with ⟨HL, HR⟩
    imod (Pipeline.fund_ghost (Pipeline.pin (pcfgs (F := F)) adm) (embR (A := UR sig nD τ) (B := UR sig nD τ)) cellOf_inj) $$ HR with ⟨Hg, Ht⟩
    imodintro
    isplitl [HL]; · iexact HL
    unfold G2; rw [bigSep_sep']
    isplitl [Hg]; · iexact Hg
    iexact Ht
  case hinit =>
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, HG⟩, -⟩
    imodintro
    isplitl [Hh]; · iexact Hh
    isplitl [Hp]; · iexists _; iexact Hp
    isplitl [HO]; · iexists ∅; iexact HO
    iexact HG
  case hfin =>
    -- the end: each argument's buffer read off the last valuation
    unfold Tn StableHlo.held
    iintro ⟨⟨%W, %hW, Hh, -⟩, HSI⟩
    ihave Hr := (pointsTo_read_all (Pipeline.ucRefs τ sig) (fun b => ((c : Thread nD τ).1, b)) W s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans hW.1,
        (h (Proc.devRef .tc main_arg1) (Finset.mem_filter.mpr ⟨StableHlo.devRef_mem_tcRefs main_arg1, by decide⟩)).trans hW.2.1,
        (h (Proc.devRef .tc main_arg2) (Finset.mem_filter.mpr ⟨StableHlo.devRef_mem_tcRefs main_arg2, by decide⟩)).trans hW.2.2⟩
    · iexact HSI

end Cert.Kernel.Hand
end
-- ==== Proof.lean ====
/- The five conjuncts of the claim, for a two-pass log-softmax over a vocabulary of 50000 tiled in blocks of 2048.

   Both programs first look up, for each of the 4096 batch rows b, column c(b) of W1 (c(b) = x b, or x b + 50000 for a
   negative index; the precondition keeps -50000 ≤ x b < 50000, so the lookup never takes its out-of-range filler), and
   form the scores s(b, v) = ∑ e < 300, W1[e, c(b)] · W2[v, e] (the kernel pads e to 384 with zeros on both factors: the
   extra products are 0 · 0). With finite W1 and W2 every score is a real number.

   The reference returns (s(b, v) - M b) - log (∑ v < 50000, exp (s(b, v) - M b)), M b the largest score of row b
   (Spec.lean states this as one function of the arguments). The kernel's first pass streams the 25 vocabulary tiles of a
   row, the positions 50000 ≤ v < 51200 of the last tile filled with the named constant, which denotes ⊥: it keeps (m, l),
   from (⊥, 0), by m' = max m (tile maximum) and l' = exp (m - m') · l + ∑ exp (s - m') over the tile, and stores
   m + log l. A filled position is ⊥, so it leaves the maximum alone and adds exp ⊥ = 0; the pair therefore ends at
   (M b, ∑ v < 50000, exp (s(b, v) - M b)), a positive real sum, and the second pass's s(b, v) - (m + log l) is the
   reference's value. Both runs are shown to end with the result array at that one function of the arguments, and the
   frames say the arguments are left as launched. -/
import proofs.«107669_j24335284699350_2_alg».proof.Defs
import proofs.«107669_j24335284699350_2_alg».proof.Proof.Gen.Kernel
import proofs.«107669_j24335284699350_2_alg».proof.Proof.Gen.KernelIdeal
import proofs.«107669_j24335284699350_2_alg».proof.Proof.Gen.ReferenceIdeal
import proofs.«107669_j24335284699350_2_alg».proof.Proof.Gen.Pre_finite_inputs
import proofs.«107669_j24335284699350_2_alg».proof.Proof.KI.Value
import proofs.«107669_j24335284699350_2_alg».proof.Proof.Ref.Value
import proofs.«107669_j24335284699350_2_alg».proof.Proof.K.Frame
import Idealize.ShloMosaic.Adequacy
import Idealize.ShloMosaic.Init

noncomputable section

namespace Cert.Proof

open Idealize.ShloMosaic Idealize.SL.Sem

/-- The fill of the masked vocabulary positions is named, and the name denotes ⊥: the bottom of the extended reals,
    neutral for the running maximum and sent to 0 by the exponential. -/
theorem preserves : Cert.preserves_Kernel_KernelIdeal :=
  IdealRules.named_const.statement Cert.KernelIdeal.κ "neg_big" .f32 0xFF333332#32 ⊥ rfl

/-- The idealized kernel program leaves its arguments as launched: a consequence of its run. -/
theorem frame_kernel_ideal : Cert.frame_KernelIdeal (hKernelIdeal := Cert.KernelIdeal.Gen.facts) (hPre_finite_inputs := Cert.Pre_finite_inputs.Gen.facts) :=
  fun m ρ _ => Cert.KernelIdeal.Hand.frame_ideal m ρ

/-- The word-level kernel program runs to the end, faults nowhere and leaves its arguments as launched. -/
theorem frame_kernel : Cert.frame_Kernel (hKernel := Cert.Kernel.Gen.facts) (hPre_finite_inputs := Cert.Pre_finite_inputs.Gen.facts) :=
  fun m ρ _ => Cert.Kernel.Hand.frame m ρ

/-- The reference runs to the end and leaves its arguments as launched: its run with the result dropped. -/
theorem frame_reference_ideal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run m ρ)

/-- From memories agreeing on the arguments both runs end with the result array at the specification's function of them. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KernelIdeal.Hand.kernel_value m ρ hpre, ?_⟩
  obtain ⟨-, -, hx⟩ := Cert.PreFacts.of_pre _ _ _ (hpre 0)
  refine (θ_run Cert.ReferenceIdeal.defs _ _).mono (fun _ h c => ⟨(h c).1.trans ?_, (h c).2⟩)
    (Cert.ReferenceIdeal.RefValue.run m' ρ')
  obtain rfl : c = 0 := Subsingleton.elim _ _
  rw [(hagree 0).1, (hagree 0).2.1, (hagree 0).2.2]
  exact Cert.ReferenceIdeal.RefValue.refTerm_eq _ _ _ hx

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
